-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S1600000 : Shape := ⟨1, ![1600000]⟩
abbrev S384x128 : Shape := ⟨2, ![384, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x1 .f32) (main_arg2 : IVec S1600000 32) (main_arg3 : IVec S1600000 32) (main_arg4 : FVec F S384x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S100000x1 : Shape := ⟨2, ![100000, 1]⟩
abbrev S1600000 : Shape := ⟨1, ![1600000]⟩
abbrev S384x128 : Shape := ⟨2, ![384, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S128x128 : Shape := ⟨2, ![128, 128]⟩
abbrev S1x128 : Shape := ⟨2, ![1, 128]⟩
abbrev S2x1x128 : Shape := ⟨3, ![2, 1, 128]⟩
abbrev S2000x128 : Shape := ⟨2, ![2000, 128]⟩
abbrev S2000x1 : Shape := ⟨2, ![2000, 1]⟩
abbrev S1x1x128 : Shape := ⟨3, ![1, 1, 128]⟩

abbrev nBuf : Space → Nat
  | .hbm => 112
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S384x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S128x128, .bf16⟩
  | .hbm, ⟨73, _⟩ => ⟨S128x128, .f32⟩
  | .hbm, ⟨74, _⟩ => ⟨S128x128, .bf16⟩
  | .hbm, ⟨75, _⟩ => ⟨S128x128, .f32⟩
  | .hbm, ⟨76, _⟩ => ⟨S128x128, .bf16⟩
  | .hbm, ⟨77, _⟩ => ⟨S1x128, .f32⟩
  | .hbm, ⟨78, _⟩ => ⟨S100000x128, .f32⟩
  | .hbm, ⟨79, _⟩ => ⟨S2x1x128, .f32⟩
  | .hbm, ⟨80, _⟩ => ⟨S2x1x128, .f32⟩
  | .hbm, ⟨81, _⟩ => ⟨S1x1x128, .f32⟩
  | .hbm, ⟨82, _⟩ => ⟨S128, .f32⟩
  | .hbm, ⟨83, _⟩ => ⟨S1x1x128, .f32⟩
  | .hbm, ⟨84, _⟩ => ⟨S128, .f32⟩
  | .hbm, ⟨85, _⟩ => ⟨S128, .f32⟩
  | .hbm, ⟨86, _⟩ => ⟨S1x1x128, .f32⟩
  | .hbm, ⟨87, _⟩ => ⟨S128, .f32⟩
  | .hbm, ⟨88, _⟩ => ⟨S1x1x128, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S1x128, .f32⟩
  | .hbm, ⟨111, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54_0 : Ref sig .tc := ⟨.hbm, 78, rfl⟩
abbrev main_v54_1 : Ref sig .tc := ⟨.hbm, 79, rfl⟩
abbrev main_v54_2 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v45 : BitVec 1 := Scalar.cmpi .eq arg1 c24_i32
  let v46 : BitVec 32 := Scalar.extui v45
  let c0_i32_30 : BitVec 32 := 0#32
  let v47 : BitVec 1 := Scalar.cmpi .ne v46 c0_i32_30
  v47

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  reduces_S2000x128_S128 : S2000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S2x1x128_S1x1x128_0_0_0 : S2x1x128.Slices ![0, 0, 0] S1x1x128
  shapeCasts_S1x1x128_S128 : S1x1x128.ShapeCasts S128
  slices_S2x1x128_S1x1x128_1_0_0 : S2x1x128.Slices ![1, 0, 0] S1x1x128
  bcast_S_S128 : S_.BroadcastsInDim S128 (![] : Fin 0 → Fin S128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S100000x1.size a
  hwx0_7 : ∀ i : grid0.Coords, EltTy.bits .f32 = 32 ∨ (Rect.block (s := S100000x1) S2000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S2x1x128.size a
  hwx0_9 : ∀ i : grid0.Coords, EltTy.bits .f32 = 32 ∨ (Rect.block (s := S2x1x128) S1x1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S2x1x128.size a
  hwx0_10 : ∀ i : grid0.Coords, EltTy.bits .f32 = 32 ∨ (Rect.block (s := S2x1x128) S1x1x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S2000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v54_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v54_1) S1x1x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v54_2) S1x1x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v54_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v80) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S1600000 : Shape := ⟨1, ![1600000]⟩
abbrev S384x128 : Shape := ⟨2, ![384, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x384 : Shape := ⟨2, ![100000, 384]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S384x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x384, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_cst : Ref sig .tc := ⟨.hbm, 108, rfl⟩
abbrev main_call1_v0 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.KB.R0Defs.lean ====
import proofs.«108745_j38998303048417_2_alg».proof.Proof.Gen.Kernel.Launch
import proofs.«108745_j38998303048417_2_alg».proof.Proof.Gen.Kernel.Skeleton
import proofs.«108745_j38998303048417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first kernel region (linear layer, graph norm, running batch statistics): what its three cases share

The region walks a grid of 2 halves by 25 row blocks. At each point the body reads three 2000 x 128 feature blocks,
three 128 x 128 weight slabs, the bias row and the 2000 x 1 row factors, stores the 2000 x 128 block of
`y = ((x0·w0 + x1·w1) + x2·w2 + bias) · snorm`, and adds the column sums of `y` and of `y·y` into two 1 x 128
accumulators that live in scratch memory and are CARRIED from one point to the next. At the first block of a half
(second coordinate 0) it first resets both accumulators to zero; at the last block of a half (second coordinate 24) it
copies them into the half's row of the two 2 x 1 x 128 statistics outputs. So a point is in one of three cases:
first block (reset, no copy), a middle block (neither), last block (copy, no reset).

Everything here is stated at a parameter `V`, the TensorCore's buffer contents when the region is entered, and at any
float interpretation `F`. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched its
    block index has not moved and the body leaves the buffer as found. For any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where it is not fetched its
    block index has not moved and the body leaves the buffer as found. For any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where it is not fetched its
    block index has not moved and the body leaves the buffer as found. For any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: where it is not fetched its
    block index has not moved and the body leaves the buffer as found. For any proof data whose array is `V`'s and
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: where it is not fetched its
    block index has not moved and the body leaves the buffer as found. For any proof data whose array is `V`'s and
    whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: where it is not fetched its
    block index has not moved and the body leaves the buffer as found. For any proof data whose array is `V`'s and
    whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: where it is not fetched its
    block index has not moved and the body leaves the buffer as found. For any proof data whose array is `V`'s and
    whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not: where it is not fetched its
    block index has not moved and the body leaves the buffer as found. For any proof data whose array is `V`'s and
    whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first block of its half": the body's reset condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last block of its half": the body's copy-out condition. -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Away from a half's last block the statistics output 9 is idle: nothing is stored into it and it is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- At a half's last block it is live. -/
theorem liveAt0_9_C : ∀ t : Fin cfg0.N, cond0_1 (grid0.coords t) → cfg0.idle 9 (grid0.coords t) = false := by decide +kernel
/-- Away from a half's last block the statistics output 10 is idle: nothing is stored into it and it is not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- At a half's last block it is live. -/
theorem liveAt0_10_C : ∀ t : Fin cfg0.N, cond0_1 (grid0.coords t) → cfg0.idle 10 (grid0.coords t) = false := by decide +kernel

/-! ## The staging and scratch buffers the body is called with -/

/-- One staging buffer per output window, through which its contents are stated (the choice does not matter). -/
abbrev VO0_8 : View sig .tc .vmem S2000x128 .f32 := (Memref.whole cc0_stg8_0 : Memref sig .tc .vmem S2000x128 .f32).view
abbrev VO0_9 : View sig .tc .vmem S1x1x128 .f32 := (Memref.whole cc0_stg9_0 : Memref sig .tc .vmem S1x1x128 .f32).view
abbrev VO0_10 : View sig .tc .vmem S1x1x128 .f32 := (Memref.whole cc0_stg10_0 : Memref sig .tc .vmem S1x1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2000x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128 .f32 := win0_10.stage (cfg0.slots t 10)
abbrev hs0_10 (t : Fin cfg0.N) : (ms0_10 t).IsWhole := hstage0_10 ((cfg0.slots t 10).cast nbuf0_10)
/-- The two accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped buffers of the core that this region neither stages nor uses (the other region's staging buffers), each
    whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain region invariant with the two accumulators as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.Kernel.Hand

end
-- ==== Proof.KB.R0RunA.lean ====
import proofs.«108745_j38998303048417_2_alg».proof.Proof.KB.R0Defs

/-! # The first region's body at the FIRST block of a half

The reset branch is taken, the copy-out branch is not. The body zeroes both accumulators, stores the block of `y`, and
adds the block's column sums to the (just zeroed) accumulators; the two statistics outputs are not touched. The run
below finds, as lists of stores (last first), what the block output and the two accumulators end with. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the inputs at contents `x·`, the block output and both accumulators at anything, the two idle
    statistics outputs at contents `xi·` handed back untouched — the body runs to the continuation with the inputs as
    they were, the block output with its stores `L8` written and the accumulators with theirs (`LS0`, `LS1`). -/
noncomputable def kernelRun0_A (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) :
    Σ' (L8 : List (View.Piece (Elt F) S2000x128 .f32)) (LS0 : List (View.Piece (Elt F) S1x128 .f32)), { LS1 : List (View.Piece (Elt F) S1x128 .f32) //
      ∀ (xi9 xi10 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__linear_graphnorm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

end Cert.Kernel.Hand

end
-- ==== Proof.KB.R0RunB.lean ====
import proofs.«108745_j38998303048417_2_alg».proof.Proof.KB.R0RunA

/-! # The first region's body at a MIDDLE block of a half

Neither branch is taken. The body stores the block of `y` and adds the block's column sums to the accumulators, which
it finds at the contents `xs·` the point before left; the two statistics outputs are not touched. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the inputs at contents `x·`, the block output at anything, the accumulators at `xs·`, the two
    idle statistics outputs at contents `xi·` handed back untouched — the body runs to the continuation with the inputs
    as they were, the block output with its stores `L8` written and the accumulators with theirs (`LS0`, `LS1`). -/
noncomputable def kernelRun0_B (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) :
    Σ' (L8 : List (View.Piece (Elt F) S2000x128 .f32)) (LS0 : List (View.Piece (Elt F) S1x128 .f32)), { LS1 : List (View.Piece (Elt F) S1x128 .f32) //
      ∀ (xi9 xi10 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__linear_graphnorm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

end Cert.Kernel.Hand

end
-- ==== Proof.KB.R0RunC.lean ====
import proofs.«108745_j38998303048417_2_alg».proof.Proof.KB.R0RunB

/-! # The first region's body at the LAST block of a half

The copy-out branch is taken, the reset branch is not. The body stores the block of `y`, adds the block's column sums
to the accumulators (found at the contents `xs·` the point before left), and copies the two accumulators into the
half's rows of the two statistics outputs. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the inputs at contents `x·`, the three outputs at anything, the accumulators at `xs·` — the
    body runs to the continuation with the inputs as they were, each output with its stores written (`L8`, `L9`,
    `L10`) and the accumulators with theirs (`LS0`, `LS1`). -/
noncomputable def kernelRun0_C (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) :
    Σ' (L8 : List (View.Piece (Elt F) S2000x128 .f32)) (L9 L10 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__linear_graphnorm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.Kernel.Hand

end
-- ==== Proof.KB.R0Data.lean ====
import proofs.«108745_j38998303048417_2_alg».proof.Proof.KB.R0RunC

/-! # The first kernel region: what its buffers hold point by point, and its proof data

Each case's run (first block, middle block, last block of a half) found the stores each buffer ends with; read back,
they are what the case leaves in the block output, in the two statistics outputs (last block only) and in the two
accumulators. `outsAt0` threads them through the grid: the accumulators a middle or last block starts from are what
the point before left. The region's invariant (`PhiS`) carries the accumulators at those contents between points, and
the proof data (`dat0`) says what each window's staging buffer holds after the body at each point. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the block output's staging buffer: its stores read back. -/
def out0_A_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) : Vec F S2000x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)
/-- Those stores tile the buffer, so they cover it. -/
theorem cover0_A_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) (y : S2000x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S2000x128.size (by sl_kernel_rfl) y
/-- What this case leaves in the first accumulator (the running column sums). -/
def sout0_A_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)
/-- Those stores tile the buffer, so they cover it. -/
theorem scover0_A_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 S1x128.size (by sl_kernel_rfl) y
/-- What this case leaves in the second accumulator (the running column sums of squares). -/
def sout0_A_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)
/-- Those stores tile the buffer, so they cover it. -/
theorem scover0_A_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 S1x128.size (by sl_kernel_rfl) y

/-- What this case leaves in the block output's staging buffer: its stores read back. -/
def out0_B_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S2000x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Those stores tile the buffer, so they cover it. -/
theorem cover0_B_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) (y : S2000x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 S2000x128.size (by sl_kernel_rfl) y
/-- What this case leaves in the first accumulator (the running column sums). -/
def sout0_B_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Those stores tile the buffer, so they cover it. -/
theorem scover0_B_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 S1x128.size (by sl_kernel_rfl) y
/-- What this case leaves in the second accumulator (the running column sums of squares). -/
def sout0_B_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)
/-- Those stores tile the buffer, so they cover it. -/
theorem scover0_B_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 S1x128.size (by sl_kernel_rfl) y

/-- What this case leaves in the block output's staging buffer: its stores read back. -/
def out0_C_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S2000x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Those stores tile the buffer, so they cover it. -/
theorem cover0_C_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S2000x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 S2000x128.size (by sl_kernel_rfl) y
/-- What this case leaves in the first statistics output's staging buffer. -/
def out0_C_9 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x1x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Those stores tile the buffer, so they cover it. -/
theorem cover0_C_9 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 S1x1x128.size (by sl_kernel_rfl) y
/-- What this case leaves in the second statistics output's staging buffer. -/
def out0_C_10 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x1x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)
/-- Those stores tile the buffer, so they cover it. -/
theorem cover0_C_10 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 S1x1x128.size (by sl_kernel_rfl) y
/-- What this case leaves in the first accumulator (the running column sums). -/
def sout0_C_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1)
/-- Those stores tile the buffer, so they cover it. -/
theorem scover0_C_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1 S1x128.size (by sl_kernel_rfl) y
/-- What this case leaves in the second accumulator (the running column sums of squares). -/
def sout0_C_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1)
/-- Those stores tile the buffer, so they cover it. -/
theorem scover0_C_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1 S1x128.size (by sl_kernel_rfl) y

/-! ## The accumulation over the grid -/

/-- The five buffers the body writes: the block output, the two statistics outputs, the two accumulators. -/
abbrev Out5 (F : FTy → Type) : Type := Vec F S2000x128 .f32 × Vec F S1x1x128 .f32 × Vec F S1x1x128 .f32 × Vec F S1x128 .f32 × Vec F S1x128 .f32

/-- A first block: the case's contents; the statistics outputs are idle there (a placeholder nothing consults). -/
def caseA (c : Dev nD) (t : Fin cfg0.N) (h0 : t.val % 25 = 0) (h1 : ¬t.val % 25 = 24) : Out5 F :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t),
   VO0_9.read (Elt F) VO0_9.junk, VO0_10.read (Elt F) VO0_10.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))

/-- A middle block, over what the point before left (`p`): its accumulators are where this one starts. -/
def caseB (c : Dev nD) (t : Fin cfg0.N) (h0 : ¬t.val % 25 = 0) (h1 : ¬t.val % 25 = 24) (p : Out5 F) : Out5 F :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   VO0_9.read (Elt F) VO0_9.junk, VO0_10.read (Elt F) VO0_10.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) p.2.2.2.1 p.2.2.2.2)

/-- A last block, over what the point before left. -/
def caseC (c : Dev nD) (t : Fin cfg0.N) (h0 : ¬t.val % 25 = 0) (h1 : t.val % 25 = 24) (p : Out5 F) : Out5 F :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2)

/-- What the five buffers hold after the body at position `n`: by recursion on the point, the case its position modulo
    25 selects. No position is both a first and a last block. -/
def outsAt0 (c : Dev nD) : (n : ℕ) → n < cfg0.N → Out5 F
  | 0, hn => caseA V c ⟨0, hn⟩ (Nat.zero_mod _) (fun h => absurd ((Nat.zero_mod 25).symm.trans h) (by decide))
  | n + 1, hn =>
    if h0 : (n + 1) % 25 = 0 then
      if h1 : (n + 1) % 25 = 24 then False.elim (by omega)
      else caseA V c ⟨n + 1, hn⟩ h0 h1
    else
      if h1 : (n + 1) % 25 = 24 then caseC V c ⟨n + 1, hn⟩ h0 h1 (outsAt0 c n (Nat.lt_of_succ_lt hn))
      else caseB V c ⟨n + 1, hn⟩ h0 h1 (outsAt0 c n (Nat.lt_of_succ_lt hn))

theorem outsAt0_A (c : Dev nD) (t : Fin cfg0.N) (h0 : t.val % 25 = 0) (h1 : ¬t.val % 25 = 24) :
    outsAt0 V c t.val t.isLt = caseA V c t h0 h1 := by
  obtain ⟨n, hn⟩ := t
  cases n with
  | zero => rfl
  | succ n => exact (dif_pos h0).trans (dif_neg h1)

theorem outsAt0_B (c : Dev nD) (t : Fin cfg0.N) (h0 : ¬t.val % 25 = 0) (h1 : ¬t.val % 25 = 24) :
    outsAt0 V c t.val t.isLt = caseB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 25 = 0) (h1 : t.val % 25 = 24) :
    outsAt0 V c t.val t.isLt = caseC V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant carried between points -/

/-- Before the first point the plain invariant (every scratch at anything); afterwards the two accumulators at what the
    point before left, the rest of the scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest0 (F := F) c) ∗ (∃ r, prngReg c r)) := by
  cases n with
  | zero => exact absurd rfl hz
  | succ n => rfl

/-! ## The proof data -/

/-- The region's proof data on core `c`: the arrays as the region finds them; after the body at point `t` each input's
    buffer at its block and the three outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

end Cert.Kernel.Hand

end
-- ==== Proof.KB.R0Body.lean ====
import proofs.«108745_j38998303048417_2_alg».proof.Proof.KB.R0Data

/-! # The first kernel region: the body obligation and the invariant's two ends

At any point the body finds the inputs' staging buffers at their blocks and the accumulators where the invariant keeps
them (at anything before the region's first point; at what the point before left afterwards). The point's position
modulo 25 says which of the three cases it is in, that case's run applies, and the invariant takes the accumulators back
at this point's contents. The statistics outputs are idle away from a half's last block: their buffers are handed back
untouched and are not written back there. The core owes nothing throughout. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    · -- a first block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [Dat.leavesExact_idle (dat0 V c) 10 t (idleAt0_10 t (fun h => h1 ((hcond0_1 t).mp h))) (noFlush0_10 t (fun h => h1 ((hcond0_1 t).mp h)))]
      rw [outsAt0_A V c t h0 h1]
      unfold caseA out0_A_8 sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexists _; iexact HS0
        isplitl [HS1]; · iexists _; iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
  · have hz : t.val ≠ 0 := fun h => h0 (by rw [h])
    by_cases h1 : t.val % 25 = 24
    · -- a last block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9_C t ((hcond0_1 t).mpr h1)], after0_9]
      rw [show (dat0 V c).leavesExact 10 t = owns (c : Thread nD τ) (ms0_10 t) fullShare ((dat0 V c).after 10 t) from by
        unfold Dat.leavesExact; rw [liveAt0_10_C t ((hcond0_1 t).mpr h1)], after0_10]
      rw [outsAt0_C V c t h0 h1]
      unfold caseC out0_C_8 out0_C_9 out0_C_10 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, ⟨%e8, H8⟩, ⟨%e9, H9⟩, ⟨%e10, H10⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ _)
    · -- a middle block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [Dat.leavesExact_idle (dat0 V c) 10 t (idleAt0_10 t (fun h => h1 ((hcond0_1 t).mp h))) (noFlush0_10 t (fun h => h1 ((hcond0_1 t).mp h)))]
      rw [outsAt0_B V c t h0 h1]
      unfold caseB out0_B_8 sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, ⟨%e8, H8⟩, H9, H10, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _)
      isplitl [H9]; · iexists _; iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the plain invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.KB.Region0.lean ====
import proofs.«108745_j38998303048417_2_alg».proof.Proof.KB.R0Body

/-! # The first kernel region, as the run of @main uses it

This module only gathers the region's pieces under one name. What the run needs of the region is: its proof data
`dat0` at the entry contents `V` (the arrays as found, `A_eq0`; full shares; nothing owed), the body obligation
`body_obligation0` at every grid point, and the two ends of its invariant — the plain invariant the launch hands over
is the invariant before the first point (`hin0`), and after the last point the invariant gives the plain one back,
forgetting what the two accumulators hold (`hout0`). -/
-- ==== Proof.KB.Region1.lean ====
import proofs.«108745_j38998303048417_2_alg».proof.Proof.Gen.Kernel.Launch
import proofs.«108745_j38998303048417_2_alg».proof.Proof.Gen.Kernel.Skeleton
import proofs.«108745_j38998303048417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region (the finalize kernel), at arbitrary entry contents

The region walks the 50 row blocks of a 100000 x 128 array `h`; at block `t` its body reads the
2000 x 128 block of `h` and the two 1 x 128 rows `scale` and `shift` (the same rows at every block)
and stores `max (h * scale + shift) 0` over the whole 2000 x 128 output block. Nothing is carried
from one block to the next, so the pipeline's invariant is the plain one: the scoped rest and the
generator register, untouched.

Everything here is stated at a parameter `V`, the TensorCore's buffer contents when the region is
entered, and at any float interpretation `F`. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the input `h` holds its block at every point: it is fetched at every point, and the body
    leaves it as fetched. Stated for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of the row `scale` holds its block at every point: it is fetched at the first point only, but
    its block index never moves and the body leaves the buffer as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the row `shift`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_blk : Rect S2000x128 := Rect.unit (s := S2000x128) ![0, 0] S2000x128.size inb_S2000x128_S2000x128_0_0
abbrev r1_row : Rect S1x128 := Rect.unit (s := S1x128) ![0, 0] S1x128.size inb_S1x128_S1x128_0_0

/-! ## What the body leaves in the output block -/

/-- The output's staging buffer after the body, as a function of the three input blocks: the one store, of
    `max (h * scale + shift) 0` (the payload of the kernel's skeleton) over the whole buffer. -/
def out1_3 (x0 : Vec F S2000x128 .f32) (x1 : Vec F S1x128 .f32) (x2 : Vec F S1x128 .f32) : Vec F S2000x128 .f32 :=
  View.canon [⟨r1_blk, k1_pay1 (View.ld x0 r1_blk) (View.ld x1 r1_row) (View.ld x2 r1_row)⟩]

/-- That store covers the buffer. -/
theorem cover1_3 (p0 : Vec F S2000x128 .f32) (y : S2000x128.Idx) :
    ∃ pc ∈ ([⟨r1_blk, p0⟩] : List (View.Piece (Elt F) S2000x128 .f32)), y ∈ pc.1.set :=
  View.cover_of_tiled [⟨r1_blk, p0⟩] S2000x128.size (by rfl) y

/-! ## The body's triple -/

set_option maxHeartbeats 4000000 in
/-- The kernel body on whole staging buffers — the inputs' holding `x0 x1 x2`, the output's anything — runs to the
    continuation with the inputs as they were and the output at `out1_3 x0 x1 x2`. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__finalize_kernel i arg1 harg1 arg2 harg2 arg3 harg3 arg4 harg4) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t` each
    input's buffer at its block and the output's at `out1_3` of the three blocks; the plain invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Main.lean ====
import proofs.«108745_j38998303048417_2_alg».proof.Proof.KB.Region0
import proofs.«108745_j38998303048417_2_alg».proof.Proof.KB.Region1
import proofs.«108745_j38998303048417_2_alg».proof.Proof.Gen.Kernel.Regions

/-! # The run of the whole program

The program is six segments in order: three stretches of host operations (the graph aggregation and
the slices of the weight), the first kernel region (linear layer and column sums), one more stretch
of host operations (mean, variance, scale and shift), and the second kernel region (the finalize
kernel).

The buffer contents at the seven segment boundaries are a fold `W0 … W6` from the launch memory: a
host stretch maps the contents through its operations; a region replaces each of its arrays by what
its write-backs leave and keeps every other buffer. Over the thread state "every unscoped buffer at
the boundary's contents, the generator register at some state, nothing owed" each stretch and each
region is a segment, and the library's theorem for a list of segments gives the run: every weakly
fair execution terminates, nothing faults, and at the end every unscoped buffer holds `W6`. From
that, every argument array reads back through the fold to its launch contents (no host operation
and no region writes an argument), and the result array holds what the second region's write-backs
leave. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch, -/
abbrev W1 : Dev nD → Valuation τ sig (Elt F) := fun c => StableHlo.after hostOps0 (W0 m ρ c)
/-- the second, -/
abbrev W2 : Dev nD → Valuation τ sig (Elt F) := fun c => StableHlo.after hostOps0_1 (W1 m ρ c)
/-- and the third: the first region's entry. -/
abbrev W3 : Dev nD → Valuation τ sig (Elt F) := fun c => StableHlo.after hostOps0_2 (W2 m ρ c)
/-- The same read at the TensorCore's references (what the first region's proof data take). -/
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At the first region's exit each of its arrays holds what the pipeline leaves and every other buffer what it
    held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the fourth host stretch: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The result array at the end holds what the second region's write-backs leave. -/
theorem W6_out (c : Dev nD) : W6 m ρ c (Proc.devRef .tc main_v81) = (dat1 (V5 m ρ) c).arrAt 3 cfg1.N :=
  W6_arr m ρ c 3

/-! ### The arguments end as launched

No host operation writes an argument, the second region stages none, and the first region reads two of them
through input windows (never written back) and bypasses the others: the fold at an argument's buffer walks back
to the launch memory. -/

/-- A reference that no host stretch writes, that is no array of the second region, and that the first region leaves
    as found, ends as launched. -/
theorem W6_of_untouched (c : Dev nD) (r : Ref sig .tc) (h6 : ∀ w, Pipeline.arrRef spec1 w ≠ r) (h5 : r ∉ hostOps1_W)
    (h4 : W4 m ρ c (Proc.devRef .tc r) = W3 m ρ c (Proc.devRef .tc r))
    (h3 : r ∉ hostOps0_2_W) (h2 : r ∉ hostOps0_1_W) (h1 : r ∉ hostOps0_W) :
    W6 m ρ c (Proc.devRef .tc r) = m ((c : Thread nD τ).loc r) :=
  calc W6 m ρ c (Proc.devRef .tc r)
    _ = W5 m ρ c (Proc.devRef .tc r) := W6_of_ne m ρ c r h6
    _ = W4 m ρ c (Proc.devRef .tc r) := StableHlo.after_of_writes_sub hostOps1 _ hostOps1_writes h5
    _ = W3 m ρ c (Proc.devRef .tc r) := h4
    _ = W2 m ρ c (Proc.devRef .tc r) := StableHlo.after_of_writes_sub hostOps0_2 _ hostOps0_2_writes h3
    _ = W1 m ρ c (Proc.devRef .tc r) := StableHlo.after_of_writes_sub hostOps0_1 _ hostOps0_1_writes h2
    _ = W0 m ρ c (Proc.devRef .tc r) := StableHlo.after_of_writes_sub hostOps0 _ hostOps0_writes h1
    _ = m ((c : Thread nD τ).loc r) := rfl

/-- The node features: the first region's input window 0. -/
theorem W6_main_arg0 (c : Dev nD) : W6 m ρ c (Proc.devRef .tc main_arg0) = m ((c : Thread nD τ).loc main_arg0) :=
  W6_of_untouched m ρ c main_arg0 (by decide) (by decide)
    ((W4_arr m ρ c 0).trans (((dat0 (V3 m ρ) c).arrAt_in 0 rfl _).trans (A_eq0 (V3 m ρ) c 0)))
    (by decide) (by decide) (by decide)
/-- The bias: the first region's input window 7. -/
theorem W6_main_arg1 (c : Dev nD) : W6 m ρ c (Proc.devRef .tc main_arg1) = m ((c : Thread nD τ).loc main_arg1) :=
  W6_of_untouched m ρ c main_arg1 (by decide) (by decide)
    ((W4_arr m ρ c 7).trans (((dat0 (V3 m ρ) c).arrAt_in 7 rfl _).trans (A_eq0 (V3 m ρ) c 7)))
    (by decide) (by decide) (by decide)
/-- The other arguments are no array of either region. -/
theorem W6_main_arg2 (c : Dev nD) : W6 m ρ c (Proc.devRef .tc main_arg2) = m ((c : Thread nD τ).loc main_arg2) :=
  W6_of_untouched m ρ c main_arg2 (by decide) (by decide) (W4_of_ne m ρ c main_arg2 (by decide)) (by decide) (by decide) (by decide)
theorem W6_main_arg3 (c : Dev nD) : W6 m ρ c (Proc.devRef .tc main_arg3) = m ((c : Thread nD τ).loc main_arg3) :=
  W6_of_untouched m ρ c main_arg3 (by decide) (by decide) (W4_of_ne m ρ c main_arg3 (by decide)) (by decide) (by decide) (by decide)
theorem W6_main_arg4 (c : Dev nD) : W6 m ρ c (Proc.devRef .tc main_arg4) = m ((c : Thread nD τ).loc main_arg4) :=
  W6_of_untouched m ρ c main_arg4 (by decide) (by decide) (W4_of_ne m ρ c main_arg4 (by decide)) (by decide) (by decide) (by decide)
theorem W6_main_arg5 (c : Dev nD) : W6 m ρ c (Proc.devRef .tc main_arg5) = m ((c : Thread nD τ).loc main_arg5) :=
  W6_of_untouched m ρ c main_arg5 (by decide) (by decide) (W4_of_ne m ρ c main_arg5 (by decide)) (by decide) (by decide) (by decide)
theorem W6_main_arg6 (c : Dev nD) : W6 m ρ c (Proc.devRef .tc main_arg6) = m ((c : Thread nD τ).loc main_arg6) :=
  W6_of_untouched m ρ c main_arg6 (by decide) (by decide) (W4_of_ne m ρ c main_arg6 (by decide)) (by decide) (by decide) (by decide)
theorem W6_main_arg7 (c : Dev nD) : W6 m ρ c (Proc.devRef .tc main_arg7) = m ((c : Thread nD τ).loc main_arg7) :=
  W6_of_untouched m ρ c main_arg7 (by decide) (by decide) (W4_of_ne m ρ c main_arg7 (by decide)) (by decide) (by decide) (by decide)

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W6`, the generator register at some
    state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first region over the thread state: entered from every unscoped buffer at `W3`, left at `W4`. Its arrays are
    split out of the unscoped buffers and put back at the exit contents; the generator register and the scoped rest
    go into the region's invariant at the first point and come back from it at the last (the invariant in between
    also carries the two accumulators); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun w => A_eq0 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V3 m ρ) c)
    unfold Pipeline.ΦA
    iintro ⟨Hp, -, Hr⟩
    isplitl [Hr]; · iexact Hr
    iexact Hp
  hout c := by
    rw [Pipeline.ownSems0_none]
    refine .trans (hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W5`, left at `W6` (what the launch
    reads at the end). The generator register goes into the plain invariant and out; nothing owed; no semaphore of
    the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

/-- The program is the run of the segments: it is the chain of its six items, and so is the segments' run. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of the program on the TensorCores
    terminates, nothing faulting, and in every final state every unscoped buffer holds the last boundary's
    contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every weakly fair execution terminates, nothing faulting, and every final state has the eight
    argument arrays as launched: each is an unscoped buffer, read off the run's post and back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.Kernel.Hand

end
-- ==== Proof.KI.R0Defs.lean ====
import proofs.«108745_j38998303048417_2_alg».proof.Proof.Gen.KernelIdeal.Launch
import proofs.«108745_j38998303048417_2_alg».proof.Proof.Gen.KernelIdeal.Skeleton
import proofs.«108745_j38998303048417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first kernel region (linear layer, graph norm, running batch statistics): what its three cases share

The region walks a grid of 2 halves by 25 row blocks. At each point the body reads three 2000 x 128 feature blocks,
three 128 x 128 weight slabs, the bias row and the 2000 x 1 row factors, stores the 2000 x 128 block of
`y = ((x0·w0 + x1·w1) + x2·w2 + bias) · snorm`, and adds the column sums of `y` and of `y·y` into two 1 x 128
accumulators that live in scratch memory and are CARRIED from one point to the next. At the first block of a half
(second coordinate 0) it first resets both accumulators to zero; at the last block of a half (second coordinate 24) it
copies them into the half's row of the two 2 x 1 x 128 statistics outputs. So a point is in one of three cases:
first block (reset, no copy), a middle block (neither), last block (copy, no reset).

Everything here is stated at a parameter `V`, the TensorCore's buffer contents when the region is entered, and at any
float interpretation `F`. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched its
    block index has not moved and the body leaves the buffer as found. For any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where it is not fetched its
    block index has not moved and the body leaves the buffer as found. For any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where it is not fetched its
    block index has not moved and the body leaves the buffer as found. For any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: where it is not fetched its
    block index has not moved and the body leaves the buffer as found. For any proof data whose array is `V`'s and
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: where it is not fetched its
    block index has not moved and the body leaves the buffer as found. For any proof data whose array is `V`'s and
    whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: where it is not fetched its
    block index has not moved and the body leaves the buffer as found. For any proof data whose array is `V`'s and
    whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: where it is not fetched its
    block index has not moved and the body leaves the buffer as found. For any proof data whose array is `V`'s and
    whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not: where it is not fetched its
    block index has not moved and the body leaves the buffer as found. For any proof data whose array is `V`'s and
    whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first block of its half": the body's reset condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last block of its half": the body's copy-out condition. -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Away from a half's last block the statistics output 9 is idle: nothing is stored into it and it is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- At a half's last block it is live. -/
theorem liveAt0_9_C : ∀ t : Fin cfg0.N, cond0_1 (grid0.coords t) → cfg0.idle 9 (grid0.coords t) = false := by decide +kernel
/-- Away from a half's last block the statistics output 10 is idle: nothing is stored into it and it is not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- At a half's last block it is live. -/
theorem liveAt0_10_C : ∀ t : Fin cfg0.N, cond0_1 (grid0.coords t) → cfg0.idle 10 (grid0.coords t) = false := by decide +kernel

/-! ## The staging and scratch buffers the body is called with -/

/-- One staging buffer per output window, through which its contents are stated (the choice does not matter). -/
abbrev VO0_8 : View sig .tc .vmem S2000x128 .f32 := (Memref.whole cc0_stg8_0 : Memref sig .tc .vmem S2000x128 .f32).view
abbrev VO0_9 : View sig .tc .vmem S1x1x128 .f32 := (Memref.whole cc0_stg9_0 : Memref sig .tc .vmem S1x1x128 .f32).view
abbrev VO0_10 : View sig .tc .vmem S1x1x128 .f32 := (Memref.whole cc0_stg10_0 : Memref sig .tc .vmem S1x1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2000x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128 .f32 := win0_10.stage (cfg0.slots t 10)
abbrev hs0_10 (t : Fin cfg0.N) : (ms0_10 t).IsWhole := hstage0_10 ((cfg0.slots t 10).cast nbuf0_10)
/-- The two accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped buffers of the core that this region neither stages nor uses (the other region's staging buffers), each
    whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain region invariant with the two accumulators as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.KernelIdeal.Hand

end
-- ==== Proof.KI.R0RunA.lean ====
import proofs.«108745_j38998303048417_2_alg».proof.Proof.KI.R0Defs

/-! # The first region's body at the FIRST block of a half

The reset branch is taken, the copy-out branch is not. The body zeroes both accumulators, stores the block of `y`, and
adds the block's column sums to the (just zeroed) accumulators; the two statistics outputs are not touched. The run
below finds, as lists of stores (last first), what the block output and the two accumulators end with. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the inputs at contents `x·`, the block output and both accumulators at anything, the two idle
    statistics outputs at contents `xi·` handed back untouched — the body runs to the continuation with the inputs as
    they were, the block output with its stores `L8` written and the accumulators with theirs (`LS0`, `LS1`). -/
noncomputable def kernelRun0_A (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) :
    Σ' (L8 : List (View.Piece (Elt F) S2000x128 .f32)) (LS0 : List (View.Piece (Elt F) S1x128 .f32)), { LS1 : List (View.Piece (Elt F) S1x128 .f32) //
      ∀ (xi9 xi10 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__linear_graphnorm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

end Cert.KernelIdeal.Hand

end
-- ==== Proof.KI.R0RunB.lean ====
import proofs.«108745_j38998303048417_2_alg».proof.Proof.KI.R0RunA

/-! # The first region's body at a MIDDLE block of a half

Neither branch is taken. The body stores the block of `y` and adds the block's column sums to the accumulators, which
it finds at the contents `xs·` the point before left; the two statistics outputs are not touched. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the inputs at contents `x·`, the block output at anything, the accumulators at `xs·`, the two
    idle statistics outputs at contents `xi·` handed back untouched — the body runs to the continuation with the inputs
    as they were, the block output with its stores `L8` written and the accumulators with theirs (`LS0`, `LS1`). -/
noncomputable def kernelRun0_B (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) :
    Σ' (L8 : List (View.Piece (Elt F) S2000x128 .f32)) (LS0 : List (View.Piece (Elt F) S1x128 .f32)), { LS1 : List (View.Piece (Elt F) S1x128 .f32) //
      ∀ (xi9 xi10 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__linear_graphnorm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

end Cert.KernelIdeal.Hand

end
-- ==== Proof.KI.R0RunC.lean ====
import proofs.«108745_j38998303048417_2_alg».proof.Proof.KI.R0RunB

/-! # The first region's body at the LAST block of a half

The copy-out branch is taken, the reset branch is not. The body stores the block of `y`, adds the block's column sums
to the accumulators (found at the contents `xs·` the point before left), and copies the two accumulators into the
half's rows of the two statistics outputs. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the inputs at contents `x·`, the three outputs at anything, the accumulators at `xs·` — the
    body runs to the continuation with the inputs as they were, each output with its stores written (`L8`, `L9`,
    `L10`) and the accumulators with theirs (`LS0`, `LS1`). -/
noncomputable def kernelRun0_C (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) :
    Σ' (L8 : List (View.Piece (Elt F) S2000x128 .f32)) (L9 L10 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__linear_graphnorm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.KernelIdeal.Hand

end
-- ==== Proof.KI.R0Data.lean ====
import proofs.«108745_j38998303048417_2_alg».proof.Proof.KI.R0RunC

/-! # The first kernel region: what its buffers hold point by point, and its proof data

Each case's run (first block, middle block, last block of a half) found the stores each buffer ends with; read back,
they are what the case leaves in the block output, in the two statistics outputs (last block only) and in the two
accumulators. `outsAt0` threads them through the grid: the accumulators a middle or last block starts from are what
the point before left. The region's invariant (`PhiS`) carries the accumulators at those contents between points, and
the proof data (`dat0`) says what each window's staging buffer holds after the body at each point. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the block output's staging buffer: its stores read back. -/
def out0_A_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) : Vec F S2000x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)
/-- Those stores tile the buffer, so they cover it. -/
theorem cover0_A_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) (y : S2000x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S2000x128.size (by sl_kernel_rfl) y
/-- What this case leaves in the first accumulator (the running column sums). -/
def sout0_A_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)
/-- Those stores tile the buffer, so they cover it. -/
theorem scover0_A_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 S1x128.size (by sl_kernel_rfl) y
/-- What this case leaves in the second accumulator (the running column sums of squares). -/
def sout0_A_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)
/-- Those stores tile the buffer, so they cover it. -/
theorem scover0_A_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 S1x128.size (by sl_kernel_rfl) y

/-- What this case leaves in the block output's staging buffer: its stores read back. -/
def out0_B_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S2000x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Those stores tile the buffer, so they cover it. -/
theorem cover0_B_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) (y : S2000x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 S2000x128.size (by sl_kernel_rfl) y
/-- What this case leaves in the first accumulator (the running column sums). -/
def sout0_B_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Those stores tile the buffer, so they cover it. -/
theorem scover0_B_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 S1x128.size (by sl_kernel_rfl) y
/-- What this case leaves in the second accumulator (the running column sums of squares). -/
def sout0_B_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)
/-- Those stores tile the buffer, so they cover it. -/
theorem scover0_B_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 S1x128.size (by sl_kernel_rfl) y

/-- What this case leaves in the block output's staging buffer: its stores read back. -/
def out0_C_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S2000x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Those stores tile the buffer, so they cover it. -/
theorem cover0_C_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S2000x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 S2000x128.size (by sl_kernel_rfl) y
/-- What this case leaves in the first statistics output's staging buffer. -/
def out0_C_9 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x1x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Those stores tile the buffer, so they cover it. -/
theorem cover0_C_9 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 S1x1x128.size (by sl_kernel_rfl) y
/-- What this case leaves in the second statistics output's staging buffer. -/
def out0_C_10 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x1x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)
/-- Those stores tile the buffer, so they cover it. -/
theorem cover0_C_10 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 S1x1x128.size (by sl_kernel_rfl) y
/-- What this case leaves in the first accumulator (the running column sums). -/
def sout0_C_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1)
/-- Those stores tile the buffer, so they cover it. -/
theorem scover0_C_0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1 S1x128.size (by sl_kernel_rfl) y
/-- What this case leaves in the second accumulator (the running column sums of squares). -/
def sout0_C_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1)
/-- Those stores tile the buffer, so they cover it. -/
theorem scover0_C_1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1 S1x128.size (by sl_kernel_rfl) y

/-! ## The accumulation over the grid -/

/-- The five buffers the body writes: the block output, the two statistics outputs, the two accumulators. -/
abbrev Out5 (F : FTy → Type) : Type := Vec F S2000x128 .f32 × Vec F S1x1x128 .f32 × Vec F S1x1x128 .f32 × Vec F S1x128 .f32 × Vec F S1x128 .f32

/-- A first block: the case's contents; the statistics outputs are idle there (a placeholder nothing consults). -/
def caseA (c : Dev nD) (t : Fin cfg0.N) (h0 : t.val % 25 = 0) (h1 : ¬t.val % 25 = 24) : Out5 F :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t),
   VO0_9.read (Elt F) VO0_9.junk, VO0_10.read (Elt F) VO0_10.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))

/-- A middle block, over what the point before left (`p`): its accumulators are where this one starts. -/
def caseB (c : Dev nD) (t : Fin cfg0.N) (h0 : ¬t.val % 25 = 0) (h1 : ¬t.val % 25 = 24) (p : Out5 F) : Out5 F :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   VO0_9.read (Elt F) VO0_9.junk, VO0_10.read (Elt F) VO0_10.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) p.2.2.2.1 p.2.2.2.2)

/-- A last block, over what the point before left. -/
def caseC (c : Dev nD) (t : Fin cfg0.N) (h0 : ¬t.val % 25 = 0) (h1 : t.val % 25 = 24) (p : Out5 F) : Out5 F :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) p.2.2.2.1 p.2.2.2.2)

/-- What the five buffers hold after the body at position `n`: by recursion on the point, the case its position modulo
    25 selects. No position is both a first and a last block. -/
def outsAt0 (c : Dev nD) : (n : ℕ) → n < cfg0.N → Out5 F
  | 0, hn => caseA V c ⟨0, hn⟩ (Nat.zero_mod _) (fun h => absurd ((Nat.zero_mod 25).symm.trans h) (by decide))
  | n + 1, hn =>
    if h0 : (n + 1) % 25 = 0 then
      if h1 : (n + 1) % 25 = 24 then False.elim (by omega)
      else caseA V c ⟨n + 1, hn⟩ h0 h1
    else
      if h1 : (n + 1) % 25 = 24 then caseC V c ⟨n + 1, hn⟩ h0 h1 (outsAt0 c n (Nat.lt_of_succ_lt hn))
      else caseB V c ⟨n + 1, hn⟩ h0 h1 (outsAt0 c n (Nat.lt_of_succ_lt hn))

theorem outsAt0_A (c : Dev nD) (t : Fin cfg0.N) (h0 : t.val % 25 = 0) (h1 : ¬t.val % 25 = 24) :
    outsAt0 V c t.val t.isLt = caseA V c t h0 h1 := by
  obtain ⟨n, hn⟩ := t
  cases n with
  | zero => rfl
  | succ n => exact (dif_pos h0).trans (dif_neg h1)

theorem outsAt0_B (c : Dev nD) (t : Fin cfg0.N) (h0 : ¬t.val % 25 = 0) (h1 : ¬t.val % 25 = 24) :
    outsAt0 V c t.val t.isLt = caseB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 25 = 0) (h1 : t.val % 25 = 24) :
    outsAt0 V c t.val t.isLt = caseC V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant carried between points -/

/-- Before the first point the plain invariant (every scratch at anything); afterwards the two accumulators at what the
    point before left, the rest of the scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest0 (F := F) c) ∗ (∃ r, prngReg c r)) := by
  cases n with
  | zero => exact absurd rfl hz
  | succ n => rfl

/-! ## The proof data -/

/-- The region's proof data on core `c`: the arrays as the region finds them; after the body at point `t` each input's
    buffer at its block and the three outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

end Cert.KernelIdeal.Hand

end
-- ==== Proof.KI.R0Body.lean ====
import proofs.«108745_j38998303048417_2_alg».proof.Proof.KI.R0Data

/-! # The first kernel region: the body obligation and the invariant's two ends

At any point the body finds the inputs' staging buffers at their blocks and the accumulators where the invariant keeps
them (at anything before the region's first point; at what the point before left afterwards). The point's position
modulo 25 says which of the three cases it is in, that case's run applies, and the invariant takes the accumulators back
at this point's contents. The statistics outputs are idle away from a half's last block: their buffers are handed back
untouched and are not written back there. The core owes nothing throughout. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    · -- a first block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [Dat.leavesExact_idle (dat0 V c) 10 t (idleAt0_10 t (fun h => h1 ((hcond0_1 t).mp h))) (noFlush0_10 t (fun h => h1 ((hcond0_1 t).mp h)))]
      rw [outsAt0_A V c t h0 h1]
      unfold caseA out0_A_8 sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexists _; iexact HS0
        isplitl [HS1]; · iexists _; iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
  · have hz : t.val ≠ 0 := fun h => h0 (by rw [h])
    by_cases h1 : t.val % 25 = 24
    · -- a last block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9_C t ((hcond0_1 t).mpr h1)], after0_9]
      rw [show (dat0 V c).leavesExact 10 t = owns (c : Thread nD τ) (ms0_10 t) fullShare ((dat0 V c).after 10 t) from by
        unfold Dat.leavesExact; rw [liveAt0_10_C t ((hcond0_1 t).mpr h1)], after0_10]
      rw [outsAt0_C V c t h0 h1]
      unfold caseC out0_C_8 out0_C_9 out0_C_10 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, ⟨%e8, H8⟩, ⟨%e9, H9⟩, ⟨%e10, H10⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ _)
    · -- a middle block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [Dat.leavesExact_idle (dat0 V c) 10 t (idleAt0_10 t (fun h => h1 ((hcond0_1 t).mp h))) (noFlush0_10 t (fun h => h1 ((hcond0_1 t).mp h)))]
      rw [outsAt0_B V c t h0 h1]
      unfold caseB out0_B_8 sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, ⟨%e8, H8⟩, H9, H10, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _)
      isplitl [H9]; · iexists _; iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the plain invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.Region0.lean ====
import proofs.«108745_j38998303048417_2_alg».proof.Proof.KI.R0Body

/-! # The first kernel region, as the run of @main uses it

This module only gathers the region's pieces under one name. What the run needs of the region is: its proof data
`dat0` at the entry contents `V` (the arrays as found, `A_eq0`; full shares; nothing owed), the body obligation
`body_obligation0` at every grid point, and the two ends of its invariant — the plain invariant the launch hands over
is the invariant before the first point (`hin0`), and after the last point the invariant gives the plain one back,
forgetting what the two accumulators hold (`hout0`). -/
-- ==== Proof.KI.Region1.lean ====
import proofs.«108745_j38998303048417_2_alg».proof.Proof.Gen.KernelIdeal.Launch
import proofs.«108745_j38998303048417_2_alg».proof.Proof.Gen.KernelIdeal.Skeleton
import proofs.«108745_j38998303048417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region (the finalize kernel), at arbitrary entry contents

The region walks the 50 row blocks of a 100000 x 128 array `h`; at block `t` its body reads the
2000 x 128 block of `h` and the two 1 x 128 rows `scale` and `shift` (the same rows at every block)
and stores `max (h * scale + shift) 0` over the whole 2000 x 128 output block. Nothing is carried
from one block to the next, so the pipeline's invariant is the plain one: the scoped rest and the
generator register, untouched.

Everything here is stated at a parameter `V`, the TensorCore's buffer contents when the region is
entered, and at any float interpretation `F`. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the input `h` holds its block at every point: it is fetched at every point, and the body
    leaves it as fetched. Stated for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of the row `scale` holds its block at every point: it is fetched at the first point only, but
    its block index never moves and the body leaves the buffer as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the row `shift`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_blk : Rect S2000x128 := Rect.unit (s := S2000x128) ![0, 0] S2000x128.size inb_S2000x128_S2000x128_0_0
abbrev r1_row : Rect S1x128 := Rect.unit (s := S1x128) ![0, 0] S1x128.size inb_S1x128_S1x128_0_0

/-! ## What the body leaves in the output block -/

/-- The output's staging buffer after the body, as a function of the three input blocks: the one store, of
    `max (h * scale + shift) 0` (the payload of the kernel's skeleton) over the whole buffer. -/
def out1_3 (x0 : Vec F S2000x128 .f32) (x1 : Vec F S1x128 .f32) (x2 : Vec F S1x128 .f32) : Vec F S2000x128 .f32 :=
  View.canon [⟨r1_blk, k1_pay1 (View.ld x0 r1_blk) (View.ld x1 r1_row) (View.ld x2 r1_row)⟩]

/-- That store covers the buffer. -/
theorem cover1_3 (p0 : Vec F S2000x128 .f32) (y : S2000x128.Idx) :
    ∃ pc ∈ ([⟨r1_blk, p0⟩] : List (View.Piece (Elt F) S2000x128 .f32)), y ∈ pc.1.set :=
  View.cover_of_tiled [⟨r1_blk, p0⟩] S2000x128.size (by rfl) y

/-! ## The body's triple -/

set_option maxHeartbeats 4000000 in
/-- The kernel body on whole staging buffers — the inputs' holding `x0 x1 x2`, the output's anything — runs to the
    continuation with the inputs as they were and the output at `out1_3 x0 x1 x2`. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__finalize_kernel i arg1 harg1 arg2 harg2 arg3 harg3 arg4 harg4) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t` each
    input's buffer at its block and the output's at `out1_3` of the three blocks; the plain invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Main.lean ====
import proofs.«108745_j38998303048417_2_alg».proof.Proof.KI.Region0
import proofs.«108745_j38998303048417_2_alg».proof.Proof.KI.Region1
import proofs.«108745_j38998303048417_2_alg».proof.Proof.Gen.KernelIdeal.Regions

/-! # The run of the whole program

The program is six segments in order: three stretches of host operations (the graph aggregation and
the slices of the weight), the first kernel region (linear layer and column sums), one more stretch
of host operations (mean, variance, scale and shift), and the second kernel region (the finalize
kernel).

The buffer contents at the seven segment boundaries are a fold `W0 … W6` from the launch memory: a
host stretch maps the contents through its operations; a region replaces each of its arrays by what
its write-backs leave and keeps every other buffer. Over the thread state "every unscoped buffer at
the boundary's contents, the generator register at some state, nothing owed" each stretch and each
region is a segment, and the library's theorem for a list of segments gives the run: every weakly
fair execution terminates, nothing faults, and at the end every unscoped buffer holds `W6`. From
that, every argument array reads back through the fold to its launch contents (no host operation
and no region writes an argument), and the result array holds what the second region's write-backs
leave. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch, -/
abbrev W1 : Dev nD → Valuation τ sig (Elt F) := fun c => StableHlo.after hostOps0 (W0 m ρ c)
/-- the second, -/
abbrev W2 : Dev nD → Valuation τ sig (Elt F) := fun c => StableHlo.after hostOps0_1 (W1 m ρ c)
/-- and the third: the first region's entry. -/
abbrev W3 : Dev nD → Valuation τ sig (Elt F) := fun c => StableHlo.after hostOps0_2 (W2 m ρ c)
/-- The same read at the TensorCore's references (what the first region's proof data take). -/
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At the first region's exit each of its arrays holds what the pipeline leaves and every other buffer what it
    held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the fourth host stretch: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The result array at the end holds what the second region's write-backs leave. -/
theorem W6_out (c : Dev nD) : W6 m ρ c (Proc.devRef .tc main_v81) = (dat1 (V5 m ρ) c).arrAt 3 cfg1.N :=
  W6_arr m ρ c 3

/-! ### The arguments end as launched

No host operation writes an argument, the second region stages none, and the first region reads two of them
through input windows (never written back) and bypasses the others: the fold at an argument's buffer walks back
to the launch memory. -/

/-- A reference that no host stretch writes, that is no array of the second region, and that the first region leaves
    as found, ends as launched. -/
theorem W6_of_untouched (c : Dev nD) (r : Ref sig .tc) (h6 : ∀ w, Pipeline.arrRef spec1 w ≠ r) (h5 : r ∉ hostOps1_W)
    (h4 : W4 m ρ c (Proc.devRef .tc r) = W3 m ρ c (Proc.devRef .tc r))
    (h3 : r ∉ hostOps0_2_W) (h2 : r ∉ hostOps0_1_W) (h1 : r ∉ hostOps0_W) :
    W6 m ρ c (Proc.devRef .tc r) = m ((c : Thread nD τ).loc r) :=
  calc W6 m ρ c (Proc.devRef .tc r)
    _ = W5 m ρ c (Proc.devRef .tc r) := W6_of_ne m ρ c r h6
    _ = W4 m ρ c (Proc.devRef .tc r) := StableHlo.after_of_writes_sub hostOps1 _ hostOps1_writes h5
    _ = W3 m ρ c (Proc.devRef .tc r) := h4
    _ = W2 m ρ c (Proc.devRef .tc r) := StableHlo.after_of_writes_sub hostOps0_2 _ hostOps0_2_writes h3
    _ = W1 m ρ c (Proc.devRef .tc r) := StableHlo.after_of_writes_sub hostOps0_1 _ hostOps0_1_writes h2
    _ = W0 m ρ c (Proc.devRef .tc r) := StableHlo.after_of_writes_sub hostOps0 _ hostOps0_writes h1
    _ = m ((c : Thread nD τ).loc r) := rfl

/-- The node features: the first region's input window 0. -/
theorem W6_main_arg0 (c : Dev nD) : W6 m ρ c (Proc.devRef .tc main_arg0) = m ((c : Thread nD τ).loc main_arg0) :=
  W6_of_untouched m ρ c main_arg0 (by decide) (by decide)
    ((W4_arr m ρ c 0).trans (((dat0 (V3 m ρ) c).arrAt_in 0 rfl _).trans (A_eq0 (V3 m ρ) c 0)))
    (by decide) (by decide) (by decide)
/-- The bias: the first region's input window 7. -/
theorem W6_main_arg1 (c : Dev nD) : W6 m ρ c (Proc.devRef .tc main_arg1) = m ((c : Thread nD τ).loc main_arg1) :=
  W6_of_untouched m ρ c main_arg1 (by decide) (by decide)
    ((W4_arr m ρ c 7).trans (((dat0 (V3 m ρ) c).arrAt_in 7 rfl _).trans (A_eq0 (V3 m ρ) c 7)))
    (by decide) (by decide) (by decide)
/-- The other arguments are no array of either region. -/
theorem W6_main_arg2 (c : Dev nD) : W6 m ρ c (Proc.devRef .tc main_arg2) = m ((c : Thread nD τ).loc main_arg2) :=
  W6_of_untouched m ρ c main_arg2 (by decide) (by decide) (W4_of_ne m ρ c main_arg2 (by decide)) (by decide) (by decide) (by decide)
theorem W6_main_arg3 (c : Dev nD) : W6 m ρ c (Proc.devRef .tc main_arg3) = m ((c : Thread nD τ).loc main_arg3) :=
  W6_of_untouched m ρ c main_arg3 (by decide) (by decide) (W4_of_ne m ρ c main_arg3 (by decide)) (by decide) (by decide) (by decide)
theorem W6_main_arg4 (c : Dev nD) : W6 m ρ c (Proc.devRef .tc main_arg4) = m ((c : Thread nD τ).loc main_arg4) :=
  W6_of_untouched m ρ c main_arg4 (by decide) (by decide) (W4_of_ne m ρ c main_arg4 (by decide)) (by decide) (by decide) (by decide)
theorem W6_main_arg5 (c : Dev nD) : W6 m ρ c (Proc.devRef .tc main_arg5) = m ((c : Thread nD τ).loc main_arg5) :=
  W6_of_untouched m ρ c main_arg5 (by decide) (by decide) (W4_of_ne m ρ c main_arg5 (by decide)) (by decide) (by decide) (by decide)
theorem W6_main_arg6 (c : Dev nD) : W6 m ρ c (Proc.devRef .tc main_arg6) = m ((c : Thread nD τ).loc main_arg6) :=
  W6_of_untouched m ρ c main_arg6 (by decide) (by decide) (W4_of_ne m ρ c main_arg6 (by decide)) (by decide) (by decide) (by decide)
theorem W6_main_arg7 (c : Dev nD) : W6 m ρ c (Proc.devRef .tc main_arg7) = m ((c : Thread nD τ).loc main_arg7) :=
  W6_of_untouched m ρ c main_arg7 (by decide) (by decide) (W4_of_ne m ρ c main_arg7 (by decide)) (by decide) (by decide) (by decide)

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W6`, the generator register at some
    state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first region over the thread state: entered from every unscoped buffer at `W3`, left at `W4`. Its arrays are
    split out of the unscoped buffers and put back at the exit contents; the generator register and the scoped rest
    go into the region's invariant at the first point and come back from it at the last (the invariant in between
    also carries the two accumulators); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun w => A_eq0 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V3 m ρ) c)
    unfold Pipeline.ΦA
    iintro ⟨Hp, -, Hr⟩
    isplitl [Hr]; · iexact Hr
    iexact Hp
  hout c := by
    rw [Pipeline.ownSems0_none]
    refine .trans (hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W5`, left at `W6` (what the launch
    reads at the end). The generator register goes into the plain invariant and out; nothing owed; no semaphore of
    the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

/-- The program is the run of the segments: it is the chain of its six items, and so is the segments' run. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of the program on the TensorCores
    terminates, nothing faulting, and in every final state every unscoped buffer holds the last boundary's
    contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every weakly fair execution terminates, nothing faulting, and every final state has the eight
    argument arrays as launched: each is an unscoped buffer, read off the run's post and back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.KernelIdeal.Hand

end
-- ==== Proof.KI.Region1Value.lean ====
import proofs.«108745_j38998303048417_2_alg».proof.Proof.KI.Region1
import Idealize.ShloMosaic.Lib.Pipeline.Value
import Idealize.ShloMosaic.Lib.ValueIdx
import Idealize.ShloMosaic.PureOps.Ideal.Laws

/-! # The value of the second kernel region, over the extended reals

At the ideal float interpretation (a float is an extended real) the array the finalize kernel leaves is
one function of the three arrays it reads, index by index:

  `out (r, k) = max (h (r, k) * scale (0, k) + shift (0, k)) 0`   for `r < 100000`, `k < 128`.

The argument: at grid point `t` the body's stored value, read at a block index `(a, k)`, is
`max (x0 (a, k) * x1 (0, k) + x2 (0, k)) 0` of the three input blocks (the shape casts are identities,
the two broadcasts read row 0, the constant is zero); the block of `h` at `t` and the output block at `t`
are the same rows `2000 t … 2000 t + 1999`, and the blocks of `scale` and `shift` are the whole rows; so
what point `t` writes back is block `t` of the function above. The 50 output blocks tile the 100000 rows
(row `r` lies in block `r / 2000`), so the array ends as that function everywhere. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offset of a whole-buffer access is zero on both axes. -/
theorem r1_hz2 : (![0, 0] : Fin 2 → Nat) = fun _ => 0 := funext fun a => by fin_cases a <;> rfl

/-- The three arrays the region reads, as it finds them, as functions into the extended reals: `h`, -/
abbrev arrH (c : Dev nD) : S100000x128.Idx → Ideal .f32 := V c main_v54_0
/-- `scale`, -/
abbrev arrScale (c : Dev nD) : S1x128.Idx → Ideal .f32 := V c main_v79
/-- and `shift`. -/
abbrev arrShift (c : Dev nD) : S1x128.Idx → Ideal .f32 := V c main_v80

/-- What the output array ends holding: `max (h * scale + shift) 0`, the two rows read along the second axis. -/
abbrev G1 (c : Dev nD) : S100000x128.Idx → Ideal .f32 := fun j =>
  max (arrH V c j * arrScale V c (ix2 (0 : Fin 1) (j 1 : Fin 128)) + arrShift V c (ix2 (0 : Fin 1) (j 1 : Fin 128))) 0

/-- The body's stored value at a block index: the shape casts are identities, each broadcast of a 1 x 128 row to
    2000 x 128 reads the row at `(0, k)`, and the constant the maximum is taken with is zero. -/
theorem r1_pay1_apply (x0 : Vec Ideal S2000x128 .f32) (x1 x2 : Vec Ideal S1x128 .f32) (j : S2000x128.Idx) :
    k1_pay1 x0 x1 x2 j = max (x0 j * x1 (ix2 (0 : Fin 1) (j 1 : Fin 128)) + x2 (ix2 (0 : Fin 1) (j 1 : Fin 128))) 0 := by
  have hk : ∀ a : Fin S1x128.rank, ((ix2 (0 : Fin 1) (j 1 : Fin 128) : S1x128.Idx) a).val
      = if S1x128.size a = 1 then 0 else (j ⟨a.val + (S2000x128.rank - S1x128.rank), by have := a.isLt; omega⟩).val := by
    intro a; match a with | ⟨0, _⟩ => rfl | ⟨1, _⟩ => rfl
  unfold k1_pay1
  simp only [shapeCast_self]
  rw [maximumf_apply, addf_apply, mulf_apply, broadcast_apply,
    broadcastTo_apply x1 broadcasts_S1x128_S2000x128 j _ hk, broadcastTo_apply x2 broadcasts_S1x128_S2000x128 j _ hk,
    show FloatOps.ofBits (F := Ideal) FTy.f32 0x00000000#32 = 0 from Ideal.ofBits_zero_f32]

/-- The index maps over the 50 grid points: the block of `h` moves with the output block; the blocks of `scale` and
    `shift` stay at the origin; the output's block index is at most 49 on the rows and 0 on the columns. -/
theorem r1_idx_facts : ∀ t : Fin cfg1.N, win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 49 ∧ win1_3.index t (1 : Fin 2) = 0 :=
  (by decide +kernel : ∀ t : Fin grid1.N, _)

/-- Every output block index `(q0, 0)` with `q0 < 50` is some grid point's. -/
theorem r1_idx_onto : ∀ (q0 : Fin 50) (q1 : Fin 1), ∃ t : Fin cfg1.N, win1_3.index t = ![q0.val + 0, q1.val + 0] :=
  (by decide +kernel : ∀ (q0 : Fin 50) (q1 : Fin 1), ∃ t : Fin grid1.N, win1_3.index t = ![q0.val + 0, q1.val + 0])

/-- What point `t` writes back to the output array is block `t` of `G1`. -/
theorem flushed1_3_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero r1_hz2]
  simp only [View.ld_unit_zero (S := S2000x128) r1_hz2, View.ld_unit_zero (S := S1x128) r1_hz2]
  funext j
  rw [show (win1 3).cut (grid1.coords t) (k1_pay1 (iblk1 V c 0 t) (iblk1 V c 1 t) (iblk1 V c 2 t)) j
    = k1_pay1 (iblk1 V c 0 t) (iblk1 V c 1 t) (iblk1 V c 2 t) j from rfl, r1_pay1_apply]
  obtain ⟨e0, e1, e2, e3, e4, e5, e6, e7⟩ := r1_idx_facts t
  show max (arrH V c (((cfg1.win 0).blk t).view.emb j)
        * arrScale V c (((cfg1.win 1).blk t).view.emb (ix2 (0 : Fin 1) (j 1 : Fin 128)))
        + arrShift V c (((cfg1.win 2).blk t).view.emb (ix2 (0 : Fin 1) (j 1 : Fin 128)))) 0
    = max (arrH V c (((cfg1.win 3).blk t).view.emb j)
        * arrScale V c (ix2 (0 : Fin 1) ((((cfg1.win 3).blk t).view.emb j) 1 : Fin 128))
        + arrShift V c (ix2 (0 : Fin 1) ((((cfg1.win 3).blk t).view.emb j) 1 : Fin 128))) 0
  -- the block of `h` and the output block at `t` sit at the same place of their arrays
  have h0 : ((cfg1.win 0).blk t).view.emb j = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  -- the block of `scale` is the whole row, so its `(0, k)` is the array's `(0, k)`, and `k` is the output's column
  have h1 : ((cfg1.win 1).blk t).view.emb (ix2 (0 : Fin 1) (j 1 : Fin 128))
      = ix2 (0 : Fin 1) ((((cfg1.win 3).blk t).view.emb j) 1 : Fin 128) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  -- the same for `shift`
  have h2 : ((cfg1.win 2).blk t).view.emb (ix2 (0 : Fin 1) (j 1 : Fin 128))
      = ix2 (0 : Fin 1) ((((cfg1.win 3).blk t).view.emb j) 1 : Fin 128) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]
  rfl

/-- An index of the output array is in point `t`'s block iff each coordinate is in the block's range on its axis. -/
theorem r1_mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v81).slice (win1_3.rect t)).set ↔ _
  rw [View.set_slice_whole, Rect.mem_set_unit]
  exact Iff.rfl

/-- The output blocks tile the array: row `r` lies in the block of index `r / 2000`, and every point writes back. -/
theorem r1_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := r1_idx_onto ⟨(i 0).val / 2000 - 0, by omega⟩ ⟨(i 1).val / 128 - 0, by omega⟩
  have q0 : win1_3.index t (0 : Fin 2) = (i 0).val / 2000 - 0 + 0 := congrFun ht 0
  have q1 : win1_3.index t (1 : Fin 2) = (i 1).val / 128 - 0 + 0 := congrFun ht 1
  refine ⟨t, flush1_3 t, ?_⟩
  rw [r1_mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE OUTPUT ARRAY after the region: `max (h * scale + shift) 0` of the arrays the region found, everywhere. -/
theorem final1_3 (c : Dev nD) : (dat1 V c).arrAt 3 cfg1.N = fun j =>
    max (arrH V c j * arrScale V c (ix2 (0 : Fin 1) (j 1 : Fin 128)) + arrShift V c (ix2 (0 : Fin 1) (j 1 : Fin 128))) 0 :=
  (dat1 V c).arrAt_eq_of_cover 3 (G1 V c) (fun t _ => flushed1_3_eq V c t) r1_cover

end Cert.KernelIdeal.Hand

end
-- ==== Proof.KI.MainValue.lean ====
import proofs.«108745_j38998303048417_2_alg».proof.Proof.KI.Main
import proofs.«108745_j38998303048417_2_alg».proof.Proof.KI.Region1Value

/-! # The result of the run, read through the fold

The run ends with every unscoped buffer at the last boundary's contents `W6`. Here the result array and the
arrays the two regions exchange are read off the fold:

* the result is what the second region's write-backs leave, which over the extended reals is
  `max (h * scale + shift) 0` of the three arrays the second region finds (`V5`);
* of those, `h` is what the first region's write-backs leave in its first output (no host operation between the
  regions writes it), and the two column-sum outputs of the first region are what the host operations between the
  regions read at `W4`. -/

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

section Reads

variable {F : FTy → Type} [FloatOps F]
variable (m : (ℓ : Loc nD τ sig) → Buf (Elt F) ℓ) (ρ : Dev nD → PrngReg)

/-- At the second region's entry the array `h` holds what the first region's write-backs leave in its first output:
    the host operations between the regions do not write it. -/
theorem W5_main_v54_0 (c : Dev nD) :
    W5 m ρ c (Proc.devRef .tc main_v54_0) = (dat0 (V3 m ρ) c).arrAt 8 cfg0.N :=
  (StableHlo.after_of_writes_sub hostOps1 _ hostOps1_writes (by decide)).trans (W4_arr m ρ c 8)
/-- At the first region's exit its two column-sum outputs hold what its write-backs leave. -/
theorem W4_main_v54_1 (c : Dev nD) :
    W4 m ρ c (Proc.devRef .tc main_v54_1) = (dat0 (V3 m ρ) c).arrAt 9 cfg0.N := W4_arr m ρ c 9
theorem W4_main_v54_2 (c : Dev nD) :
    W4 m ρ c (Proc.devRef .tc main_v54_2) = (dat0 (V3 m ρ) c).arrAt 10 cfg0.N := W4_arr m ρ c 10

/-- THE RUN, with the result named: every weakly fair execution terminates, nothing faulting; in every final state
    the result array holds `W6`'s contents of it and the eight argument arrays are as launched. -/
theorem run_result : θ_run defs (onTc (τ := τ) (main (F := F))) ⟨m, fun _ => 0, ρ⟩ (fun r => ∀ c : Dev nD,
      r.2.mem ((c.tc : Thread nD τ).loc main_v81) = W6 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v81 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Reads

section Ideal

variable (m : (ℓ : Loc nD τ sig) → Buf (Elt Ideal) ℓ) (ρ : Dev nD → PrngReg)

/-- THE RESULT over the extended reals: `max (h * scale + shift) 0` of the arrays the second region finds. -/
theorem W6_main_v81 (c : Dev nD) : W6 m ρ c (Proc.devRef .tc main_v81) = fun j =>
    max (arrH (V5 m ρ) c j * arrScale (V5 m ρ) c (ix2 (0 : Fin 1) (j 1 : Fin 128))
      + arrShift (V5 m ρ) c (ix2 (0 : Fin 1) (j 1 : Fin 128))) 0 :=
  (W6_out m ρ c).trans (final1_3 (V5 m ρ) c)

/-- Of those arrays, `h` is the first region's first output. -/
theorem arrH_V5 (c : Dev nD) : arrH (V5 m ρ) c = (dat0 (V3 m ρ) c).arrAt 8 cfg0.N := W5_main_v54_0 m ρ c
/-- `scale` and `shift` are what the host operations between the regions compute from the first region's exit
    contents. -/
theorem arrScale_V5 (c : Dev nD) :
    arrScale (V5 m ρ) c = StableHlo.after hostOps1 (W4 m ρ c) (Proc.devRef .tc main_v79) := rfl
theorem arrShift_V5 (c : Dev nD) :
    arrShift (V5 m ρ) c = StableHlo.after hostOps1 (W4 m ρ c) (Proc.devRef .tc main_v80) := rfl

end Ideal

end Cert.KernelIdeal.Hand

end
-- ==== Proof.Spec.lean ====
/-
  The mathematics of the layer, stated once over plain index types, with no program in sight.

  Inputs: three feature arrays X0, X1, X2 of 100000 rows by 128 columns (the input features and the two Chebyshev
  terms built from them by the graph aggregation), a weight W of 384 by 128, a bias b, a per-row graph-norm factor sn,
  and the batch-norm scale g and offset be.

  Two spellings of the same function of these inputs are given.

  * The kernel's (`Kout`): the linear layer as three 128-term products added left to right, plus the bias, times the
    row factor (`hK`); per feature, the sum and the sum of squares of its 100000 rows, each accumulated as two halves
    of 25 blocks of 2000 rows (`sK`, `qK`); the mean and the mean square as quotients by 100000; the variance as
    E[h²] − mean², clamped below at 0; the batch norm folded into one multiply-add, `h · scale + shift` with
    `scale = g · rsqrt(var + ε)` and `shift = be − mean · scale`; then the maximum with 0.
  * The reference's (`Rout`): the linear layer as one 384-term product over the three arrays joined along the columns
    (`Xt`, `hR`); the mean as the sum over all rows divided by 100000; the variance as the mean of the squared
    deviations; `((h − mean) · rsqrt(var + ε)) · g + be`; then the maximum with 0.

  On the extended reals the two agree whenever every input entry is a real number: a sum may be regrouped freely,
  E[(h − μ)²] = E[h²] − μ² for real h (so the clamp at 0 does nothing), and the multiply-add is the distributive law.
  The float literals are kept as the words the programs print.
-/
import Idealize.ShloMosaic.PureOps.Ideal
import Idealize.ShloMosaic.Lib.ValueIdx

noncomputable section

open scoped BigOperators

namespace Cert.Spec

open Idealize.ShloMosaic Idealize.ShloMosaic.ValueIdx

/-- rows by features -/
abbrev SN : Shape := ⟨2, ![100000, 128]⟩
/-- one factor per row -/
abbrev SN1 : Shape := ⟨2, ![100000, 1]⟩
/-- the weight: the three 128-row slabs stacked -/
abbrev SW : Shape := ⟨2, ![384, 128]⟩
/-- one entry per feature -/
abbrev SD : Shape := ⟨1, ![128]⟩

/-- the number of rows, 100000, as both programs print it -/
def cN : EReal := Ideal.ofBits .f32 0x47C35000#32
/-- the batch norm's ε (the float nearest 1e-5), as both programs print it -/
def cEps : EReal := Ideal.ofBits .f32 0x3727C5AC#32
/-- zero, as both programs print it -/
def c0 : EReal := Ideal.ofBits .f32 0x00000000#32

variable (X0 X1 X2 : SN.Idx → EReal) (W : SW.Idx → EReal) (b g be : SD.Idx → EReal) (sn : SN1.Idx → EReal)

/-! ## The kernel's spelling -/

/-- The linear layer with the graph norm, as the kernel adds it: three products, then the bias, times the row's factor. -/
def hK (r : Fin 100000) (e : Fin 128) : EReal :=
  ((((∑ k : Fin 128, X0 (ix2 r k) * W (ix2 (⟨k.val, by have := k.isLt; omega⟩ : Fin 384) e))
      + ∑ k : Fin 128, X1 (ix2 r k) * W (ix2 (⟨128 + k.val, by have := k.isLt; omega⟩ : Fin 384) e))
      + ∑ k : Fin 128, X2 (ix2 r k) * W (ix2 (⟨256 + k.val, by have := k.isLt; omega⟩ : Fin 384) e))
      + b (ix1 e)) * sn (ix2 r (0 : Fin 1))

/-- Row `q` of block `i` of half `c`: rows are dealt to the two halves 50000 each, 25 blocks of 2000. -/
def row (c : Fin 2) (i : Fin 25) (q : Fin 2000) : Fin 100000 :=
  ⟨2000 * (25 * c.val + i.val) + q.val, by have := c.isLt; have := i.isLt; have := q.isLt; omega⟩

/-- Half `c`'s sum of feature `e`, block by block. -/
def sK (c : Fin 2) (e : Fin 128) : EReal := ∑ i : Fin 25, ∑ q : Fin 2000, hK X0 X1 X2 W b sn (row c i q) e
/-- Half `c`'s sum of squares of feature `e`, block by block. -/
def qK (c : Fin 2) (e : Fin 128) : EReal :=
  ∑ i : Fin 25, ∑ q : Fin 2000, hK X0 X1 X2 W b sn (row c i q) e * hK X0 X1 X2 W b sn (row c i q) e

def meanK (e : Fin 128) : EReal := Ideal.div (sK X0 X1 X2 W b sn 0 e + sK X0 X1 X2 W b sn 1 e) cN
def msqK (e : Fin 128) : EReal := Ideal.div (qK X0 X1 X2 W b sn 0 e + qK X0 X1 X2 W b sn 1 e) cN
/-- E[h²] − mean², clamped below at zero. -/
def varK (e : Fin 128) : EReal := max (msqK X0 X1 X2 W b sn e - meanK X0 X1 X2 W b sn e * meanK X0 X1 X2 W b sn e) c0
def scaleK (e : Fin 128) : EReal := g (ix1 e) * Ideal.rsqrt (varK X0 X1 X2 W b sn e + cEps)
def shiftK (e : Fin 128) : EReal := be (ix1 e) - meanK X0 X1 X2 W b sn e * scaleK X0 X1 X2 W b g sn e

/-- The kernel's result at row `r`, feature `e`. -/
def Kout (r : Fin 100000) (e : Fin 128) : EReal :=
  max (hK X0 X1 X2 W b sn r e * scaleK X0 X1 X2 W b g sn e + shiftK X0 X1 X2 W b g be sn e) c0

/-! ## The reference's spelling -/

/-- The three arrays joined along the columns. -/
def Xt (r : Fin 100000) (k : Fin 384) : EReal :=
  if h1 : k.val < 128 then X0 (ix2 r (⟨k.val, h1⟩ : Fin 128))
  else if h2 : k.val < 256 then X1 (ix2 r (⟨k.val - 128, by omega⟩ : Fin 128))
  else X2 (ix2 r (⟨k.val - 256, by have := k.isLt; omega⟩ : Fin 128))

/-- The linear layer with the graph norm, as the reference computes it: one 384-term product. -/
def hR (r : Fin 100000) (e : Fin 128) : EReal :=
  ((∑ k : Fin 384, Xt X0 X1 X2 r k * W (ix2 k e)) + b (ix1 e)) * sn (ix2 r (0 : Fin 1))

def meanR (e : Fin 128) : EReal := Ideal.div (c0 + ∑ r : Fin 100000, hR X0 X1 X2 W b sn r e) cN
/-- The mean of the squared deviations. -/
def varR (e : Fin 128) : EReal :=
  Ideal.div (c0 + ∑ r : Fin 100000,
    (hR X0 X1 X2 W b sn r e - meanR X0 X1 X2 W b sn e) * (hR X0 X1 X2 W b sn r e - meanR X0 X1 X2 W b sn e)) cN

/-- The reference's result at row `r`, feature `e`. -/
def Rout (r : Fin 100000) (e : Fin 128) : EReal :=
  max (((hR X0 X1 X2 W b sn r e - meanR X0 X1 X2 W b sn e) * Ideal.rsqrt (varR X0 X1 X2 W b sn e + cEps)) * g (ix1 e)
        + be (ix1 e)) c0

/-- Every entry of an array is a real number. -/
def Finite {S : Shape} (x : S.Idx → EReal) : Prop := ∀ j, ∃ v : ℝ, x j = (v : EReal)

end Cert.Spec

end
-- ==== Proof.KI.HostValues.lean ====
/-
  What the host operations of the kernel's program compute, read as values on the extended reals: the stretch between
  the two regions turns the two halves' partial sums into each feature's mean, variance, factor and offset; the
  stretches before the first region build the two aggregated feature arrays, cut the weight into its three slabs and
  lay the bias out as a row.
-/
import proofs.«108745_j38998303048417_2_alg».proof.Proof.Gen.KernelIdeal.Regions
import proofs.«108745_j38998303048417_2_alg».proof.Proof.Gen.ReferenceIdeal.Read
import proofs.«108745_j38998303048417_2_alg».proof.Proof.Spec
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Cert.KernelIdeal.Gen

/-! ## Reading a layout operation at an index -/

section Layout
variable {α : Type}

/-- Half `c` of a [2,1,128] array, flattened to [128], read at `e`: the array at (c, 0, e). First half. -/
theorem half0_apply (X : S2x1x128.Idx → α) (hs : S2x1x128.Slices ![0, 0, 0] S1x1x128) (hc : S1x1x128.ShapeCasts S128)
    (e : Fin 128) :
    shapeCast S128 (extractStridedSlice S1x1x128 ![0, 0, 0] X hs) hc (ix1 e) = X (ix3 (0 : Fin 2) (0 : Fin 1) e) := by
  refine (shapeCast_apply _ hc (ix1 e) (ix3 (0 : Fin 1) (0 : Fin 1) e) ?_).trans ?_
  · rw [Shape.rowMajor_val_three, Shape.rowMajor_val_one]
    show ((0 * 1 + 0) * 128 + e.val) = e.val
    omega
  · refine extractStridedSlice_apply _ X hs _ _ fun a => ?_
    match a with
    | ⟨0, _⟩ => rfl
    | ⟨1, _⟩ => rfl
    | ⟨2, _⟩ => show e.val = 0 + e.val; omega

/-- The same for the second half. -/
theorem half1_apply (X : S2x1x128.Idx → α) (hs : S2x1x128.Slices ![1, 0, 0] S1x1x128) (hc : S1x1x128.ShapeCasts S128)
    (e : Fin 128) :
    shapeCast S128 (extractStridedSlice S1x1x128 ![1, 0, 0] X hs) hc (ix1 e) = X (ix3 (1 : Fin 2) (0 : Fin 1) e) := by
  refine (shapeCast_apply _ hc (ix1 e) (ix3 (0 : Fin 1) (0 : Fin 1) e) ?_).trans ?_
  · rw [Shape.rowMajor_val_three, Shape.rowMajor_val_one]
    show ((0 * 1 + 0) * 128 + e.val) = e.val
    omega
  · refine extractStridedSlice_apply _ X hs _ _ fun a => ?_
    match a with
    | ⟨0, _⟩ => rfl
    | ⟨1, _⟩ => rfl
    | ⟨2, _⟩ => show e.val = 0 + e.val; omega

/-- A [128] array viewed as [1,128], read at (0, e): the array at `e`. -/
theorem row_apply (x : S128.Idx → α) (hc : S128.ShapeCasts S1x128) (e : Fin 128) :
    shapeCast S1x128 x hc (ix2 (0 : Fin 1) e) = x (ix1 e) := by
  refine shapeCast_apply _ hc _ _ ?_
  rw [Shape.rowMajor_val_two, Shape.rowMajor_val_one]
  show e.val = 0 * 128 + e.val
  omega

end Layout

/-! ## Between the two regions: mean, variance, scale and shift from the partial sums -/

section Stats
variable (S Q : S2x1x128.Idx → EReal) (g be : S128.Idx → EReal)

/-- The mean of feature `e`: the two halves' sums added, divided by the number of rows. -/
def hostMean (e : Fin 128) : EReal :=
  Ideal.div (S (ix3 (0 : Fin 2) (0 : Fin 1) e) + S (ix3 (1 : Fin 2) (0 : Fin 1) e)) Cert.Spec.cN
/-- The variance of feature `e`: the mean square less the squared mean, not below zero. -/
def hostVar (e : Fin 128) : EReal :=
  max (hostMean Q e - hostMean S e * hostMean S e) Cert.Spec.c0
/-- The factor of feature `e`. -/
def hostScale (e : Fin 128) : EReal := g (ix1 e) * Ideal.rsqrt (hostVar S Q e + Cert.Spec.cEps)
/-- The offset of feature `e`. -/
def hostShift (e : Fin 128) : EReal := be (ix1 e) - hostMean S e * hostScale S Q g e

end Stats

variable (W : Valuation τ sig (Elt Ideal))

/-- The factor the second region reads, at feature `e`. -/
theorem post_scale (e : Fin 128) :
    StableHlo.after hostOps1 W (Proc.devRef .tc main_v79) (ix2 (0 : Fin 1) e)
      = hostScale (W (Proc.devRef .tc main_v54_1)) (W (Proc.devRef .tc main_v54_2)) (W (Proc.devRef .tc main_arg6)) e := by
  open StableHlo in after_results_simp
  refine (row_apply _ _ e).trans ?_
  show _ * Ideal.rsqrt (max (Ideal.div (shapeCast S128 _ _ _ + shapeCast S128 _ _ _) _
      - Ideal.div (shapeCast S128 _ _ _ + shapeCast S128 _ _ _) _ * Ideal.div (shapeCast S128 _ _ _ + shapeCast S128 _ _ _) _) _ + _) = _
  rw [half0_apply, half1_apply, half0_apply, half1_apply]
  rfl

/-- The offset the second region reads, at feature `e`. -/
theorem post_shift (e : Fin 128) :
    StableHlo.after hostOps1 W (Proc.devRef .tc main_v80) (ix2 (0 : Fin 1) e)
      = hostShift (W (Proc.devRef .tc main_v54_1)) (W (Proc.devRef .tc main_v54_2)) (W (Proc.devRef .tc main_arg6))
          (W (Proc.devRef .tc main_arg7)) e := by
  open StableHlo in after_results_simp
  refine (row_apply _ _ e).trans ?_
  show _ - Ideal.div (shapeCast S128 _ _ _ + shapeCast S128 _ _ _) _ * (_ * Ideal.rsqrt (max (Ideal.div (shapeCast S128 _ _ _ + shapeCast S128 _ _ _) _
      - Ideal.div (shapeCast S128 _ _ _ + shapeCast S128 _ _ _) _ * Ideal.div (shapeCast S128 _ _ _ + shapeCast S128 _ _ _) _) _ + _)) = _
  rw [half0_apply, half1_apply, half0_apply, half1_apply]
  rfl

/-- The stretch between the regions does not write the first region's main result. -/
theorem post_h : StableHlo.after hostOps1 W (Proc.devRef .tc main_v54_0) = W (Proc.devRef .tc main_v54_0) :=
  StableHlo.after_of_writes_sub hostOps1 W hostOps1_writes (by decide)

/-! ## Before the first region -/

/-- The buffers after the three stretches that run before the first region. -/
abbrev preHost (W : Valuation τ sig (Elt Ideal)) : Valuation τ sig (Elt Ideal) :=
  StableHlo.after hostOps0_2 (StableHlo.after hostOps0_1 (StableHlo.after hostOps0 W))

section Layout
variable {α : Type}

/-- The 128-row slab of a [384,128] array that starts at row `o`, read at (k, e): the array at (o + k, e). -/
theorem slab_apply (X : S384x128.Idx → α) (o : Nat) (hs : S384x128.Slices ![o, 0] S128x128) (k e : Fin 128)
    (ho : o + k.val < 384) :
    extractStridedSlice S128x128 ![o, 0] X hs (ix2 k e) = X (ix2 (⟨o + k.val, ho⟩ : Fin 384) e) := by
  refine extractStridedSlice_apply _ X hs _ _ fun a => ?_
  match a with
  | ⟨0, _⟩ => rfl
  | ⟨1, _⟩ => show e.val = 0 + e.val; omega

end Layout

/-- A buffer none of the three stretches writes holds what it held. -/
theorem pre_of (r : Ref sig .tc) (h2 : r ∉ hostOps0_2_W) (h1 : r ∉ hostOps0_1_W) (h0 : r ∉ hostOps0_W) :
    preHost W (Proc.devRef .tc r) = W (Proc.devRef .tc r) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

theorem pre_arg0 : preHost W (Proc.devRef .tc main_arg0) = W (Proc.devRef .tc main_arg0) :=
  pre_of W main_arg0 (by decide) (by decide) (by decide)
theorem pre_arg1 : preHost W (Proc.devRef .tc main_arg1) = W (Proc.devRef .tc main_arg1) :=
  pre_of W main_arg1 (by decide) (by decide) (by decide)
theorem pre_arg2 : preHost W (Proc.devRef .tc main_arg2) = W (Proc.devRef .tc main_arg2) :=
  pre_of W main_arg2 (by decide) (by decide) (by decide)
theorem pre_arg3 : preHost W (Proc.devRef .tc main_arg3) = W (Proc.devRef .tc main_arg3) :=
  pre_of W main_arg3 (by decide) (by decide) (by decide)
theorem pre_arg4 : preHost W (Proc.devRef .tc main_arg4) = W (Proc.devRef .tc main_arg4) :=
  pre_of W main_arg4 (by decide) (by decide) (by decide)
theorem pre_arg5 : preHost W (Proc.devRef .tc main_arg5) = W (Proc.devRef .tc main_arg5) :=
  pre_of W main_arg5 (by decide) (by decide) (by decide)
theorem pre_arg6 : preHost W (Proc.devRef .tc main_arg6) = W (Proc.devRef .tc main_arg6) :=
  pre_of W main_arg6 (by decide) (by decide) (by decide)
theorem pre_arg7 : preHost W (Proc.devRef .tc main_arg7) = W (Proc.devRef .tc main_arg7) :=
  pre_of W main_arg7 (by decide) (by decide) (by decide)

/-- The last stretch cuts the weight's first slab out of whatever the weight's buffer holds. -/
theorem last_W0 (V : Valuation τ sig (Elt Ideal)) (k e : Fin 128) :
    StableHlo.after hostOps0_2 V (Proc.devRef .tc main_v48) (ix2 k e)
      = V (Proc.devRef .tc main_arg4) (ix2 (⟨k.val, by have := k.isLt; omega⟩ : Fin 384) e) := by
  open StableHlo in after_results_simp
  refine (slab_apply (V (Proc.devRef .tc main_arg4)) 0 slices_S384x128_S128x128_0_0 k e (by have := k.isLt; omega)).trans ?_
  exact congrArg (fun i : Fin 384 => V (Proc.devRef .tc main_arg4) (ix2 i e)) (Fin.ext (by show 0 + k.val = k.val; omega))

/-- The same for the second slab. -/
theorem last_W1 (V : Valuation τ sig (Elt Ideal)) (k e : Fin 128) :
    StableHlo.after hostOps0_2 V (Proc.devRef .tc main_v50) (ix2 k e)
      = V (Proc.devRef .tc main_arg4) (ix2 (⟨128 + k.val, by have := k.isLt; omega⟩ : Fin 384) e) := by
  open StableHlo in after_results_simp
  exact slab_apply (V (Proc.devRef .tc main_arg4)) 128 slices_S384x128_S128x128_128_0 k e (by have := k.isLt; omega)

/-- The same for the third slab. -/
theorem last_W2 (V : Valuation τ sig (Elt Ideal)) (k e : Fin 128) :
    StableHlo.after hostOps0_2 V (Proc.devRef .tc main_v52) (ix2 k e)
      = V (Proc.devRef .tc main_arg4) (ix2 (⟨256 + k.val, by have := k.isLt; omega⟩ : Fin 384) e) := by
  open StableHlo in after_results_simp
  exact slab_apply (V (Proc.devRef .tc main_arg4)) 256 slices_S384x128_S128x128_256_0 k e (by have := k.isLt; omega)

/-- The last stretch lays the bias out as a row. -/
theorem last_b (V : Valuation τ sig (Elt Ideal)) (e : Fin 128) :
    StableHlo.after hostOps0_2 V (Proc.devRef .tc main_v53) (ix2 (0 : Fin 1) e)
      = V (Proc.devRef .tc main_arg5) (ix1 e) := by
  open StableHlo in after_results_simp
  exact row_apply (V (Proc.devRef .tc main_arg5)) shapeCasts_S128_S1x128 e

/-- A buffer the first two stretches do not write holds what it held. -/
theorem mid_of (r : Ref sig .tc) (h1 : r ∉ hostOps0_1_W) (h0 : r ∉ hostOps0_W) :
    StableHlo.after hostOps0_1 (StableHlo.after hostOps0 W) (Proc.devRef .tc r) = W (Proc.devRef .tc r) :=
  (StableHlo.after_of_writes_sub hostOps0_1 _ hostOps0_1_writes h1).trans
    (StableHlo.after_of_writes_sub hostOps0 _ hostOps0_writes h0)

/-- The first weight slab the first region reads, at (k, e): the weight at (k, e). -/
theorem pre_W0 (k e : Fin 128) :
    preHost W (Proc.devRef .tc main_v48) (ix2 k e)
      = W (Proc.devRef .tc main_arg4) (ix2 (⟨k.val, by have := k.isLt; omega⟩ : Fin 384) e) :=
  (last_W0 _ k e).trans (congrFun (mid_of W main_arg4 (by decide) (by decide)) _)

/-- The second weight slab, at (k, e): the weight at (128 + k, e). -/
theorem pre_W1 (k e : Fin 128) :
    preHost W (Proc.devRef .tc main_v50) (ix2 k e)
      = W (Proc.devRef .tc main_arg4) (ix2 (⟨128 + k.val, by have := k.isLt; omega⟩ : Fin 384) e) :=
  (last_W1 _ k e).trans (congrFun (mid_of W main_arg4 (by decide) (by decide)) _)

/-- The third weight slab, at (k, e): the weight at (256 + k, e). -/
theorem pre_W2 (k e : Fin 128) :
    preHost W (Proc.devRef .tc main_v52) (ix2 k e)
      = W (Proc.devRef .tc main_arg4) (ix2 (⟨256 + k.val, by have := k.isLt; omega⟩ : Fin 384) e) :=
  (last_W2 _ k e).trans (congrFun (mid_of W main_arg4 (by decide) (by decide)) _)

/-- The bias row the first region reads, at (0, e): the bias at `e`. -/
theorem pre_b (e : Fin 128) :
    preHost W (Proc.devRef .tc main_v53) (ix2 (0 : Fin 1) e) = W (Proc.devRef .tc main_arg5) (ix1 e) :=
  (last_b _ e).trans (congrFun (mid_of W main_arg5 (by decide) (by decide)) _)

/-! ## The two aggregated feature arrays

Both programs print the same chain of host operations for them, each over its own copy of the shapes and of the
scatter and gather dimension records. The copies are equal, so the chain's composed term is the reference's. -/

theorem dims_deg : Cert.KernelIdeal.scatter_S100000_S1600000x1_S1600000_n_0_0_1
    = Cert.ReferenceIdeal.scatter_S100000_S1600000x1_S1600000_n_0_0_1 := rfl
theorem dims_gather : Cert.KernelIdeal.gather_S100000x128_S1600000x1_S1600000x128_1_0_n_n_0_1_1128
    = Cert.ReferenceIdeal.gather_S100000x128_S1600000x1_S1600000x128_1_0_n_n_0_1_1128 := rfl
theorem dims_scatter : Cert.KernelIdeal.scatter_S100000x128_S1600000x1_S1600000x128_1_0_0_1
    = Cert.ReferenceIdeal.scatter_S100000x128_S1600000x1_S1600000x128_1_0_0_1 := rfl

/-- The first stretch counts each node's incoming edges. -/
theorem first_deg (V : Valuation τ sig (Elt Ideal)) :
    StableHlo.after hostOps0 V (Proc.devRef .tc main_v3)
      = Cert.ReferenceIdeal.Read.val_main_v3 (F := Ideal) (V (Proc.devRef .tc main_arg3)) := by
  open StableHlo in after_results_simp
  generalize V (Proc.devRef .tc main_arg3) = a3
  rw [dims_deg]
  unfold Cert.ReferenceIdeal.Read.val_main_v3 Cert.ReferenceIdeal.Read.val_main_v1 Cert.ReferenceIdeal.Read.val_main_v2 Cert.ReferenceIdeal.Read.val_main_v0 Cert.ReferenceIdeal.Read.val_main_cst Cert.ReferenceIdeal.Read.val_main_cst_0
  rfl

/-- The first stretch leaves the constant one where the clamp reads it. -/
theorem first_one (V : Valuation τ sig (Elt Ideal)) :
    StableHlo.after hostOps0 V (Proc.devRef .tc main_cst_1) = constant (F := Ideal) S_ .f32 0x3F800000#32 := by
  open StableHlo in after_results_simp

/-- The second stretch clamps the counts below by what the constant's buffer holds. -/
theorem second_clip (V : Valuation τ sig (Elt Ideal)) :
    StableHlo.after hostOps0_1 V (Proc.devRef .tc main_v4)
      = maximumf (F := Ideal) (s := S100000) (φ := .f32) (broadcastInDim (s := S_) S100000 ![] bcast_S_S100000 (V (Proc.devRef .tc main_cst_1)))
          (V (Proc.devRef .tc main_v3)) := by
  open StableHlo in after_results_simp
  rfl

/-- After the first two stretches: the clamped counts, as the reference's staged function of the edge targets. -/
theorem mid_deg :
    StableHlo.after hostOps0_1 (StableHlo.after hostOps0 W) (Proc.devRef .tc main_v4)
      = Cert.ReferenceIdeal.Read.val_main_v4 (F := Ideal) (W (Proc.devRef .tc main_arg3)) := by
  rw [second_clip, first_deg, first_one]
  unfold Cert.ReferenceIdeal.Read.val_main_v4 Cert.ReferenceIdeal.Read.val_main_call0_v1 Cert.ReferenceIdeal.Read.val_main_call0_v0 Cert.ReferenceIdeal.Read.val_main_cst_1
  rfl

/-- The first aggregated array, as the reference's staged function of the features and the two edge lists. -/
theorem pre_X1 :
    preHost W (Proc.devRef .tc main_v26)
      = Cert.ReferenceIdeal.Read.val_main_v26 (F := Ideal) (W (Proc.devRef .tc main_arg0)) (W (Proc.devRef .tc main_arg2))
          (W (Proc.devRef .tc main_arg3)) := by
  have e4 := mid_deg W
  have e0 := mid_of W main_arg0 (by decide) (by decide)
  have e2 := mid_of W main_arg2 (by decide) (by decide)
  have e3 := mid_of W main_arg3 (by decide) (by decide)
  show StableHlo.after hostOps0_2 (StableHlo.after hostOps0_1 (StableHlo.after hostOps0 W)) _ = _
  generalize StableHlo.after hostOps0_1 (StableHlo.after hostOps0 W) = V2 at e4 e0 e2 e3 ⊢
  open StableHlo in after_results_simp
  rw [e4, e0, e2, e3]
  generalize W (Proc.devRef .tc main_arg0) = a0
  generalize W (Proc.devRef .tc main_arg2) = a2
  generalize W (Proc.devRef .tc main_arg3) = a3
  rw [dims_gather, dims_scatter]
  unfold Cert.ReferenceIdeal.Read.val_main_v26 Cert.ReferenceIdeal.Read.val_main_v23 Cert.ReferenceIdeal.Read.val_main_v25 Cert.ReferenceIdeal.Read.val_main_v22 Cert.ReferenceIdeal.Read.val_main_v21 Cert.ReferenceIdeal.Read.val_main_v24 Cert.ReferenceIdeal.Read.val_main_cst_5 Cert.ReferenceIdeal.Read.val_main_cst_6 Cert.ReferenceIdeal.Read.val_main_v19 Cert.ReferenceIdeal.Read.val_main_v20 Cert.ReferenceIdeal.Read.val_main_v17 Cert.ReferenceIdeal.Read.val_main_v18 Cert.ReferenceIdeal.Read.val_main_v16 Cert.ReferenceIdeal.Read.val_main_cst_4 Cert.ReferenceIdeal.Read.val_main_v9 Cert.ReferenceIdeal.Read.val_main_v15 Cert.ReferenceIdeal.Read.val_main_v8 Cert.ReferenceIdeal.Read.val_main_v14 Cert.ReferenceIdeal.Read.val_main_v7 Cert.ReferenceIdeal.Read.val_main_v11 Cert.ReferenceIdeal.Read.val_main_v13 Cert.ReferenceIdeal.Read.val_main_v6 Cert.ReferenceIdeal.Read.val_main_v10 Cert.ReferenceIdeal.Read.val_main_v12 Cert.ReferenceIdeal.Read.val_main_v5 Cert.ReferenceIdeal.Read.val_main_c Cert.ReferenceIdeal.Read.val_main_c_3 Cert.ReferenceIdeal.Read.val_main_cst_2
  rfl

/-- The second aggregated array, likewise. -/
theorem pre_X2 :
    preHost W (Proc.devRef .tc main_v46)
      = Cert.ReferenceIdeal.Read.val_main_v46 (F := Ideal) (W (Proc.devRef .tc main_arg0)) (W (Proc.devRef .tc main_arg2))
          (W (Proc.devRef .tc main_arg3)) := by
  have e4 := mid_deg W
  have e0 := mid_of W main_arg0 (by decide) (by decide)
  have e2 := mid_of W main_arg2 (by decide) (by decide)
  have e3 := mid_of W main_arg3 (by decide) (by decide)
  show StableHlo.after hostOps0_2 (StableHlo.after hostOps0_1 (StableHlo.after hostOps0 W)) _ = _
  generalize StableHlo.after hostOps0_1 (StableHlo.after hostOps0 W) = V2 at e4 e0 e2 e3 ⊢
  open StableHlo in after_results_simp
  rw [e4, e0, e2, e3]
  generalize W (Proc.devRef .tc main_arg0) = a0
  generalize W (Proc.devRef .tc main_arg2) = a2
  generalize W (Proc.devRef .tc main_arg3) = a3
  rw [dims_gather, dims_scatter]
  unfold Cert.ReferenceIdeal.Read.val_main_v46 Cert.ReferenceIdeal.Read.val_main_v45 Cert.ReferenceIdeal.Read.val_main_v42 Cert.ReferenceIdeal.Read.val_main_v44 Cert.ReferenceIdeal.Read.val_main_v41 Cert.ReferenceIdeal.Read.val_main_v40 Cert.ReferenceIdeal.Read.val_main_v43 Cert.ReferenceIdeal.Read.val_main_cst_10 Cert.ReferenceIdeal.Read.val_main_cst_11 Cert.ReferenceIdeal.Read.val_main_v38 Cert.ReferenceIdeal.Read.val_main_v39 Cert.ReferenceIdeal.Read.val_main_v36 Cert.ReferenceIdeal.Read.val_main_v37 Cert.ReferenceIdeal.Read.val_main_v35 Cert.ReferenceIdeal.Read.val_main_cst_9 Cert.ReferenceIdeal.Read.val_main_v28 Cert.ReferenceIdeal.Read.val_main_v34 Cert.ReferenceIdeal.Read.val_main_v27 Cert.ReferenceIdeal.Read.val_main_v33 Cert.ReferenceIdeal.Read.val_main_v30 Cert.ReferenceIdeal.Read.val_main_v32 Cert.ReferenceIdeal.Read.val_main_v29 Cert.ReferenceIdeal.Read.val_main_v31 Cert.ReferenceIdeal.Read.val_main_c_7 Cert.ReferenceIdeal.Read.val_main_c_8 Cert.ReferenceIdeal.Read.val_main_v26 Cert.ReferenceIdeal.Read.val_main_v23 Cert.ReferenceIdeal.Read.val_main_v25 Cert.ReferenceIdeal.Read.val_main_v22 Cert.ReferenceIdeal.Read.val_main_v21 Cert.ReferenceIdeal.Read.val_main_v24 Cert.ReferenceIdeal.Read.val_main_cst_5 Cert.ReferenceIdeal.Read.val_main_cst_6 Cert.ReferenceIdeal.Read.val_main_v19 Cert.ReferenceIdeal.Read.val_main_v20 Cert.ReferenceIdeal.Read.val_main_v17 Cert.ReferenceIdeal.Read.val_main_v18 Cert.ReferenceIdeal.Read.val_main_v16 Cert.ReferenceIdeal.Read.val_main_cst_4 Cert.ReferenceIdeal.Read.val_main_v9 Cert.ReferenceIdeal.Read.val_main_v15 Cert.ReferenceIdeal.Read.val_main_v8 Cert.ReferenceIdeal.Read.val_main_v14 Cert.ReferenceIdeal.Read.val_main_v7 Cert.ReferenceIdeal.Read.val_main_v11 Cert.ReferenceIdeal.Read.val_main_v13 Cert.ReferenceIdeal.Read.val_main_v6 Cert.ReferenceIdeal.Read.val_main_v10 Cert.ReferenceIdeal.Read.val_main_v12 Cert.ReferenceIdeal.Read.val_main_v5 Cert.ReferenceIdeal.Read.val_main_c Cert.ReferenceIdeal.Read.val_main_c_3 Cert.ReferenceIdeal.Read.val_main_cst_2
  rfl

/-! ## The statistics in the layer's own terms

When the two partial-sum arrays hold the halves' sums and sums of squares of the linear layer's output, the mean,
variance, factor and offset above are the ones the layer's mathematics names. -/

section ToSpec
variable (X0 X1 X2 : Cert.Spec.SN.Idx → EReal) (Wt : Cert.Spec.SW.Idx → EReal) (b g be : Cert.Spec.SD.Idx → EReal)
  (sn : Cert.Spec.SN1.Idx → EReal) (S Q : S2x1x128.Idx → EReal) (e : Fin 128)

theorem hostMean_eq_meanK (hS : ∀ c : Fin 2, S (ix3 c (0 : Fin 1) e) = Cert.Spec.sK X0 X1 X2 Wt b sn c e) :
    hostMean S e = Cert.Spec.meanK X0 X1 X2 Wt b sn e := by
  unfold hostMean Cert.Spec.meanK
  rw [hS 0, hS 1]

theorem hostMean_eq_msqK (hQ : ∀ c : Fin 2, Q (ix3 c (0 : Fin 1) e) = Cert.Spec.qK X0 X1 X2 Wt b sn c e) :
    hostMean Q e = Cert.Spec.msqK X0 X1 X2 Wt b sn e := by
  unfold hostMean Cert.Spec.msqK
  rw [hQ 0, hQ 1]

theorem hostVar_eq_varK (hS : ∀ c : Fin 2, S (ix3 c (0 : Fin 1) e) = Cert.Spec.sK X0 X1 X2 Wt b sn c e)
    (hQ : ∀ c : Fin 2, Q (ix3 c (0 : Fin 1) e) = Cert.Spec.qK X0 X1 X2 Wt b sn c e) :
    hostVar S Q e = Cert.Spec.varK X0 X1 X2 Wt b sn e := by
  unfold hostVar Cert.Spec.varK
  rw [hostMean_eq_meanK X0 X1 X2 Wt b sn S e hS, hostMean_eq_msqK X0 X1 X2 Wt b sn Q e hQ]

theorem hostScale_eq_scaleK (hS : ∀ c : Fin 2, S (ix3 c (0 : Fin 1) e) = Cert.Spec.sK X0 X1 X2 Wt b sn c e)
    (hQ : ∀ c : Fin 2, Q (ix3 c (0 : Fin 1) e) = Cert.Spec.qK X0 X1 X2 Wt b sn c e) :
    hostScale S Q g e = Cert.Spec.scaleK X0 X1 X2 Wt b g sn e := by
  unfold hostScale Cert.Spec.scaleK
  rw [hostVar_eq_varK X0 X1 X2 Wt b sn S Q e hS hQ]

theorem hostShift_eq_shiftK (hS : ∀ c : Fin 2, S (ix3 c (0 : Fin 1) e) = Cert.Spec.sK X0 X1 X2 Wt b sn c e)
    (hQ : ∀ c : Fin 2, Q (ix3 c (0 : Fin 1) e) = Cert.Spec.qK X0 X1 X2 Wt b sn c e) :
    hostShift S Q g be e = Cert.Spec.shiftK X0 X1 X2 Wt b g be sn e := by
  unfold hostShift Cert.Spec.shiftK
  rw [hostMean_eq_meanK X0 X1 X2 Wt b sn S e hS, hostScale_eq_scaleK X0 X1 X2 Wt b g sn S Q e hS hQ]

end ToSpec

end Cert.KernelIdeal.Hand

end
-- ==== Proof.KI.HK3.lean ====
import Idealize.ShloMosaic.Lib.ValueIdx

/-! # The linear layer with row scaling, entry by entry

For three 100000 x 128 feature arrays `X0 X1 X2`, three 128 x 128 weight blocks `w0 w1 w2`, a 1 x 128 bias row
`b2` and a 100000 x 1 column `sn`, the entry `(r, e)` of

  `(X0 · w0 + X1 · w1 + X2 · w2 + b2) * sn`

(the three matrix products summed in that order, the bias added to every row, every row scaled by its entry of
`sn`), over the extended reals. -/

noncomputable section

namespace Cert.KernelIdeal.Hand

open Idealize.ShloMosaic Idealize.ShloMosaic.ValueIdx
open scoped BigOperators

/-- Entry `(r, e)` of `(X0 · w0 + X1 · w1 + X2 · w2 + b2) * sn`. -/
def hK3 (X0 X1 X2 : (⟨2, ![100000, 128]⟩ : Shape).Idx → EReal) (w0 w1 w2 : (⟨2, ![128, 128]⟩ : Shape).Idx → EReal)
    (b2 : (⟨2, ![1, 128]⟩ : Shape).Idx → EReal) (sn : (⟨2, ![100000, 1]⟩ : Shape).Idx → EReal)
    (r : Fin 100000) (e : Fin 128) : EReal :=
  ((((∑ k : Fin 128, X0 (ix2 r k) * w0 (ix2 k e)) + ∑ k : Fin 128, X1 (ix2 r k) * w1 (ix2 k e))
      + ∑ k : Fin 128, X2 (ix2 r k) * w2 (ix2 k e)) + b2 (ix2 (0 : Fin 1) e)) * sn (ix2 r (0 : Fin 1))

end Cert.KernelIdeal.Hand

end
-- ==== Proof.FiniteChain.lean ====
/-
  Every entry of the two Chebyshev arrays is a real number when every entry of the feature array is.

  On the extended reals a float is a real number, an infinity, or the junk bottom element. The operations that
  build the two arrays from the features keep real numbers real:

  * a printed constant whose word is a finite float denotes a real;
  * a layout operation (a broadcast, a gather of rows) only moves entries, so each entry of its result is an entry
    of its operand, whatever the index words say: a gather clamps its start index into range before it reads;
  * sums, differences, products and maxima of two reals are reals;
  * the power of a real base to a real exponent is Real.rpow of the two, a real for every base;
  * an accumulating scatter writes, at each position, the operand's entry plus the sum of the update entries
    that land there, a finite sum of reals; an update whose index word points outside the operand lands nowhere.

  The chain is walked one operation at a time, each stage a lemma of its own.

  The second part reads the precondition back: it and-s, per float argument, the reduction by "and" of the
  comparisons |x| < +inf, and a comparison against +inf that holds says that x is neither infinity nor bottom.
-/
import proofs.«108745_j38998303048417_2_alg».proof.Proof.Gen.ReferenceIdeal.Read
import proofs.«108745_j38998303048417_2_alg».proof.Proof.Spec
import proofs.«108745_j38998303048417_2_alg».proof.Pre_finite_inputs
import Idealize.ShloMosaic.Lib.ReduceAll

noncomputable section

open scoped BigOperators

namespace Cert.FiniteChain

open Idealize.ShloMosaic Cert.Spec

/-! ## Real numbers among the extended reals -/

/-- An extended real that is a real number. -/
def IsReal (x : EReal) : Prop := ∃ v : ℝ, x = (v : EReal)

theorem isReal_coe (v : ℝ) : IsReal (v : EReal) := ⟨v, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The power of a real base to a real exponent is the real power function's value. -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-- A finite sum of reals is a real. -/
theorem IsReal.sum {ι : Type} (t : Finset ι) (f : ι → EReal) (h : ∀ j, IsReal (f j)) : IsReal (∑ j ∈ t, f j) := by
  classical
  induction t using Finset.induction_on with
  | empty => exact ⟨0, by simp⟩
  | insert a t ha ih => rw [Finset.sum_insert ha]; exact (h a).add ih

/-! ## The printed constants -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_neg_half : Ideal.ofBits .f32 0xBF000000#32 = ((-(1/2) : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num

/-! ## Arrays of reals are kept by the array operations -/

section Closure

variable {s t : Shape}

theorem finite_iff {x : s.Idx → EReal} : Finite x ↔ ∀ j, IsReal (x j) := Iff.rfl

/-- A constant array of a word that denotes a real. -/
theorem finite_constant {b : BitVec 32} (hb : IsReal (Ideal.ofBits .f32 b)) :
    Finite (S := s) (constant (F := Ideal) s .f32 b) := fun _ => hb

/-- A broadcast reads each of its entries off its operand. -/
theorem finite_broadcastInDim (dims : Fin s.rank → Fin t.rank) (h : s.BroadcastsInDim t dims) {x : s.Idx → EReal}
    (hx : Finite x) : Finite (S := t) (broadcastInDim t dims h x) := fun _ => hx _

/-- A gather reads each of its entries off its operand, at an index it clamps into range. -/
theorem finite_gather {si : Shape} {w : Nat} (d : GatherDims s si t) {x : s.Idx → EReal} (idx : IVec si w)
    (hx : Finite x) : Finite (S := t) (Host.gather d x idx) := fun _ => hx _

theorem finite_mulf {x y : s.Idx → EReal} (hx : Finite x) (hy : Finite y) :
    Finite (S := s) (mulf (F := Ideal) (φ := .f32) x y) := fun j => IsReal.mul (hx j) (hy j)

theorem finite_addf {x y : s.Idx → EReal} (hx : Finite x) (hy : Finite y) :
    Finite (S := s) (addf (F := Ideal) (φ := .f32) x y) := fun j => IsReal.add (hx j) (hy j)

theorem finite_subf {x y : s.Idx → EReal} (hx : Finite x) (hy : Finite y) :
    Finite (S := s) (subf (F := Ideal) (φ := .f32) x y) := fun j => IsReal.sub (hx j) (hy j)

theorem finite_maximumf {x y : s.Idx → EReal} (hx : Finite x) (hy : Finite y) :
    Finite (S := s) (maximumf (F := Ideal) (φ := .f32) x y) := fun j => IsReal.max (hx j) (hy j)

theorem finite_powf {x y : s.Idx → EReal} (hx : Finite x) (hy : Finite y) :
    Finite (S := s) (Host.powf (F := Ideal) (φ := .f32) x y) := fun j => IsReal.pow (hx j) (hy j)

/-- An accumulating scatter: each entry is the operand's plus a finite sum of update entries. -/
theorem finite_scatterAdd {si u : Shape} {w : Nat} (d : ScatterDims s si u) {x : s.Idx → EReal} (idx : IVec si w)
    {upd : u.Idx → EReal} (hx : Finite x) (hu : Finite upd) :
    Finite (S := s) (Host.scatterAdd (F := Ideal) (φ := .f32) d x idx upd) :=
  fun i => IsReal.add (hx i) (IsReal.sum _ _ hu)

end Closure

/-! ## The chain, one operation at a time -/

section Chain

open Cert.ReferenceIdeal Cert.ReferenceIdeal.Read

variable (x0 : (⟨S100000x128, .f32⟩ : BufTy).Contents (Elt Ideal))
  (x2 x3 : (⟨S1600000, .i32⟩ : BufTy).Contents (Elt Ideal))

/-- The ones that the degree count adds. -/
theorem stage0 : Finite (S := S1600000) (val_main_v0 (F := Ideal)) := by
  unfold val_main_v0 val_main_cst
  exact finite_broadcastInDim _ _ (finite_constant (ofBits_one ▸ isReal_coe 1))

/-- The zeros the degree count starts from. -/
theorem stage1 : Finite (S := S100000) (val_main_v1 (F := Ideal)) := by
  unfold val_main_v1 val_main_cst_0
  exact finite_broadcastInDim _ _ (finite_constant (ofBits_zero ▸ isReal_coe 0))

/-- The degrees: zero plus one for each edge that ends at the node. -/
theorem stage3 : Finite (S := S100000) (val_main_v3 (F := Ideal) x3) := by
  unfold val_main_v3
  exact finite_scatterAdd _ _ stage1 stage0

/-- The degrees clipped below at one. -/
theorem stage4 : Finite (S := S100000) (val_main_v4 (F := Ideal) x3) := by
  unfold val_main_v4 val_main_call0_v1 val_main_call0_v0 val_main_cst_1
  exact finite_maximumf (finite_broadcastInDim _ _ (finite_constant (ofBits_one ▸ isReal_coe 1))) (stage3 x3)

/-- The exponent, minus one half. -/
theorem stage5 : Finite (S := S100000) (val_main_v5 (F := Ideal)) := by
  unfold val_main_v5 val_main_cst_2
  exact finite_broadcastInDim _ _ (finite_constant (ofBits_neg_half ▸ isReal_coe _))

/-- The normalising factor of each node: its clipped degree to the power minus one half. -/
theorem stage6 : Finite (S := S100000) (val_main_v6 (F := Ideal) x3) := by
  unfold val_main_v6
  exact finite_powf (stage4 x3) stage5

theorem stage7 : Finite (S := S100000x1) (val_main_v7 (F := Ideal) x3) := by
  unfold val_main_v7
  exact finite_broadcastInDim _ _ (stage6 x3)

theorem stage8 : Finite (S := S100000x128) (val_main_v8 (F := Ideal) x3) := by
  unfold val_main_v8
  exact finite_broadcastInDim _ _ (stage7 x3)

variable {x0}

/-- The features scaled by the factor of their node. -/
theorem stage9 (h0 : Finite (S := S100000x128) x0) : Finite (S := S100000x128) (val_main_v9 (F := Ideal) x0 x3) := by
  unfold val_main_v9
  exact finite_mulf h0 (stage8 x3)

/-- One scaled row per edge, read at the edge's source. -/
theorem stage16 (h0 : Finite (S := S100000x128) x0) :
    Finite (S := S1600000x128) (val_main_v16 (F := Ideal) x0 x2 x3) := by
  unfold val_main_v16
  exact finite_gather _ _ (stage9 x3 h0)

theorem stage17 : Finite (S := S100000x128) (val_main_v17 (F := Ideal)) := by
  unfold val_main_v17 val_main_cst_4
  exact finite_broadcastInDim _ _ (finite_constant (ofBits_zero ▸ isReal_coe 0))

/-- The rows of the edges added up at their destinations. -/
theorem stage19 (h0 : Finite (S := S100000x128) x0) :
    Finite (S := S100000x128) (val_main_v19 (F := Ideal) x0 x2 x3) := by
  unfold val_main_v19
  exact finite_scatterAdd _ _ stage17 (stage16 x2 x3 h0)

theorem stage20 : Finite (S := S100000x128) (val_main_v20 (F := Ideal) x3) := by
  unfold val_main_v20
  exact finite_broadcastInDim _ _ (stage7 x3)

theorem stage21 (h0 : Finite (S := S100000x128) x0) :
    Finite (S := S100000x128) (val_main_v21 (F := Ideal) x0 x2 x3) := by
  unfold val_main_v21
  exact finite_mulf (stage19 x2 x3 h0) (stage20 x3)

theorem stage22 : Finite (S := S100000x128) (val_main_v22 (F := Ideal)) := by
  unfold val_main_v22 val_main_cst_5
  exact finite_broadcastInDim _ _ (finite_constant (ofBits_neg_one ▸ isReal_coe _))

theorem stage23 (h0 : Finite (S := S100000x128) x0) :
    Finite (S := S100000x128) (val_main_v23 (F := Ideal) x0 x2 x3) := by
  unfold val_main_v23
  exact finite_mulf stage22 (stage21 x2 x3 h0)

theorem stage24 : Finite (S := S100000x128) (val_main_v24 (F := Ideal)) := by
  unfold val_main_v24 val_main_cst_6
  exact finite_broadcastInDim _ _ (finite_constant (ofBits_zero ▸ isReal_coe 0))

theorem stage25 (h0 : Finite (S := S100000x128) x0) : Finite (S := S100000x128) (val_main_v25 (F := Ideal) x0) := by
  unfold val_main_v25
  exact finite_mulf h0 stage24

/-- The first Chebyshev term is an array of reals. -/
theorem X1_finite (x0 : (⟨S100000x128, .f32⟩ : BufTy).Contents (Elt Ideal))
    (x2 x3 : (⟨S1600000, .i32⟩ : BufTy).Contents (Elt Ideal)) (h0 : Cert.Spec.Finite (S := S100000x128) x0) :
    Cert.Spec.Finite (S := S100000x128) (Cert.ReferenceIdeal.Read.val_main_v26 (F := Ideal) x0 x2 x3) := by
  unfold val_main_v26
  exact finite_addf (stage23 x2 x3 h0) (stage25 h0)

theorem stage27 : Finite (S := S100000x128) (val_main_v27 (F := Ideal) x3) := by
  unfold val_main_v27
  exact finite_broadcastInDim _ _ (stage7 x3)

theorem stage28 (h0 : Finite (S := S100000x128) x0) :
    Finite (S := S100000x128) (val_main_v28 (F := Ideal) x0 x2 x3) := by
  unfold val_main_v28
  exact finite_mulf (X1_finite x0 x2 x3 h0) (stage27 x3)

theorem stage35 (h0 : Finite (S := S100000x128) x0) :
    Finite (S := S1600000x128) (val_main_v35 (F := Ideal) x0 x2 x3) := by
  unfold val_main_v35
  exact finite_gather _ _ (stage28 x2 x3 h0)

theorem stage36 : Finite (S := S100000x128) (val_main_v36 (F := Ideal)) := by
  unfold val_main_v36 val_main_cst_9
  exact finite_broadcastInDim _ _ (finite_constant (ofBits_zero ▸ isReal_coe 0))

theorem stage38 (h0 : Finite (S := S100000x128) x0) :
    Finite (S := S100000x128) (val_main_v38 (F := Ideal) x0 x2 x3) := by
  unfold val_main_v38
  exact finite_scatterAdd _ _ stage36 (stage35 x2 x3 h0)

theorem stage39 : Finite (S := S100000x128) (val_main_v39 (F := Ideal) x3) := by
  unfold val_main_v39
  exact finite_broadcastInDim _ _ (stage7 x3)

theorem stage40 (h0 : Finite (S := S100000x128) x0) :
    Finite (S := S100000x128) (val_main_v40 (F := Ideal) x0 x2 x3) := by
  unfold val_main_v40
  exact finite_mulf (stage38 x2 x3 h0) (stage39 x3)

theorem stage41 : Finite (S := S100000x128) (val_main_v41 (F := Ideal)) := by
  unfold val_main_v41 val_main_cst_10
  exact finite_broadcastInDim _ _ (finite_constant (ofBits_neg_two ▸ isReal_coe _))

theorem stage42 (h0 : Finite (S := S100000x128) x0) :
    Finite (S := S100000x128) (val_main_v42 (F := Ideal) x0 x2 x3) := by
  unfold val_main_v42
  exact finite_mulf stage41 (stage40 x2 x3 h0)

theorem stage43 : Finite (S := S100000x128) (val_main_v43 (F := Ideal)) := by
  unfold val_main_v43 val_main_cst_11
  exact finite_broadcastInDim _ _ (finite_constant (ofBits_zero ▸ isReal_coe 0))

theorem stage44 (h0 : Finite (S := S100000x128) x0) :
    Finite (S := S100000x128) (val_main_v44 (F := Ideal) x0 x2 x3) := by
  unfold val_main_v44
  exact finite_mulf (X1_finite x0 x2 x3 h0) stage43

theorem stage45 (h0 : Finite (S := S100000x128) x0) :
    Finite (S := S100000x128) (val_main_v45 (F := Ideal) x0 x2 x3) := by
  unfold val_main_v45
  exact finite_addf (stage42 x2 x3 h0) (stage44 x2 x3 h0)

/-- The second Chebyshev term is an array of reals. -/
theorem X2_finite (x0 : (⟨S100000x128, .f32⟩ : BufTy).Contents (Elt Ideal))
    (x2 x3 : (⟨S1600000, .i32⟩ : BufTy).Contents (Elt Ideal)) (h0 : Cert.Spec.Finite (S := S100000x128) x0) :
    Cert.Spec.Finite (S := S100000x128) (Cert.ReferenceIdeal.Read.val_main_v46 (F := Ideal) x0 x2 x3) := by
  unfold val_main_v46
  exact finite_subf (stage45 x2 x3 h0) h0

end Chain

/-! ## The precondition read back -/

section Pre

open Cert.Pre_finite_inputs

/-- The rank-zero shape has one index. -/
instance subsingleton_S_ : Subsingleton Cert.Pre_finite_inputs.S_.Idx := ⟨fun _ _ => funext fun d => d.elim0⟩

/-- The word of plus infinity denotes the top element. -/
theorem ofBits_inf : Ideal.ofBits .f32 0x7F800000#32 = (⊤ : EReal) := by
  simp [Ideal.ofBits, Ideal.ieee]

/-- The comparison |x| < +inf holds only at a real: at either infinity, and at the bottom element whose
    negation is the top, the larger of x and -x is the top. -/
theorem isReal_of_abs_lt_inf {x : EReal}
    (h : FloatOps.cmpf (F := Ideal) (φ := .f32) .olt (FloatOps.hostAbsf (F := Ideal) (φ := .f32) x)
      (FloatOps.ofBits (F := Ideal) .f32 0x7F800000#32) = 1#1) : IsReal x := by
  rw [Ideal.hostAbsf_def, Ideal.cmpf_def, Ideal.absf_def, Ideal.ofBits_def, ofBits_inf] at h
  induction x using EReal.rec with
  | bot => simp [Ideal.cmp] at h
  | top => simp [Ideal.cmp] at h
  | coe v => exact ⟨v, rfl⟩

/-- An "all" of the comparisons |x| < +inf that came out one: every entry of x is a real. -/
theorem finite_of_all {s : Shape} {axes : List (Fin s.rank)} (x : s.Idx → EReal)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf (F := Ideal) (φ := .f32) .olt (Host.absf (F := Ideal) (φ := .f32) x)
            (broadcastInDim s ![] bc (constant (F := Ideal) Cert.Pre_finite_inputs.S_ .f32 0x7F800000#32)))
          init hr hu j = 1#1) : Finite (S := s) x := by
  intro i
  exact isReal_of_abs_lt_inf (Host.reduce_andi_all _ init hr hu j e i)

/-- The precondition, decoded: each float argument is an array of reals. -/
theorem pre_finite [Cert.Pre_finite_inputs.Facts]
    (a0 : FVec Ideal Cert.Pre_finite_inputs.S100000x128 .f32) (a1 : FVec Ideal Cert.Pre_finite_inputs.S100000x1 .f32)
    (a2 a3 : IVec Cert.Pre_finite_inputs.S1600000 32) (a4 : FVec Ideal Cert.Pre_finite_inputs.S384x128 .f32)
    (a5 a6 a7 : FVec Ideal Cert.Pre_finite_inputs.S128 .f32)
    (h : Cert.Pre_finite_inputs.fn (F := Ideal) a0 a1 a2 a3 a4 a5 a6 a7 = (fun _ => 1#1)) :
    Cert.Spec.Finite (S := Cert.Pre_finite_inputs.S100000x128) a0
      ∧ Cert.Spec.Finite (S := Cert.Pre_finite_inputs.S100000x1) a1
      ∧ Cert.Spec.Finite (S := Cert.Pre_finite_inputs.S384x128) a4
      ∧ Cert.Spec.Finite (S := Cert.Pre_finite_inputs.S128) a5
      ∧ Cert.Spec.Finite (S := Cert.Pre_finite_inputs.S128) a6
      ∧ Cert.Spec.Finite (S := Cert.Pre_finite_inputs.S128) a7 := by
  have h1 := congrFun h ValueIdx.ix0
  dsimp only [Cert.Pre_finite_inputs.fn, Cert.Pre_finite_inputs.fn_part1, andi] at h1
  obtain ⟨h1, h7⟩ := IntOp.andi_eq_one.1 h1
  obtain ⟨h1, h6⟩ := IntOp.andi_eq_one.1 h1
  obtain ⟨h1, h5⟩ := IntOp.andi_eq_one.1 h1
  obtain ⟨h1, h4⟩ := IntOp.andi_eq_one.1 h1
  obtain ⟨h0, h1⟩ := IntOp.andi_eq_one.1 h1
  exact ⟨finite_of_all _ _ _ _ _ _ h0, finite_of_all _ _ _ _ _ _ h1, finite_of_all _ _ _ _ _ _ h4,
    finite_of_all _ _ _ _ _ _ h5, finite_of_all _ _ _ _ _ _ h6, finite_of_all _ _ _ _ _ _ h7⟩

end Pre

end Cert.FiniteChain

end
-- ==== Proof.LibSumBlocks.lean ====
/-
  Regrouping a finite sum into blocks.

  A sum over the positions `0 … a·b·c − 1` of a function of the position is the triple sum over a block number
  `t < a`, a row `r < b` inside the block and a lane `l < c` inside the row, of the function at the position
  `(b·t + r)·c + l` — the row-major position of `(t, r, l)`. It holds in every commutative additive monoid, the
  extended reals included: only associativity and commutativity of the addition are used. Also: a sum over the
  indices of a rank-1 array is the sum over its one coordinate.
-/
import Idealize.ShloMosaic.Lib.ValueIdx

open scoped BigOperators

namespace Cert.Lib.SumBlocks

open Idealize.ShloMosaic Idealize.ShloMosaic.ValueIdx

/-- A sum over the positions below `m·n` is the double sum over the quotient `i < m` and the remainder `j < n` of the
    position `n·i + j`. -/
theorem sum_fin_mul {M : Type*} [AddCommMonoid M] (m n : ℕ) (g : ℕ → M) :
    ∑ k : Fin (m * n), g k.val = ∑ i : Fin m, ∑ j : Fin n, g (n * i.val + j.val) := by
  rw [← Equiv.sum_comp finProdFinEquiv (fun k : Fin (m * n) => g k.val), Fintype.sum_prod_type]
  refine Finset.sum_congr rfl fun i _ => Finset.sum_congr rfl fun j _ => ?_
  show g (j.val + n * i.val) = g (n * i.val + j.val)
  rw [Nat.add_comm]

/-- A sum over the positions below `N = a·b·c` is the triple sum over blocks, rows and lanes of the row-major position. -/
theorem sum_fin_blocks {M : Type*} [AddCommMonoid M] (a b c N : ℕ) (hN : N = a * b * c) (g : ℕ → M) :
    ∑ k : Fin N, g k.val = ∑ t : Fin a, ∑ r : Fin b, ∑ l : Fin c, g ((b * t.val + r.val) * c + l.val) := by
  subst hN
  rw [sum_fin_mul (a * b) c g, sum_fin_mul a b (fun u => ∑ l : Fin c, g (c * u + l.val))]
  refine Finset.sum_congr rfl fun t _ => Finset.sum_congr rfl fun r _ => Finset.sum_congr rfl fun l _ => ?_
  rw [Nat.mul_comm c]

/-- The indices of a rank-1 array are its coordinates … -/
def idxEquiv1 {n : ℕ} : (⟨1, ![n]⟩ : Shape).Idx ≃ Fin n where
  toFun i := i 0
  invFun k := ix1 k
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

end Cert.Lib.SumBlocks
-- ==== Proof.Algebra.lean ====
/-
  The two spellings of the layer (`Cert.Spec.Kout`, `Cert.Spec.Rout`) agree whenever every input entry is a real number.

  * The linear layer: a 384-term sum is the sum of its three 128-term slabs, and the joined array reads each slab from
    its own array, so `hK = hR` on all extended reals — only associativity and commutativity of the addition are used.
  * With real inputs every entry of the linear layer is a real number `h r`, sums and products of reals being reals.
  * The 2 halves of 25 blocks of 2000 rows are the 100000 rows, each once, so the kernel's block sums are the sums over
    all rows.
  * The literals denote 100000, 0 and a positive real ε; dividing a real by 100000 is multiplying by 1/100000.
  * For real numbers, with μ = (1/N)·Σ h, (1/N)·Σ (h − μ)² = (1/N)·Σ h² − μ², and this number v is not negative, so the
    clamp at zero does nothing: both variances are v.
  * v + ε > 0, so the reciprocal square root is the real number ρ = (√(v + ε))⁻¹, and
    h·(g·ρ) + (be − μ·(g·ρ)) = ((h − μ)·ρ)·g + be is the distributive law.
-/
import proofs.«108745_j38998303048417_2_alg».proof.Proof.Spec
import proofs.«108745_j38998303048417_2_alg».proof.Proof.LibSumBlocks
import Mathlib.Tactic

noncomputable section

open scoped BigOperators

namespace Cert.Algebra

open Idealize.ShloMosaic Idealize.ShloMosaic.ValueIdx Cert.Spec

/-! ## The real core -/

/-- The mean of the squared deviations from the mean is the mean square minus the squared mean. -/
theorem real_var {ι : Type*} (s : Finset ι) (N : ℝ) (hcard : (s.card : ℝ) = N) (hN0 : N ≠ 0) (h : ι → ℝ) (μ : ℝ)
    (hμ : μ = (∑ r ∈ s, h r) * (1 / N)) :
    (∑ r ∈ s, (h r - μ) * (h r - μ)) * (1 / N) = (∑ r ∈ s, h r * h r) * (1 / N) - μ * μ := by
  have hS : ∑ r ∈ s, h r = N * μ := by rw [hμ]; field_simp
  have hexp : ∑ r ∈ s, (h r - μ) * (h r - μ) = ∑ r ∈ s, h r * h r - 2 * μ * ∑ r ∈ s, h r + N * (μ * μ) := by
    have : ∀ r, (h r - μ) * (h r - μ) = h r * h r - 2 * μ * h r + μ * μ := fun r => by ring
    simp only [this, Finset.sum_add_distrib, Finset.sum_sub_distrib, ← Finset.mul_sum, Finset.sum_const,
      nsmul_eq_mul, hcard]
    ring
  rw [hexp, hS]
  field_simp
  ring

/-- A mean of squares is not negative. -/
theorem real_var_nonneg {ι : Type*} (s : Finset ι) (N : ℝ) (hN : 0 < N) (h : ι → ℝ) (μ : ℝ) :
    0 ≤ (∑ r ∈ s, (h r - μ) * (h r - μ)) * (1 / N) :=
  mul_nonneg (Finset.sum_nonneg fun r _ => mul_self_nonneg _) (by positivity)

/-! ## Coercions -/

/-- The inclusion of the reals in the extended reals commutes with finite sums. -/
theorem coe_sum {ι : Type*} (s : Finset ι) (f : ι → ℝ) :
    ((∑ r ∈ s, f r : ℝ) : EReal) = ∑ r ∈ s, (f r : EReal) := by
  classical
  induction s using Finset.induction_on with
  | empty => simp
  | insert a s ha ih => rw [Finset.sum_insert ha, Finset.sum_insert ha, EReal.coe_add, ih]

/-! ## The literals -/

/-- The row count's word denotes 100000. -/
theorem cN_eq : cN = ((100000 : ℝ) : EReal) := by
  simp [cN, Ideal.ofBits, Ideal.ieee, -EReal.coe_mul]; norm_num

/-- The zero word denotes 0. -/
theorem c0_eq : c0 = 0 := by
  simp [c0, Ideal.ofBits, Ideal.ieee]

/-- ε's word denotes a positive real, 10995116 · 2⁻⁴⁰. -/
theorem cEps_eq : ∃ v : ℝ, 0 < v ∧ cEps = (v : EReal) := by
  refine ⟨10995116 * (2 : ℝ) ^ (-40 : ℤ), by positivity, ?_⟩
  simp [cEps, Ideal.ofBits, Ideal.ieee, -EReal.coe_mul]

/-! ## Regrouping sums -/

/-- A sum of 384 terms is the sum of its three 128-term slabs. -/
theorem sum_384 {M : Type*} [AddCommMonoid M] (f : Fin 384 → M) :
    ∑ k : Fin 384, f k =
      ((∑ k : Fin 128, f ⟨k.val, by have := k.isLt; omega⟩)
        + ∑ k : Fin 128, f ⟨128 + k.val, by have := k.isLt; omega⟩)
        + ∑ k : Fin 128, f ⟨256 + k.val, by have := k.isLt; omega⟩ := by
  have h1 := Fin.sum_univ_add (a := 256) (b := 128) (f := f)
  have h2 := Fin.sum_univ_add (a := 128) (b := 128) (f := fun i : Fin 256 => f (Fin.castAdd 128 i))
  rw [h1, h2]
  rfl

variable (X0 X1 X2 : SN.Idx → EReal) (W : SW.Idx → EReal) (b g be : SD.Idx → EReal) (sn : SN1.Idx → EReal)

/-- The joined array reads its first 128 columns from the first array … -/
theorem Xt_0 (r : Fin 100000) (k : Fin 128) :
    Xt X0 X1 X2 r ⟨k.val, by have := k.isLt; omega⟩ = X0 (ix2 r k) := by
  have hk := k.isLt
  simp [Xt, hk]

/-- … its next 128 columns from the second … -/
theorem Xt_1 (r : Fin 100000) (k : Fin 128) :
    Xt X0 X1 X2 r ⟨128 + k.val, by have := k.isLt; omega⟩ = X1 (ix2 r k) := by
  have h1 : ¬ (128 + k.val < 128) := by omega
  have h2 : 128 + k.val < 256 := by have := k.isLt; omega
  simp [Xt, h1, h2]

/-- … and its last 128 columns from the third. -/
theorem Xt_2 (r : Fin 100000) (k : Fin 128) :
    Xt X0 X1 X2 r ⟨256 + k.val, by have := k.isLt; omega⟩ = X2 (ix2 r k) := by
  have h1 : ¬ (256 + k.val < 128) := by omega
  have h2 : ¬ (256 + k.val < 256) := by omega
  simp [Xt, h1, h2]

/-- The two spellings of the linear layer agree on all extended reals. -/
theorem hK_eq_hR (r : Fin 100000) (e : Fin 128) : hK X0 X1 X2 W b sn r e = hR X0 X1 X2 W b sn r e := by
  unfold hK hR
  rw [sum_384]
  simp only [Xt_0, Xt_1, Xt_2]

/-- The rows dealt to two halves of 25 blocks of 2000 are all the rows, each once. -/
theorem sum_rows {M : Type*} [AddCommMonoid M] (f : Fin 100000 → M) :
    (∑ i : Fin 25, ∑ q : Fin 2000, f (row 0 i q)) + (∑ i : Fin 25, ∑ q : Fin 2000, f (row 1 i q))
      = ∑ r : Fin 100000, f r := by
  let g : ℕ → M := fun n => if h : n < 100000 then f ⟨n, h⟩ else 0
  have hg : ∑ r : Fin 100000, f r = ∑ r : Fin 100000, g r.val :=
    Finset.sum_congr rfl fun r _ => by simp only [g, dif_pos r.isLt]
  have key := Cert.Lib.SumBlocks.sum_fin_blocks 2 25 2000 100000 (by norm_num) g
  have hterm : ∀ (c : Fin 2) (i : Fin 25) (q : Fin 2000),
      g ((25 * c.val + i.val) * 2000 + q.val) = f (row c i q) := by
    intro c i q
    have hc := c.isLt
    have hi := i.isLt
    have hq := q.isLt
    have hlt : (25 * c.val + i.val) * 2000 + q.val < 100000 := by omega
    simp only [g, dif_pos hlt]
    refine congrArg f (Fin.ext ?_)
    simp only [row]
    ring
  simp only [hterm] at key
  rw [hg, key, Fin.sum_univ_two]

/-! ## Being a real number is kept by sums and products -/

/-- The extended real is a real number. -/
def IsReal (x : EReal) : Prop := ∃ v : ℝ, x = (v : EReal)

theorem IsReal.add {x y : EReal} (hx : IsReal x) (hy : IsReal y) : IsReal (x + y) := by
  obtain ⟨a, rfl⟩ := hx
  obtain ⟨c, rfl⟩ := hy
  exact ⟨a + c, (EReal.coe_add a c).symm⟩

theorem IsReal.mul {x y : EReal} (hx : IsReal x) (hy : IsReal y) : IsReal (x * y) := by
  obtain ⟨a, rfl⟩ := hx
  obtain ⟨c, rfl⟩ := hy
  exact ⟨a * c, (EReal.coe_mul a c).symm⟩

theorem IsReal.sum {ι : Type*} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- With real inputs every entry of the linear layer is a real number. -/
theorem hK_real (hX0 : Spec.Finite X0) (hX1 : Spec.Finite X1) (hX2 : Spec.Finite X2) (hW : Spec.Finite W) (hb : Spec.Finite b)
    (hsn : Spec.Finite sn) (r : Fin 100000) (e : Fin 128) : IsReal (hK X0 X1 X2 W b sn r e) := by
  unfold hK
  refine IsReal.mul (IsReal.add (IsReal.add (IsReal.add ?_ ?_) ?_) (hb _)) (hsn _)
  · exact IsReal.sum _ _ fun k _ => IsReal.mul (hX0 _) (hW _)
  · exact IsReal.sum _ _ fun k _ => IsReal.mul (hX1 _) (hW _)
  · exact IsReal.sum _ _ fun k _ => IsReal.mul (hX2 _) (hW _)

/-- A real number divided by the row count. -/
theorem div_cN (x : ℝ) : Ideal.div (x : EReal) cN = ((x * (1 / 100000) : ℝ) : EReal) := by
  rw [cN_eq, Ideal.div_coe (by norm_num), ← EReal.coe_mul]

/-! ## The two results agree -/

/-- The kernel's result is the reference's, entry by entry, for real inputs. -/
theorem Kout_eq_Rout (hX0 : Spec.Finite X0) (hX1 : Spec.Finite X1) (hX2 : Spec.Finite X2) (hW : Spec.Finite W) (hb : Spec.Finite b)
    (hg : Spec.Finite g) (hbe : Spec.Finite be) (hsn : Spec.Finite sn) (r : Fin 100000) (e : Fin 128) :
    Kout X0 X1 X2 W b g be sn r e = Rout X0 X1 X2 W b g be sn r e := by
  -- the column of the linear layer as real numbers
  have hreal : ∀ r, IsReal (hK X0 X1 X2 W b sn r e) := fun r => hK_real X0 X1 X2 W b sn hX0 hX1 hX2 hW hb hsn r e
  choose h hh using hreal
  have hh' : ∀ r, hR X0 X1 X2 W b sn r e = (h r : EReal) := fun r => by rw [← hK_eq_hR, hh]
  obtain ⟨gv, hgv⟩ := hg (ix1 e)
  obtain ⟨bev, hbev⟩ := hbe (ix1 e)
  obtain ⟨ε, hε, hcε⟩ := cEps_eq
  -- its mean and variance
  obtain ⟨μ, hμ⟩ : ∃ μ : ℝ, μ = (∑ r, h r) * (1 / 100000) := ⟨_, rfl⟩
  obtain ⟨v, hv⟩ : ∃ v : ℝ, v = (∑ r, (h r - μ) * (h r - μ)) * (1 / 100000) := ⟨_, rfl⟩
  have hmeanK : meanK X0 X1 X2 W b sn e = (μ : EReal) := by
    unfold meanK sK
    rw [sum_rows (fun r => hK X0 X1 X2 W b sn r e)]
    simp only [hh]
    rw [← coe_sum, div_cN, hμ]
  have hmeanR : meanR X0 X1 X2 W b sn e = (μ : EReal) := by
    unfold meanR
    simp only [hh']
    rw [c0_eq, zero_add, ← coe_sum, div_cN, hμ]
  have hmsqK : msqK X0 X1 X2 W b sn e = (((∑ r, h r * h r) * (1 / 100000) : ℝ) : EReal) := by
    unfold msqK qK
    rw [sum_rows (fun r => hK X0 X1 X2 W b sn r e * hK X0 X1 X2 W b sn r e)]
    simp only [hh, ← EReal.coe_mul]
    rw [← coe_sum, div_cN]
  have hvarR : varR X0 X1 X2 W b sn e = (v : EReal) := by
    unfold varR
    simp only [hh', hmeanR, ← EReal.coe_sub, ← EReal.coe_mul]
    rw [c0_eq, zero_add, ← coe_sum, div_cN, hv]
  have hv0 : 0 ≤ v := by
    rw [hv]
    exact real_var_nonneg Finset.univ 100000 (by norm_num) h μ
  have hvarK : varK X0 X1 X2 W b sn e = (v : EReal) := by
    unfold varK
    rw [hmsqK, hmeanK, ← EReal.coe_mul, ← EReal.coe_sub, c0_eq,
      ← real_var Finset.univ 100000 (by simp) (by norm_num) h μ hμ, ← hv]
    exact max_eq_left (by exact_mod_cast hv0)
  have hpos : 0 < v + ε := by linarith
  have hrs : Ideal.rsqrt ((v : EReal) + cEps) = (((Real.sqrt (v + ε))⁻¹ : ℝ) : EReal) := by
    rw [hcε, ← EReal.coe_add, Ideal.rsqrt_coe, if_neg (not_lt.mpr hpos.le), if_neg hpos.ne']
  unfold Kout Rout shiftK scaleK
  rw [hvarK, hvarR, hmeanK, hmeanR, hrs, hh, hh', hgv, hbev]
  simp only [← EReal.coe_mul, ← EReal.coe_add, ← EReal.coe_sub]
  congr 2
  ring

end Cert.Algebra

end
-- ==== Proof.KI.R0Pieces.lean ====
import proofs.«108745_j38998303048417_2_alg».proof.Proof.KI.R0Data
import Idealize.ShloMosaic.Lib.Pipeline.Value
import Idealize.ShloMosaic.Lib.ValueIdx

/-! # The first kernel region: what each case's stores leave, as the body's arithmetic

Each case's run found, per buffer, the list of stores the buffer ends with. Here those lists are read back as values:
pure functions of the eight input blocks and, away from a half's first block, of the two accumulators the point
starts from. Nothing here depends on the float interpretation. -/

set_option maxRecDepth 16384

noncomputable section

namespace Cert.KernelIdeal.Hand

open Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as the body's arithmetic

Every store of the body writes a whole buffer, so what a buffer ends with is the payload of the last store into it,
and a load after a store reads that store's payload. Write `y` for the block `k0_pay7` of the eight input blocks (the
linear layer with the graph norm on the block's 2000 rows). In every case the block output ends with `y`. The first
accumulator ends with `k0_pay1 y a` (the accumulator `a` it started from plus the column sums of `y`) and the second
with `k0_pay2 y a'` (the same with the squares of `y`), where at the first block of a half `a` and `a'` are the zero
rows the reset has just stored and otherwise what the point before left. At the last block of a half the two
statistics outputs end with the accumulators just computed, with a leading unit axis added. -/
theorem piece_A_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = (k0_pay7 x0 x1 x2 x3 x4 x5 x6 x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_A_s0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay1 (k0_pay7 x0 x1 x2 x3 x4 x5 x6 x7) k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_A_s1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 x1 x2 : Vec F S2000x128 .f32) (x3 x4 x5 : Vec F S128x128 .bf16) (x6 : Vec F S1x128 .f32) (x7 : Vec F S2000x1 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 (k0_pay7 x0 x1 x2 x3 x4 x5 x6 x7) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_B_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = (k0_pay7 x0 x1 x2 x3 x4 x5 x6 x7) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_B_s0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay1 (k0_pay7 x0 x1 x2 x3 x4 x5 x6 x7) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_B_s1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 x1 x2 : Vec F S2000x128 .f32) (x3 x4 x5 : Vec F S128x128 .bf16) (x6 : Vec F S1x128 .f32) (x7 : Vec F S2000x1 .f32) (xs0 xs1 : Vec F S1x128 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay2 (k0_pay7 x0 x1 x2 x3 x4 x5 x6 x7) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_C_8 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = (k0_pay7 x0 x1 x2 x3 x4 x5 x6 x7) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_C_9 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay3 (k0_pay1 (k0_pay7 x0 x1 x2 x3 x4 x5 x6 x7) xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz3, View.readCov_unit_zero (S := S1x128) _ hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_C_10 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay4 (k0_pay2 (k0_pay7 x0 x1 x2 x3 x4 x5 x6 x7) xs1) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz3, View.readCov_unit_zero (S := S1x128) _ hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_C_s0 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay1 (k0_pay7 x0 x1 x2 x3 x4 x5 x6 x7) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

theorem piece_C_s1 (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2000x1 .f32) (harg9 : arg9.IsWhole) (arg10 : Memref sig .tc .vmem S2000x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 x1 x2 : Vec F S2000x128 .f32) (x3 x4 x5 : Vec F S128x128 .bf16) (x6 : Vec F S1x128 .f32) (x7 : Vec F S2000x1 .f32) (xs0 xs1 : Vec F S1x128 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay2 (k0_pay7 x0 x1 x2 x3 x4 x5 x6 x7) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg13.read_unread, harg14.read_unread, View.ld_unit_zero (S := S2000x128) hz2, View.ld_unit_zero (S := S128x128) hz2, View.ld_unit_zero (S := S1x128) hz2, View.ld_unit_zero (S := S2000x1) hz2, View.ld_unit_zero (S := S1x1x128) hz3]

end Cert.KernelIdeal.Hand

end
-- ==== Proof.KI.R0Reads.lean ====
import proofs.«108745_j38998303048417_2_alg».proof.Proof.KI.R0Data
import Idealize.ShloMosaic.Lib.Pipeline.Value
import Idealize.ShloMosaic.Lib.ValueIdx

/-! # The first kernel region: its windows' blocks, read at an index

Where each window's block sits at a grid point (decided over the 50 points), and, from that, what an input window's
block holds entry by entry: a row window's block at point `t` is rows `2000·t … 2000·t + 1999` of its array; the three
weight slabs and the bias row are their whole arrays at every point. -/

set_option maxRecDepth 16384

noncomputable section

namespace Cert.KernelIdeal.Hand

open Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## Where each window's block sits at a grid point -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 3) = t.val / 25 ∧ win0_9.index t (1 : Fin 3) = 0 ∧ win0_9.index t (2 : Fin 3) = 0 :=
  (by decide +kernel : ∀ t : Fin grid0.N, _)
theorem idx0_10 : ∀ t : Fin cfg0.N, win0_10.index t (0 : Fin 3) = t.val / 25 ∧ win0_10.index t (1 : Fin 3) = 0 ∧ win0_10.index t (2 : Fin 3) = 0 :=
  (by decide +kernel : ∀ t : Fin grid0.N, _)

theorem ptLt (t : Fin cfg0.N) : t.val < 50 := by have := t.isLt; have hN : cfg0.N = 50 := N_0; omega

section Blocks
variable {F : FTy → Type} [FloatOps F]
variable (V : (c : Dev nD) → (b : Ref sig .tc) → Buf (Elt F) ((c : Thread nD τ).loc b))

/-! ## The input blocks, read at an index

Row `q` of the block a row window holds at point `t` is row `2000·t + q` of its array; the weight slabs and the bias
row are their whole arrays at every point. -/

theorem iblk0_0_apply (c : Dev nD) (t : Fin cfg0.N) (q : Fin 2000) (k : Fin 128) :
    (iblk0 V c 0 t : Vec F S2000x128 .f32) (ix2 q k)
      = V c main_arg0 (ix2 (⟨2000 * t.val + q.val, by have := ptLt t; have := q.isLt; omega⟩ : Fin 100000) k) := by
  unfold iblk0
  rw [View.read_apply]
  show V c main_arg0 _ = _
  congr 1
  funext a
  apply Fin.ext
  match a with
  | ⟨0, _⟩ => show win0_0.index t 0 * 2000 + 1 * q.val = 2000 * t.val + q.val; rw [(idx0_0 t).1]; omega
  | ⟨1, _⟩ => show win0_0.index t 1 * 128 + 1 * k.val = k.val; rw [(idx0_0 t).2]; omega

theorem iblk0_1_apply (c : Dev nD) (t : Fin cfg0.N) (q : Fin 2000) (k : Fin 128) :
    (iblk0 V c 1 t : Vec F S2000x128 .f32) (ix2 q k)
      = V c main_v26 (ix2 (⟨2000 * t.val + q.val, by have := ptLt t; have := q.isLt; omega⟩ : Fin 100000) k) := by
  unfold iblk0
  rw [View.read_apply]
  show V c main_v26 _ = _
  congr 1
  funext a
  apply Fin.ext
  match a with
  | ⟨0, _⟩ => show win0_1.index t 0 * 2000 + 1 * q.val = 2000 * t.val + q.val; rw [(idx0_1 t).1]; omega
  | ⟨1, _⟩ => show win0_1.index t 1 * 128 + 1 * k.val = k.val; rw [(idx0_1 t).2]; omega

theorem iblk0_2_apply (c : Dev nD) (t : Fin cfg0.N) (q : Fin 2000) (k : Fin 128) :
    (iblk0 V c 2 t : Vec F S2000x128 .f32) (ix2 q k)
      = V c main_v46 (ix2 (⟨2000 * t.val + q.val, by have := ptLt t; have := q.isLt; omega⟩ : Fin 100000) k) := by
  unfold iblk0
  rw [View.read_apply]
  show V c main_v46 _ = _
  congr 1
  funext a
  apply Fin.ext
  match a with
  | ⟨0, _⟩ => show win0_2.index t 0 * 2000 + 1 * q.val = 2000 * t.val + q.val; rw [(idx0_2 t).1]; omega
  | ⟨1, _⟩ => show win0_2.index t 1 * 128 + 1 * k.val = k.val; rw [(idx0_2 t).2]; omega

theorem iblk0_3_apply (c : Dev nD) (t : Fin cfg0.N) (k e : Fin 128) :
    (iblk0 V c 3 t : Vec F S128x128 .bf16) (ix2 k e) = V c main_v48 (ix2 k e) := by
  unfold iblk0
  rw [View.read_apply]
  show V c main_v48 _ = _
  congr 1
  funext a
  apply Fin.ext
  match a with
  | ⟨0, _⟩ => show win0_3.index t 0 * 128 + 1 * k.val = k.val; rw [(idx0_3 t).1]; omega
  | ⟨1, _⟩ => show win0_3.index t 1 * 128 + 1 * e.val = e.val; rw [(idx0_3 t).2]; omega

theorem iblk0_4_apply (c : Dev nD) (t : Fin cfg0.N) (k e : Fin 128) :
    (iblk0 V c 4 t : Vec F S128x128 .bf16) (ix2 k e) = V c main_v50 (ix2 k e) := by
  unfold iblk0
  rw [View.read_apply]
  show V c main_v50 _ = _
  congr 1
  funext a
  apply Fin.ext
  match a with
  | ⟨0, _⟩ => show win0_4.index t 0 * 128 + 1 * k.val = k.val; rw [(idx0_4 t).1]; omega
  | ⟨1, _⟩ => show win0_4.index t 1 * 128 + 1 * e.val = e.val; rw [(idx0_4 t).2]; omega

theorem iblk0_5_apply (c : Dev nD) (t : Fin cfg0.N) (k e : Fin 128) :
    (iblk0 V c 5 t : Vec F S128x128 .bf16) (ix2 k e) = V c main_v52 (ix2 k e) := by
  unfold iblk0
  rw [View.read_apply]
  show V c main_v52 _ = _
  congr 1
  funext a
  apply Fin.ext
  match a with
  | ⟨0, _⟩ => show win0_5.index t 0 * 128 + 1 * k.val = k.val; rw [(idx0_5 t).1]; omega
  | ⟨1, _⟩ => show win0_5.index t 1 * 128 + 1 * e.val = e.val; rw [(idx0_5 t).2]; omega

theorem iblk0_6_apply (c : Dev nD) (t : Fin cfg0.N) (e : Fin 128) :
    (iblk0 V c 6 t : Vec F S1x128 .f32) (ix2 (0 : Fin 1) e) = V c main_v53 (ix2 (0 : Fin 1) e) := by
  unfold iblk0
  rw [View.read_apply]
  show V c main_v53 _ = _
  congr 1
  funext a
  apply Fin.ext
  match a with
  | ⟨0, _⟩ => show win0_6.index t 0 * 1 + 1 * 0 = 0; rw [(idx0_6 t).1]
  | ⟨1, _⟩ => show win0_6.index t 1 * 128 + 1 * e.val = e.val; rw [(idx0_6 t).2]; omega
theorem iblk0_7_apply (c : Dev nD) (t : Fin cfg0.N) (q : Fin 2000) :
    (iblk0 V c 7 t : Vec F S2000x1 .f32) (ix2 q (0 : Fin 1))
      = V c main_arg1 (ix2 (⟨2000 * t.val + q.val, by have := ptLt t; have := q.isLt; omega⟩ : Fin 100000) (0 : Fin 1)) := by
  unfold iblk0
  rw [View.read_apply]
  show V c main_arg1 _ = _
  congr 1
  funext a
  apply Fin.ext
  match a with
  | ⟨0, _⟩ => show win0_7.index t 0 * 2000 + 1 * q.val = 2000 * t.val + q.val; rw [(idx0_7 t).1]; omega
  | ⟨1, _⟩ => show win0_7.index t 1 * 1 + 1 * 0 = 0; rw [(idx0_7 t).2]
end Blocks

end Cert.KernelIdeal.Hand

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibPlainMatmulFmt.lean ====
/-
  A plain matrix product read at an index, for operands of any float formats.

  At the ideal values every float format is the extended reals, so the product of an `M × K` matrix by a `K × N`
  matrix accumulated into the zero matrix is, at row `r` and column `e`, the sum over `k < K` of
  `lhs (r, k) * rhs (k, e)` whatever formats label the two operands (a kernel that narrows its operands to a
  16-bit format before the product is read by this form).
-/
import proofs.«108745_j38998303048417_2_alg».proof.Proof.LibPlainMatmul

noncomputable section

namespace Idealize.ShloMosaic.PlainMatmul

open Idealize.ShloMosaic Idealize.ShloMosaic.ValueIdx

/-- A plain product of operands of formats `φ₁`, `φ₂` into the zero matrix, at `(r, e)`: the sum over the inner axis
    of the operands' products. -/
theorem matmul_zero_apply_fmt {φ₁ φ₂ : FTy} (M K N : ℕ) (prec : Option ContractPrecision)
    (lhs : FVec Ideal ⟨2, ![M, K]⟩ φ₁) (rhs : FVec Ideal ⟨2, ![K, N]⟩ φ₂) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibKeepdims.lean ====
/-
  Column ("keepdims") layout operations read at an index given by coordinates.

  A reduction along the last axis of a matrix that keeps the reduced axis as a unit axis is printed as a shape cast of
  the `[a]` result to `[a, 1]` followed, where it is used against the matrix again, by a broadcast of the `[a, 1]`
  column to `[a, b]`. Both operations read the operand at the row of the index: the cast ignores the unit coordinate and
  the broadcast ignores the column coordinate. Stated over literal-size coordinates (`ix1`, `ix2`) so that a lemma
  applies to a printed operation by unification.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.R0Pay.lean ====
import proofs.«108745_j38998303048417_2_alg».proof.Proof.Gen.KernelIdeal.Skeleton
import proofs.«108745_j38998303048417_2_alg».proof.Proof.LibPlainMatmulFmt
import proofs.«108745_j38998303048417_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-! # The first region's arithmetic, entry by entry, on the extended reals

Each value the body stores is a pure function of the values it loaded. At the ideal instance a change of float
format is the identity, a matrix product into the zero accumulator is the plain sum over the inner axis, and a column
sum with initial word zero is the plain sum over the rows. So, for a 2000 x 128 block:

* the stored block is `((x0·w0 + x1·w1) + x2·w2 + bias) · snorm`, entry `(q, e)` being the three 128-term sums over
  the inner axis, plus the bias at `e`, times the row's factor;
* an accumulator's new value at `e` is its old value plus the sum over the 2000 rows of the block's column `e`
  (of its squares, for the second accumulator);
* the rows copied out to the statistics outputs are the accumulators, re-laid from 1 x 128 to 1 x 1 x 128;
* the reset value is zero. -/

set_option maxRecDepth 16384

noncomputable section

open scoped BigOperators

namespace Cert.KernelIdeal.Hand

open Cert.KernelIdeal Cert.KernelIdeal.Gen
open Idealize.ShloMosaic Idealize.ShloMosaic.ValueIdx

/-- The printed dimension numbers of the body's three products are those of a plain 2000 x 128 by 128 x 128 product. -/
theorem dot_plain : dot_S2000x128_S128x128_S2000x128_1_0_0_1_n_n = DotDims.plain 2000 128 128 := rfl

/-- One product of the body at `(q, e)`: the left block narrowed to 16 bits (the identity here), the right slab as
    loaded, into the zero matrix. -/
theorem prod_apply (v : FVec Ideal S2000x128 .f32) (w : FVec Ideal S128x128 .bf16) (q : Fin 2000) (e : Fin 128) :
    matmul dot_S2000x128_S128x128_S2000x128_1_0_0_1_n_n none (truncf .bf16 v bitsLt_bf16_f32 : FVec Ideal S2000x128 .bf16)
        (shapeCast S128x128 w shapeCasts_S128x128_S128x128 : FVec Ideal S128x128 .bf16) (constant (F := Ideal) S2000x128 .f32 0x00000000#32) (ix2 q e)
      = ∑ k : Fin 128, v (ix2 q k) * w (ix2 k e) := by
  rw [dot_plain, shapeCast_self]
  exact PlainMatmul.matmul_zero_apply_fmt (φ₁ := .bf16) (φ₂ := .bf16) 2000 128 128 none (truncf .bf16 v bitsLt_bf16_f32) w q e

/-- The stored block at `(q, e)`. -/
theorem pay7_apply (v3 v5 v8 : Vec Ideal S2000x128 .f32) (v11 v14 v18 : Vec Ideal S128x128 .bf16) (v22 : Vec Ideal S1x128 .f32)
    (v26 : Vec Ideal S2000x1 .f32) (q : Fin 2000) (e : Fin 128) :
    k0_pay7 v3 v5 v8 v11 v14 v18 v22 v26 (ix2 q e)
      = ((((∑ k : Fin 128, v3 (ix2 q k) * v11 (ix2 k e)) + ∑ k : Fin 128, v5 (ix2 q k) * v14 (ix2 k e))
          + ∑ k : Fin 128, v8 (ix2 q k) * v18 (ix2 k e)) + v22 (ix2 (0 : Fin 1) e)) * v26 (ix2 q (0 : Fin 1)) := by
  unfold k0_pay7
  rw [mulf_apply, addf_apply, addf_apply, addf_apply]
  rw [shapeCast_self v5, shapeCast_self v8, shapeCast_self v22]
  refine congrArg₂ (· * ·) (congrArg₂ (· + ·) (congrArg₂ (· + ·) (congrArg₂ (· + ·) ?_ ?_) ?_) ?_) ?_
  · exact prod_apply v3 v11 q e
  · exact prod_apply v5 v14 q e
  · exact prod_apply v8 v18 q e
  · exact broadcastTo_1b_ab_apply v22 _ q e
  · exact broadcastTo_a1_ab_apply v26 _ q e

/-- The column sum of a block at `e`, as the body takes it: initial word zero, rows summed, re-laid as a row. -/
theorem colsum_apply (v : FVec Ideal S2000x128 .f32) (e : Fin 128) :
    shapeCast S1x128 (multiReduction .add [0] S128 v 0x00000000#32 reduces_S2000x128_S128 (.inl rfl) rfl) shapeCasts_S128_S1x128 (ix2 (0 : Fin 1) e)
      = ∑ q : Fin 2000, v (ix2 q e) := by
  rw [shapeCast_a_1a_apply _ _ (0 : Fin 1) e]
  refine (Ideal.multiReduction_add_single v 0x00000000#32 reduces_S2000x128_S128 _ _ (ix1 e)).trans ?_
  show (∑ q : Fin 2000, v (reduces_S2000x128_S128.lift (ix1 e) q)) = _
  refine Finset.sum_congr rfl fun q _ => congrArg v ?_
  funext a
  refine Fin.ext ?_
  match a with
  | ⟨0, _⟩ => rfl
  | ⟨1, _⟩ => rfl

/-- The first accumulator's new value at `e`: the old value plus the block's column sum. -/
theorem pay1_apply (v28 : FVec Ideal S2000x128 .f32) (v30 : Vec Ideal S1x128 .f32) (e : Fin 128) :
    k0_pay1 v28 v30 (ix2 (0 : Fin 1) e) = v30 (ix2 (0 : Fin 1) e) + ∑ q : Fin 2000, v28 (ix2 q e) := by
  unfold k0_pay1
  rw [shapeCast_self, addf_apply, colsum_apply]

/-- The second accumulator's new value at `e`: the old value plus the column sum of the block's squares. -/
theorem pay2_apply (v28 : FVec Ideal S2000x128 .f32) (v37 : Vec Ideal S1x128 .f32) (e : Fin 128) :
    k0_pay2 v28 v37 (ix2 (0 : Fin 1) e) = v37 (ix2 (0 : Fin 1) e) + ∑ q : Fin 2000, v28 (ix2 q e) * v28 (ix2 q e) := by
  unfold k0_pay2
  rw [shapeCast_self, addf_apply, colsum_apply]
  rfl

/-- A row copied out to a statistics output, re-laid from 1 x 128 to 1 x 1 x 128. -/
theorem pay3_apply (v48 : Vec Ideal S1x128 .f32) (e : Fin 128) :
    k0_pay3 v48 (ix3 (0 : Fin 1) (0 : Fin 1) e) = v48 (ix2 (0 : Fin 1) e) := by
  unfold k0_pay3
  exact shapeCast_ab_1ab_apply v48 _ (0 : Fin 1) (0 : Fin 1) e
theorem pay4_apply (v51 : Vec Ideal S1x128 .f32) (e : Fin 128) :
    k0_pay4 v51 (ix3 (0 : Fin 1) (0 : Fin 1) e) = v51 (ix2 (0 : Fin 1) e) := by
  unfold k0_pay4
  exact shapeCast_ab_1ab_apply v51 _ (0 : Fin 1) (0 : Fin 1) e

/-- The reset value is zero. -/
theorem pay5_apply (e : Fin 128) : k0_pay5 (F := Ideal) (ix2 (0 : Fin 1) e) = 0 := by
  unfold k0_pay5
  rw [shapeCast_self]
  exact Ideal.ofBits_zero_f32
theorem pay6_apply (e : Fin 128) : k0_pay6 (F := Ideal) (ix2 (0 : Fin 1) e) = 0 := by
  unfold k0_pay6
  rw [shapeCast_self]
  exact Ideal.ofBits_zero_f32

end Cert.KernelIdeal.Hand

end
-- ==== Proof.KI.Region0Value.lean ====
import proofs.«108745_j38998303048417_2_alg».proof.Proof.KI.R0Pieces
import proofs.«108745_j38998303048417_2_alg».proof.Proof.KI.R0Reads
import proofs.«108745_j38998303048417_2_alg».proof.Proof.KI.R0Pay
import proofs.«108745_j38998303048417_2_alg».proof.Proof.KI.HK3
import proofs.«108745_j38998303048417_2_alg».proof.Proof.Spec
import Idealize.ShloMosaic.Lib.Pipeline.Value
import Idealize.ShloMosaic.Lib.ValueIdx
import Idealize.ShloMosaic.PureOps.Ideal.Laws

/-! # The first kernel region on the extended reals: what its three output arrays end holding

Write `H r e` for the linear layer with the graph norm at row `r` and feature `e`: the three 128-term products of the
row of each feature array with the column of its weight slab, added left to right, plus the bias, times the row's factor
— all read off the arrays as the region finds them.

The region walks 2 halves of 25 blocks of 2000 rows. At point `t` the body stores the block of `H` on rows
`2000·t … 2000·t + 1999`, and adds the block's column sums of `H` and of `H·H` into two accumulators that are reset at
the first block of a half and copied out at the last. So, by induction on the point, after point `n` the accumulators
hold the sums over the blocks of `n`'s half up to block `n` (a zero start, then one block added per point; only
`0 + x = x` and the splitting of a sum over `0 … k` at `k` are used — no finiteness). Every row lies in exactly the block
of its block number, and half `h`'s row of a statistics output is written at the half's last point. Hence after the
region the block output is `H`, and the statistics outputs are, per half and feature, the sums of `H` and of `H·H` over
the half's 25 blocks of 2000 rows. -/

set_option maxRecDepth 16384

noncomputable section

namespace Cert.KernelIdeal.Hand

open Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## Partial sums over the blocks of a half -/

/-- The sum of `f · e` over the 2000 rows of block `n` (zero past the last block). -/
def blkS (f : Fin 100000 → Fin 128 → EReal) (n : ℕ) (e : Fin 128) : EReal :=
  if hn : n < 50 then ∑ q : Fin 2000, f ⟨2000 * n + q.val, by have := q.isLt; omega⟩ e else 0

/-- The sum over the blocks of block `n`'s half up to and including block `n`. -/
def accS (f : Fin 100000 → Fin 128 → EReal) (n : ℕ) (e : Fin 128) : EReal :=
  ∑ j ∈ Finset.range (n % 25 + 1), blkS f (25 * (n / 25) + j) e

theorem accS_first (f : Fin 100000 → Fin 128 → EReal) (n : ℕ) (e : Fin 128) (h : n % 25 = 0) :
    accS f n e = blkS f n e := by
  unfold accS
  rw [h, Finset.sum_range_one]
  congr 1
  omega

theorem accS_succ (f : Fin 100000 → Fin 128 → EReal) (n : ℕ) (e : Fin 128) (h : ¬(n + 1) % 25 = 0) :
    accS f (n + 1) e = accS f n e + blkS f (n + 1) e := by
  unfold accS
  have h1 : (n + 1) % 25 = n % 25 + 1 := by omega
  have h2 : (n + 1) / 25 = n / 25 := by omega
  rw [h1, h2, Finset.sum_range_succ]
  congr 2
  omega

theorem accS_last (f : Fin 100000 → Fin 128 → EReal) (h : Fin 2) (e : Fin 128) :
    accS f (25 * h.val + 24) e = ∑ i : Fin 25, ∑ q : Fin 2000, f (Cert.Spec.row h i q) e := by
  unfold accS
  have h1 : (25 * h.val + 24) % 25 + 1 = 25 := by omega
  have h2 : (25 * h.val + 24) / 25 = h.val := by omega
  rw [h1, h2, Finset.sum_range]
  refine Finset.sum_congr rfl fun i _ => ?_
  unfold blkS
  rw [dif_pos (by have := h.isLt; have := i.isLt; omega)]
  rfl

/-! ## The region's values on the extended reals -/

section Value
variable (V : (c : Dev nD) → (b : Ref sig .tc) → Buf (Elt Ideal) ((c : Thread nD τ).loc b))

/-- The layer's output at row `r`, feature `e`, of the arrays as the region finds them on core `c`. -/
abbrev HH (c : Dev nD) : Fin 100000 → Fin 128 → EReal :=
  hK3 (V c main_arg0) (V c main_v26) (V c main_v46) (V c main_v48) (V c main_v50) (V c main_v52) (V c main_v53) (V c main_arg1)

/-- Its square. -/
abbrev HH2 (c : Dev nD) : Fin 100000 → Fin 128 → EReal := fun r e => HH V c r e * HH V c r e

/-- Row `q` of block `t`. -/
abbrev rowAt (t : Fin cfg0.N) (q : Fin 2000) : Fin 100000 :=
  ⟨2000 * t.val + q.val, by have := ptLt t; have := q.isLt; omega⟩

/-- The block the body stores at point `t` is the layer's output on the block's rows. -/
theorem yblk_apply (c : Dev nD) (t : Fin cfg0.N) (q : Fin 2000) (e : Fin 128) :
    k0_pay7 (F := Ideal) (iblk0 V c 0 t) (iblk0 V c 1 t) (iblk0 V c 2 t) (iblk0 V c 3 t) (iblk0 V c 4 t) (iblk0 V c 5 t) (iblk0 V c 6 t) (iblk0 V c 7 t) (ix2 q e) = HH V c (rowAt t q) e := by
  refine (pay7_apply (iblk0 V c 0 t) (iblk0 V c 1 t) (iblk0 V c 2 t) (iblk0 V c 3 t) (iblk0 V c 4 t) (iblk0 V c 5 t) (iblk0 V c 6 t) (iblk0 V c 7 t) q e).trans ?_
  unfold HH hK3
  simp only [iblk0_0_apply, iblk0_1_apply, iblk0_2_apply, iblk0_3_apply, iblk0_4_apply, iblk0_5_apply, iblk0_6_apply,
    iblk0_7_apply]

/-- So the sum over the block's rows of what the body stores is the block's sum. -/
theorem ysum_apply (c : Dev nD) (t : Fin cfg0.N) (e : Fin 128) :
    ∑ q : Fin 2000, k0_pay7 (F := Ideal) (iblk0 V c 0 t) (iblk0 V c 1 t) (iblk0 V c 2 t) (iblk0 V c 3 t) (iblk0 V c 4 t) (iblk0 V c 5 t) (iblk0 V c 6 t) (iblk0 V c 7 t) (ix2 q e) = blkS (HH V c) t.val e := by
  unfold blkS
  rw [dif_pos (ptLt t)]
  exact Finset.sum_congr rfl fun q _ => yblk_apply V c t q e

theorem ysqsum_apply (c : Dev nD) (t : Fin cfg0.N) (e : Fin 128) :
    ∑ q : Fin 2000, k0_pay7 (F := Ideal) (iblk0 V c 0 t) (iblk0 V c 1 t) (iblk0 V c 2 t) (iblk0 V c 3 t) (iblk0 V c 4 t) (iblk0 V c 5 t) (iblk0 V c 6 t) (iblk0 V c 7 t) (ix2 q e) * k0_pay7 (F := Ideal) (iblk0 V c 0 t) (iblk0 V c 1 t) (iblk0 V c 2 t) (iblk0 V c 3 t) (iblk0 V c 4 t) (iblk0 V c 5 t) (iblk0 V c 6 t) (iblk0 V c 7 t) (ix2 q e)
      = blkS (HH2 V c) t.val e := by
  unfold blkS
  rw [dif_pos (ptLt t)]
  exact Finset.sum_congr rfl fun q _ => by rw [yblk_apply V c t q e]

/-! ### What the buffers hold after the body at a point -/

/-- The block output after point `t`: the layer's output on block `t`'s rows. -/
theorem out8_apply (c : Dev nD) (t : Fin cfg0.N) (q : Fin 2000) (e : Fin 128) :
    (outsAt0 V c t.val t.isLt).1 (ix2 q e) = HH V c (rowAt t q) e := by
  by_cases h0 : t.val % 25 = 0
  · have h1 : ¬t.val % 25 = 24 := by omega
    rw [outsAt0_A V c t h0 h1]
    unfold caseA
    dsimp only
    rw [piece_A_8]
    exact yblk_apply V c t q e
  · by_cases h1 : t.val % 25 = 24
    · rw [outsAt0_C V c t h0 h1]
      unfold caseC
      dsimp only
      rw [piece_C_8]
      exact yblk_apply V c t q e
    · rw [outsAt0_B V c t h0 h1]
      unfold caseB
      dsimp only
      rw [piece_B_8]
      exact yblk_apply V c t q e

/-- At the first block of a half the accumulators end with the block's sums. -/
theorem acc_first (c : Dev nD) (t : Fin cfg0.N) (h0 : t.val % 25 = 0) (e : Fin 128) :
    (outsAt0 V c t.val t.isLt).2.2.2.1 (ix2 (0 : Fin 1) e) = blkS (HH V c) t.val e
    ∧ (outsAt0 V c t.val t.isLt).2.2.2.2 (ix2 (0 : Fin 1) e) = blkS (HH2 V c) t.val e := by
  have h1 : ¬t.val % 25 = 24 := by omega
  rw [outsAt0_A V c t h0 h1]
  unfold caseA
  dsimp only
  rw [piece_A_s0, piece_A_s1, pay1_apply, pay2_apply, pay5_apply, pay6_apply, zero_add, zero_add]
  exact ⟨ysum_apply V c t e, ysqsum_apply V c t e⟩

/-- At every other block they end with what the point before left plus the block's sums. -/
theorem acc_next (c : Dev nD) (t : Fin cfg0.N) (h0 : ¬t.val % 25 = 0) (e : Fin 128) :
    (outsAt0 V c t.val t.isLt).2.2.2.1 (ix2 (0 : Fin 1) e)
        = (outsAt0 V c (t.val - 1) (Nat.lt_of_le_of_lt (Nat.sub_le _ _) t.isLt)).2.2.2.1 (ix2 (0 : Fin 1) e) + blkS (HH V c) t.val e
    ∧ (outsAt0 V c t.val t.isLt).2.2.2.2 (ix2 (0 : Fin 1) e)
        = (outsAt0 V c (t.val - 1) (Nat.lt_of_le_of_lt (Nat.sub_le _ _) t.isLt)).2.2.2.2 (ix2 (0 : Fin 1) e) + blkS (HH2 V c) t.val e := by
  by_cases h1 : t.val % 25 = 24
  · rw [outsAt0_C V c t h0 h1]
    unfold caseC
    dsimp only
    rw [piece_C_s0, piece_C_s1, pay1_apply, pay2_apply, ysum_apply V c t e, ysqsum_apply V c t e]
    exact ⟨rfl, rfl⟩
  · rw [outsAt0_B V c t h0 h1]
    unfold caseB
    dsimp only
    rw [piece_B_s0, piece_B_s1, pay1_apply, pay2_apply, ysum_apply V c t e, ysqsum_apply V c t e]
    exact ⟨rfl, rfl⟩

/-- **The accumulators after point `n`** hold the sums, over the blocks of the point's half up to and including the
    point's, of the layer's output and of its square: by induction on the point. -/
theorem acc_inv (c : Dev nD) : ∀ (n : ℕ) (hn : n < cfg0.N) (e : Fin 128),
    (outsAt0 V c n hn).2.2.2.1 (ix2 (0 : Fin 1) e) = accS (HH V c) n e
    ∧ (outsAt0 V c n hn).2.2.2.2 (ix2 (0 : Fin 1) e) = accS (HH2 V c) n e := by
  intro n
  induction n with
  | zero =>
    intro hn e
    have h := acc_first V c ⟨0, hn⟩ (Nat.zero_mod _) e
    rw [accS_first _ 0 e (Nat.zero_mod _), accS_first _ 0 e (Nat.zero_mod _)]
    exact h
  | succ n ih =>
    intro hn e
    by_cases h0 : (n + 1) % 25 = 0
    · have h := acc_first V c ⟨n + 1, hn⟩ h0 e
      rw [accS_first _ (n + 1) e h0, accS_first _ (n + 1) e h0]
      exact h
    · have h := acc_next V c ⟨n + 1, hn⟩ h0 e
      have ih' := ih (Nat.lt_of_succ_lt hn) e
      rw [accS_succ _ n e h0, accS_succ _ n e h0, ← ih'.1, ← ih'.2]
      exact h
end Value

section Final
variable (V : (c : Dev nD) → (b : Ref sig .tc) → Buf (Elt Ideal) ((c : Thread nD τ).loc b))

/-! ### The statistics outputs at the last block of a half -/

/-- At the last block of a half the two statistics outputs end with the accumulators just computed: the half's sums. -/
theorem stat_last (c : Dev nD) (t : Fin cfg0.N) (h1 : t.val % 25 = 24) (e : Fin 128) :
    (outsAt0 V c t.val t.isLt).2.1 (ix3 (0 : Fin 1) (0 : Fin 1) e) = accS (HH V c) t.val e
    ∧ (outsAt0 V c t.val t.isLt).2.2.1 (ix3 (0 : Fin 1) (0 : Fin 1) e) = accS (HH2 V c) t.val e := by
  have h0 : ¬t.val % 25 = 0 := by omega
  have ha := acc_inv V c t.val t.isLt e
  rw [outsAt0_C V c t h0 h1] at ha ⊢
  unfold caseC at ha ⊢
  dsimp only at ha ⊢
  rw [piece_C_s0, piece_C_s1] at ha
  rw [piece_C_9, piece_C_10, pay3_apply, pay4_apply]
  exact ha

/-! ### From blocks to arrays -/

/-- The block output's array: the layer's output, row by row. -/
abbrev G8 (c : Dev nD) : Buf (Elt Ideal) ((c : Thread nD τ).loc main_v54_0) := fun i => HH V c (i 0) (i 1)
/-- The first statistics output's array: per half, the sum of the layer's output over the half's 25 blocks of 2000 rows. -/
abbrev G9 (c : Dev nD) : Buf (Elt Ideal) ((c : Thread nD τ).loc main_v54_1) :=
  fun i => ((∑ i' : Fin 25, ∑ q : Fin 2000, HH V c (Cert.Spec.row (i 0) i' q) (i 2) : EReal))
/-- The second's: the same sums of the squares. -/
abbrev G10 (c : Dev nD) : Buf (Elt Ideal) ((c : Thread nD τ).loc main_v54_2) :=
  fun i => ((∑ i' : Fin 25, ∑ q : Fin 2000, HH2 V c (Cert.Spec.row (i 0) i' q) (i 2) : EReal))

theorem mem_blk8 (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v54_0).slice (win0_8.rect t)).set ↔ _
  rw [View.set_slice_whole, Rect.mem_set_unit]
  exact Iff.rfl
theorem mem_blk9 (t : Fin cfg0.N) (i : S2x1x128.Idx) :
    i ∈ ((cfg0.win 9).blk t).view.set ↔ ∀ a : Fin 3, win0_9.index t a * S1x1x128.size a ≤ (i a).val ∧ (i a).val < win0_9.index t a * S1x1x128.size a + S1x1x128.size a := by
  show i ∈ ((View.whole main_v54_1).slice (win0_9.rect t)).set ↔ _
  rw [View.set_slice_whole, Rect.mem_set_unit]
  exact Iff.rfl
theorem mem_blk10 (t : Fin cfg0.N) (i : S2x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_v54_2).slice (win0_10.rect t)).set ↔ _
  rw [View.set_slice_whole, Rect.mem_set_unit]
  exact Iff.rfl

/-- What point `t` writes back to the block output is block `t` of the layer's output. -/
theorem flushed8_eq (c : Dev nD) (t : Fin cfg0.N) (hf : (cfg0.win 8).flush t = true) :
    (dat0 V c).flushed 8 t = ((cfg0.win 8).blk t).view.read (Elt Ideal) (G8 V c) := by
  show (cfg0.win 8).cut (grid0.coords t) ((dat0 V c).after 8 t) = _
  rw [after0_8]
  funext j
  obtain ⟨q, e, rfl⟩ : ∃ (q : Fin 2000) (e : Fin 128), j = ix2 q e := ⟨j 0, j 1, eq_ix2 (n0 := 2000) (n1 := 128) j⟩
  show (outsAt0 V c t.val t.isLt).1 (ix2 q e) = G8 V c (((cfg0.win 8).blk t).view.emb (ix2 q e))
  rw [out8_apply]
  have ha : (((cfg0.win 8).blk t).view.emb (ix2 q e)) 0 = rowAt t q :=
    Fin.ext (by show win0_8.index t 0 * 2000 + 1 * q.val = 2000 * t.val + q.val; rw [(idx0_8 t).1]; omega)
  have hb : (((cfg0.win 8).blk t).view.emb (ix2 q e)) 1 = e :=
    Fin.ext (by show win0_8.index t 1 * 128 + 1 * e.val = e.val; rw [(idx0_8 t).2]; omega)
  show _ = HH V c ((((cfg0.win 8).blk t).view.emb (ix2 q e)) 0) ((((cfg0.win 8).blk t).view.emb (ix2 q e)) 1)
  rw [ha, hb]

/-- Every row is in the block of the point that is the row's block number. -/
theorem cover8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  refine ⟨t, flush0_8 t, ?_⟩
  rw [mem_blk8]
  intro a
  match a with
  | ⟨0, _⟩ => show win0_8.index t 0 * 2000 ≤ (i 0).val ∧ (i 0).val < win0_8.index t 0 * 2000 + 2000; rw [(idx0_8 t).1]; omega
  | ⟨1, _⟩ => show win0_8.index t 1 * 128 ≤ (i 1).val ∧ (i 1).val < win0_8.index t 1 * 128 + 128; rw [(idx0_8 t).2]; omega

/-- **The block output after the region** is the layer's output. -/
theorem final0_8 (c : Dev nD) (r : Fin 100000) (e : Fin 128) :
    (dat0 V c).arrAt 8 cfg0.N (ix2 r e) = HH V c r e :=
  congrFun ((dat0 V c).arrAt_eq_of_cover 8 (G8 V c) (flushed8_eq V c) cover8) (ix2 r e)

/-- What the last block of a half writes back to statistics output 9 is the half's row of the sums. -/
theorem flushed9_eq (c : Dev nD) (t : Fin cfg0.N) (hf : (cfg0.win 9).flush t = true) :
    (dat0 V c).flushed 9 t = ((cfg0.win 9).blk t).view.read (Elt Ideal) (G9 V c) := by
  have h1 : t.val % 25 = 24 := (flush0_9 t).mp hf
  have hlt := ptLt t
  show (cfg0.win 9).cut (grid0.coords t) ((dat0 V c).after 9 t) = _
  rw [after0_9]
  funext j
  obtain ⟨u, u', e, rfl⟩ : ∃ (u u' : Fin 1) (e : Fin 128), j = ix3 u u' e := ⟨j 0, j 1, j 2, eq_ix3 (n0 := 1) (n1 := 1) (n2 := 128) j⟩
  obtain rfl : u = 0 := Subsingleton.elim _ _
  obtain rfl : u' = 0 := Subsingleton.elim _ _
  show (outsAt0 V c t.val t.isLt).2.1 (ix3 (0 : Fin 1) (0 : Fin 1) e) = G9 V c (((cfg0.win 9).blk t).view.emb (ix3 (0 : Fin 1) (0 : Fin 1) e))
  rw [(stat_last V c t h1 e).1]
  have hl := accS_last (HH V c) (⟨t.val / 25, by omega⟩ : Fin 2) e
  rw [show 25 * (⟨t.val / 25, by omega⟩ : Fin 2).val + 24 = t.val from by show 25 * (t.val / 25) + 24 = t.val; omega] at hl
  rw [hl]
  have ha : (((cfg0.win 9).blk t).view.emb (ix3 (0 : Fin 1) (0 : Fin 1) e)) 0 = (⟨t.val / 25, by omega⟩ : Fin 2) :=
    Fin.ext (by show win0_9.index t 0 * 1 + 1 * 0 = t.val / 25; rw [(idx0_9 t).1]; omega)
  have hb : (((cfg0.win 9).blk t).view.emb (ix3 (0 : Fin 1) (0 : Fin 1) e)) 2 = e :=
    Fin.ext (by show win0_9.index t 2 * 128 + 1 * e.val = e.val; rw [(idx0_9 t).2.2]; omega)
  show _ = ((∑ i' : Fin 25, ∑ q : Fin 2000, HH V c (Cert.Spec.row ((((cfg0.win 9).blk t).view.emb (ix3 (0 : Fin 1) (0 : Fin 1) e)) 0) i' q)
    ((((cfg0.win 9).blk t).view.emb (ix3 (0 : Fin 1) (0 : Fin 1) e)) 2) : EReal))
  rw [ha, hb]

/-- Half `h`'s row is in the block of the half's last point. -/
theorem cover9 (i : S2x1x128.Idx) : ∃ t : Fin cfg0.N, (cfg0.win 9).flush t = true ∧ i ∈ ((cfg0.win 9).blk t).view.set := by
  have hi0 : (i 0).val < 2 := (i 0).isLt
  have hi1 : (i 1).val < 1 := (i 1).isLt
  have hi2 : (i 2).val < 128 := (i 2).isLt
  have hN : cfg0.N = 50 := N_0
  obtain ⟨t, ht⟩ : ∃ t : Fin cfg0.N, t.val = 25 * (i 0).val + 24 := ⟨⟨25 * (i 0).val + 24, by omega⟩, rfl⟩
  refine ⟨t, (flush0_9 t).mpr (by omega), ?_⟩
  rw [mem_blk9]
  intro a
  match a with
  | ⟨0, _⟩ => show win0_9.index t 0 * 1 ≤ (i 0).val ∧ (i 0).val < win0_9.index t 0 * 1 + 1; rw [(idx0_9 t).1]; omega
  | ⟨1, _⟩ => show win0_9.index t 1 * 1 ≤ (i 1).val ∧ (i 1).val < win0_9.index t 1 * 1 + 1; rw [(idx0_9 t).2.1]; omega
  | ⟨2, _⟩ => show win0_9.index t 2 * 128 ≤ (i 2).val ∧ (i 2).val < win0_9.index t 2 * 128 + 128; rw [(idx0_9 t).2.2]; omega

/-- What the last block of a half writes back to statistics output 10 is the half's row of the sums. -/
theorem flushed10_eq (c : Dev nD) (t : Fin cfg0.N) (hf : (cfg0.win 10).flush t = true) :
    (dat0 V c).flushed 10 t = ((cfg0.win 10).blk t).view.read (Elt Ideal) (G10 V c) := by
  have h1 : t.val % 25 = 24 := (flush0_10 t).mp hf
  have hlt := ptLt t
  show (cfg0.win 10).cut (grid0.coords t) ((dat0 V c).after 10 t) = _
  rw [after0_10]
  funext j
  obtain ⟨u, u', e, rfl⟩ : ∃ (u u' : Fin 1) (e : Fin 128), j = ix3 u u' e := ⟨j 0, j 1, j 2, eq_ix3 (n0 := 1) (n1 := 1) (n2 := 128) j⟩
  obtain rfl : u = 0 := Subsingleton.elim _ _
  obtain rfl : u' = 0 := Subsingleton.elim _ _
  show (outsAt0 V c t.val t.isLt).2.2.1 (ix3 (0 : Fin 1) (0 : Fin 1) e) = G10 V c (((cfg0.win 10).blk t).view.emb (ix3 (0 : Fin 1) (0 : Fin 1) e))
  rw [(stat_last V c t h1 e).2]
  have hl := accS_last (HH2 V c) (⟨t.val / 25, by omega⟩ : Fin 2) e
  rw [show 25 * (⟨t.val / 25, by omega⟩ : Fin 2).val + 24 = t.val from by show 25 * (t.val / 25) + 24 = t.val; omega] at hl
  rw [hl]
  have ha : (((cfg0.win 10).blk t).view.emb (ix3 (0 : Fin 1) (0 : Fin 1) e)) 0 = (⟨t.val / 25, by omega⟩ : Fin 2) :=
    Fin.ext (by show win0_10.index t 0 * 1 + 1 * 0 = t.val / 25; rw [(idx0_10 t).1]; omega)
  have hb : (((cfg0.win 10).blk t).view.emb (ix3 (0 : Fin 1) (0 : Fin 1) e)) 2 = e :=
    Fin.ext (by show win0_10.index t 2 * 128 + 1 * e.val = e.val; rw [(idx0_10 t).2.2]; omega)
  show _ = ((∑ i' : Fin 25, ∑ q : Fin 2000, HH2 V c (Cert.Spec.row ((((cfg0.win 10).blk t).view.emb (ix3 (0 : Fin 1) (0 : Fin 1) e)) 0) i' q)
    ((((cfg0.win 10).blk t).view.emb (ix3 (0 : Fin 1) (0 : Fin 1) e)) 2) : EReal))
  rw [ha, hb]

/-- Half `h`'s row is in the block of the half's last point. -/
theorem cover10 (i : S2x1x128.Idx) : ∃ t : Fin cfg0.N, (cfg0.win 10).flush t = true ∧ i ∈ ((cfg0.win 10).blk t).view.set := by
  have hi0 : (i 0).val < 2 := (i 0).isLt
  have hi1 : (i 1).val < 1 := (i 1).isLt
  have hi2 : (i 2).val < 128 := (i 2).isLt
  have hN : cfg0.N = 50 := N_0
  obtain ⟨t, ht⟩ : ∃ t : Fin cfg0.N, t.val = 25 * (i 0).val + 24 := ⟨⟨25 * (i 0).val + 24, by omega⟩, rfl⟩
  refine ⟨t, (flush0_10 t).mpr (by omega), ?_⟩
  rw [mem_blk10]
  intro a
  match a with
  | ⟨0, _⟩ => show win0_10.index t 0 * 1 ≤ (i 0).val ∧ (i 0).val < win0_10.index t 0 * 1 + 1; rw [(idx0_10 t).1]; omega
  | ⟨1, _⟩ => show win0_10.index t 1 * 1 ≤ (i 1).val ∧ (i 1).val < win0_10.index t 1 * 1 + 1; rw [(idx0_10 t).2.1]; omega
  | ⟨2, _⟩ => show win0_10.index t 2 * 128 ≤ (i 2).val ∧ (i 2).val < win0_10.index t 2 * 128 + 128; rw [(idx0_10 t).2.2]; omega

/-- **The first statistics output after the region**: per half, the sum of the layer's output over the half's 25 blocks
    of 2000 rows. -/
theorem final0_9 (c : Dev nD) (h : Fin 2) (e : Fin 128) :
    (dat0 V c).arrAt 9 cfg0.N (ix3 h (0 : Fin 1) e) = ∑ i : Fin 25, ∑ q : Fin 2000, HH V c (Cert.Spec.row h i q) e :=
  congrFun ((dat0 V c).arrAt_eq_of_cover 9 (G9 V c) (flushed9_eq V c) cover9) (ix3 h (0 : Fin 1) e)

/-- **The second statistics output after the region**: the same sums of the squares. -/
theorem final0_10 (c : Dev nD) (h : Fin 2) (e : Fin 128) :
    (dat0 V c).arrAt 10 cfg0.N (ix3 h (0 : Fin 1) e)
      = ∑ i : Fin 25, ∑ q : Fin 2000, HH V c (Cert.Spec.row h i q) e * HH V c (Cert.Spec.row h i q) e :=
  congrFun ((dat0 V c).arrAt_eq_of_cover 10 (G10 V c) (flushed10_eq V c) cover10) (ix3 h (0 : Fin 1) e)
end Final

end Cert.KernelIdeal.Hand

end
-- ==== Proof.KI.KernelValue.lean ====
/-
  The kernel program's result is the specification's.

  The program's result array is what the second region's write-backs leave: the maximum with zero of the first
  region's main result times a factor plus an offset, feature by feature. The factor and the offset are what the
  host operations between the regions make of the first region's two other results, the halves' column sums and
  column sums of squares: mean, mean square, variance clamped at zero, factor, offset. The first region's three
  results are the linear layer over the arrays it reads, its column sums and its column sums of squares. And the
  arrays it reads are, through the three leading stretches of host operations, the launch contents of the
  arguments: the features and the row factors themselves, the two aggregated arrays as the chain of host
  operations computes them, the three slabs of the weight, and the bias laid out as a row.

  Walking back along that chain, every piece of the specification's kernel spelling appears in turn, and the
  result array at row r, feature e is that spelling over the launch contents. For real inputs the kernel
  spelling and the reference spelling agree, which names the program's result the way the reference's run names
  its own.

  What the first region leaves enters as three facts, stated first and supplied at the end from the region's value.
-/
import proofs.«108745_j38998303048417_2_alg».proof.Defs
import proofs.«108745_j38998303048417_2_alg».proof.Proof.KI.Main
import proofs.«108745_j38998303048417_2_alg».proof.Proof.KI.MainValue
import proofs.«108745_j38998303048417_2_alg».proof.Proof.KI.HostValues
import proofs.«108745_j38998303048417_2_alg».proof.Proof.KI.Region1Value
import proofs.«108745_j38998303048417_2_alg».proof.Proof.KI.HK3
import proofs.«108745_j38998303048417_2_alg».proof.Proof.Spec
import proofs.«108745_j38998303048417_2_alg».proof.Proof.FiniteChain
import proofs.«108745_j38998303048417_2_alg».proof.Proof.Algebra
import proofs.«108745_j38998303048417_2_alg».proof.Proof.KI.Region0Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx

/-! ## What the first region is to leave -/

section Leaves

variable (V : (c : Dev nD) → (b : Ref sig .tc) → Buf (Elt Ideal) ((c : Thread nD τ).loc b)) (c : Dev nD)

/-- The linear layer over the arrays the first region finds. -/
abbrev layerOf : Fin 100000 → Fin 128 → EReal :=
  hK3 (V c main_arg0) (V c main_v26) (V c main_v46) (V c main_v48) (V c main_v50) (V c main_v52) (V c main_v53)
    (V c main_arg1)

/-- The first region's main result is the layer, -/
def LeavesLayer : Prop :=
  ∀ (r : Fin 100000) (e : Fin 128), (dat0 V c).arrAt 8 cfg0.N (ix2 r e) = layerOf V c r e
/-- its second result each half's column sums of the layer, block by block, -/
def LeavesSums : Prop :=
  ∀ (h : Fin 2) (e : Fin 128), (dat0 V c).arrAt 9 cfg0.N (ix3 h (0 : Fin 1) e)
    = ∑ i : Fin 25, ∑ q : Fin 2000, layerOf V c (Cert.Spec.row h i q) e
/-- and its third each half's column sums of the layer's squares. -/
def LeavesSqs : Prop :=
  ∀ (h : Fin 2) (e : Fin 128), (dat0 V c).arrAt 10 cfg0.N (ix3 h (0 : Fin 1) e)
    = ∑ i : Fin 25, ∑ q : Fin 2000, layerOf V c (Cert.Spec.row h i q) e * layerOf V c (Cert.Spec.row h i q) e

end Leaves

/-! ## What the first region reads: the arguments, the two aggregated arrays, the weight's slabs, the bias row -/

section Entry

variable (m : (ℓ : Loc nD τ sig) → Buf (Elt Ideal) ℓ) (ρ : Dev nD → PrngReg) (c : Dev nD)

/-- A reference that none of the three leading host stretches writes holds its launch contents at the first region's
    entry. -/
theorem W3_of_untouched (r : Ref sig .tc) (h3 : r ∉ hostOps0_2_W) (h2 : r ∉ hostOps0_1_W) (h1 : r ∉ hostOps0_W) :
    W3 m ρ c (Proc.devRef .tc r) = m ((c.tc : Thread nD τ).loc r) :=
  calc W3 m ρ c (Proc.devRef .tc r)
    _ = W2 m ρ c (Proc.devRef .tc r) := StableHlo.after_of_writes_sub hostOps0_2 _ hostOps0_2_writes h3
    _ = W1 m ρ c (Proc.devRef .tc r) := StableHlo.after_of_writes_sub hostOps0_1 _ hostOps0_1_writes h2
    _ = W0 m ρ c (Proc.devRef .tc r) := StableHlo.after_of_writes_sub hostOps0 _ hostOps0_writes h1
    _ = m ((c.tc : Thread nD τ).loc r) := rfl

theorem V3_arg0 : V3 m ρ c main_arg0 = m ((c.tc : Thread nD τ).loc main_arg0) :=
  W3_of_untouched m ρ c main_arg0 (by decide) (by decide) (by decide)
theorem V3_arg1 : V3 m ρ c main_arg1 = m ((c.tc : Thread nD τ).loc main_arg1) :=
  W3_of_untouched m ρ c main_arg1 (by decide) (by decide) (by decide)
theorem V3_arg6 : W3 m ρ c (Proc.devRef .tc main_arg6) = m ((c.tc : Thread nD τ).loc main_arg6) :=
  W3_of_untouched m ρ c main_arg6 (by decide) (by decide) (by decide)
theorem V3_arg7 : W3 m ρ c (Proc.devRef .tc main_arg7) = m ((c.tc : Thread nD τ).loc main_arg7) :=
  W3_of_untouched m ρ c main_arg7 (by decide) (by decide) (by decide)

/-- The first aggregated array at the region's entry is the chain of host operations applied to the launch
    contents of the features and the two index arrays. -/
theorem V3_X1 : V3 m ρ c main_v26
    = Cert.ReferenceIdeal.Read.val_main_v26 (F := Ideal) (m ((c.tc : Thread nD τ).loc main_arg0))
        (m ((c.tc : Thread nD τ).loc main_arg2)) (m ((c.tc : Thread nD τ).loc main_arg3)) :=
  pre_X1 (W0 m ρ c)
theorem V3_X2 : V3 m ρ c main_v46
    = Cert.ReferenceIdeal.Read.val_main_v46 (F := Ideal) (m ((c.tc : Thread nD τ).loc main_arg0))
        (m ((c.tc : Thread nD τ).loc main_arg2)) (m ((c.tc : Thread nD τ).loc main_arg3)) :=
  pre_X2 (W0 m ρ c)
theorem V3_w0 (k e : Fin 128) : V3 m ρ c main_v48 (ix2 k e)
    = m ((c.tc : Thread nD τ).loc main_arg4) (ix2 (⟨k.val, by have := k.isLt; omega⟩ : Fin 384) e) :=
  pre_W0 (W0 m ρ c) k e
theorem V3_w1 (k e : Fin 128) : V3 m ρ c main_v50 (ix2 k e)
    = m ((c.tc : Thread nD τ).loc main_arg4) (ix2 (⟨128 + k.val, by have := k.isLt; omega⟩ : Fin 384) e) :=
  pre_W1 (W0 m ρ c) k e
theorem V3_w2 (k e : Fin 128) : V3 m ρ c main_v52 (ix2 k e)
    = m ((c.tc : Thread nD τ).loc main_arg4) (ix2 (⟨256 + k.val, by have := k.isLt; omega⟩ : Fin 384) e) :=
  pre_W2 (W0 m ρ c) k e
theorem V3_b (e : Fin 128) : V3 m ρ c main_v53 (ix2 (0 : Fin 1) e) = m ((c.tc : Thread nD τ).loc main_arg5) (ix1 e) :=
  pre_b (W0 m ρ c) e

/-- The arrays of the specification, read off the launch memory: the features, the two aggregated arrays as the
    chain of host operations computes them, the weight, the bias, the two batch-norm rows and the row factors. -/
abbrev sX0 : Cert.Spec.SN.Idx → EReal := m ((c.tc : Thread nD τ).loc main_arg0)
abbrev sX1 : Cert.Spec.SN.Idx → EReal :=
  Cert.ReferenceIdeal.Read.val_main_v26 (F := Ideal) (m ((c.tc : Thread nD τ).loc main_arg0))
    (m ((c.tc : Thread nD τ).loc main_arg2)) (m ((c.tc : Thread nD τ).loc main_arg3))
abbrev sX2 : Cert.Spec.SN.Idx → EReal :=
  Cert.ReferenceIdeal.Read.val_main_v46 (F := Ideal) (m ((c.tc : Thread nD τ).loc main_arg0))
    (m ((c.tc : Thread nD τ).loc main_arg2)) (m ((c.tc : Thread nD τ).loc main_arg3))
abbrev sW : Cert.Spec.SW.Idx → EReal := m ((c.tc : Thread nD τ).loc main_arg4)
abbrev sB : Cert.Spec.SD.Idx → EReal := m ((c.tc : Thread nD τ).loc main_arg5)
abbrev sG : Cert.Spec.SD.Idx → EReal := m ((c.tc : Thread nD τ).loc main_arg6)
abbrev sBe : Cert.Spec.SD.Idx → EReal := m ((c.tc : Thread nD τ).loc main_arg7)
abbrev sSn : Cert.Spec.SN1.Idx → EReal := m ((c.tc : Thread nD τ).loc main_arg1)

/-- The linear layer over what the first region reads is the specification's, over the launch memory. -/
theorem H_eq_hK (r : Fin 100000) (e : Fin 128) :
    layerOf (V3 m ρ) c r e
      = Cert.Spec.hK (sX0 m c) (sX1 m c) (sX2 m c) (sW m c) (sB m c) (sSn m c) r e := by
  unfold layerOf hK3 Cert.Spec.hK
  rw [V3_arg0, V3_arg1, V3_X1, V3_X2, V3_b]
  refine congrArg₂ (· * ·) (congrArg₂ (· + ·) (congrArg₂ (· + ·) (congrArg₂ (· + ·) ?_ ?_) ?_) rfl) rfl
  · exact Finset.sum_congr rfl fun k _ => by rw [V3_w0]
  · exact Finset.sum_congr rfl fun k _ => by rw [V3_w1]
  · exact Finset.sum_congr rfl fun k _ => by rw [V3_w2]

end Entry

/-! ## What the first region leaves, and what the host operations make of it -/

section Exit

variable (m : (ℓ : Loc nD τ sig) → Buf (Elt Ideal) ℓ) (ρ : Dev nD → PrngReg) (c : Dev nD)

/-- The first region's three results, as it leaves them: the layer, the halves' column sums, and the halves' column
    sums of squares. -/
abbrev layerAt : S100000x128.Idx → EReal := (dat0 (V3 m ρ) c).arrAt 8 cfg0.N
abbrev sumsAt : S2x1x128.Idx → EReal := W4 m ρ c (Proc.devRef .tc main_v54_1)
abbrev sqsAt : S2x1x128.Idx → EReal := W4 m ρ c (Proc.devRef .tc main_v54_2)

/-- The first region's main result is the linear layer. -/
theorem W4_h (h8 : LeavesLayer (V3 m ρ) c) (r : Fin 100000) (e : Fin 128) :
    layerAt m ρ c (ix2 r e) = Cert.Spec.hK (sX0 m c) (sX1 m c) (sX2 m c) (sW m c) (sB m c) (sSn m c) r e := by
  show (dat0 (V3 m ρ) c).arrAt 8 cfg0.N (ix2 r e) = _
  rw [h8 r e, H_eq_hK]

/-- Its second result holds each half's column sums, -/
theorem W4_s (h9 : LeavesSums (V3 m ρ) c) (h : Fin 2) (e : Fin 128) :
    sumsAt m ρ c (ix3 h (0 : Fin 1) e)
      = Cert.Spec.sK (sX0 m c) (sX1 m c) (sX2 m c) (sW m c) (sB m c) (sSn m c) h e := by
  rw [show sumsAt m ρ c = (dat0 (V3 m ρ) c).arrAt 9 cfg0.N from W4_arr m ρ c 9, h9 h e]
  unfold Cert.Spec.sK
  exact Finset.sum_congr rfl fun i _ => Finset.sum_congr rfl fun q _ => H_eq_hK m ρ c _ e

/-- and its third each half's column sums of squares. -/
theorem W4_q (h10 : LeavesSqs (V3 m ρ) c) (h : Fin 2) (e : Fin 128) :
    sqsAt m ρ c (ix3 h (0 : Fin 1) e)
      = Cert.Spec.qK (sX0 m c) (sX1 m c) (sX2 m c) (sW m c) (sB m c) (sSn m c) h e := by
  rw [show sqsAt m ρ c = (dat0 (V3 m ρ) c).arrAt 10 cfg0.N from W4_arr m ρ c 10, h10 h e]
  unfold Cert.Spec.qK
  exact Finset.sum_congr rfl fun i _ => Finset.sum_congr rfl fun q _ => by rw [H_eq_hK]

/-- The two batch-norm rows are no array of the first region and no host stretch before it writes them. -/
theorem W4_arg6 : W4 m ρ c (Proc.devRef .tc main_arg6) = m ((c.tc : Thread nD τ).loc main_arg6) :=
  (W4_of_ne m ρ c main_arg6 (by decide)).trans (V3_arg6 m ρ c)
theorem W4_arg7 : W4 m ρ c (Proc.devRef .tc main_arg7) = m ((c.tc : Thread nD τ).loc main_arg7) :=
  (W4_of_ne m ρ c main_arg7 (by decide)).trans (V3_arg7 m ρ c)

/-- The host's mean, variance, factor and offset of the first region's sums are the specification's. -/
theorem mean_eq (h9 : LeavesSums (V3 m ρ) c) (e : Fin 128) :
    hostMean (sumsAt m ρ c) e = Cert.Spec.meanK (sX0 m c) (sX1 m c) (sX2 m c) (sW m c) (sB m c) (sSn m c) e := by
  unfold hostMean Cert.Spec.meanK
  rw [W4_s m ρ c h9, W4_s m ρ c h9]
theorem msq_eq (h10 : LeavesSqs (V3 m ρ) c) (e : Fin 128) :
    hostMean (sqsAt m ρ c) e = Cert.Spec.msqK (sX0 m c) (sX1 m c) (sX2 m c) (sW m c) (sB m c) (sSn m c) e := by
  unfold hostMean Cert.Spec.msqK
  rw [W4_q m ρ c h10, W4_q m ρ c h10]
theorem var_eq (h9 : LeavesSums (V3 m ρ) c) (h10 : LeavesSqs (V3 m ρ) c) (e : Fin 128) :
    hostVar (sumsAt m ρ c) (sqsAt m ρ c) e
      = Cert.Spec.varK (sX0 m c) (sX1 m c) (sX2 m c) (sW m c) (sB m c) (sSn m c) e := by
  unfold hostVar Cert.Spec.varK
  rw [mean_eq m ρ c h9, msq_eq m ρ c h10]
theorem scale_eq (h9 : LeavesSums (V3 m ρ) c) (h10 : LeavesSqs (V3 m ρ) c) (e : Fin 128) :
    hostScale (sumsAt m ρ c) (sqsAt m ρ c) (W4 m ρ c (Proc.devRef .tc main_arg6)) e
      = Cert.Spec.scaleK (sX0 m c) (sX1 m c) (sX2 m c) (sW m c) (sB m c) (sG m c) (sSn m c) e := by
  unfold hostScale Cert.Spec.scaleK
  rw [var_eq m ρ c h9 h10, W4_arg6]
theorem shift_eq (h9 : LeavesSums (V3 m ρ) c) (h10 : LeavesSqs (V3 m ρ) c) (e : Fin 128) :
    hostShift (sumsAt m ρ c) (sqsAt m ρ c) (W4 m ρ c (Proc.devRef .tc main_arg6))
        (W4 m ρ c (Proc.devRef .tc main_arg7)) e
      = Cert.Spec.shiftK (sX0 m c) (sX1 m c) (sX2 m c) (sW m c) (sB m c) (sG m c) (sBe m c) (sSn m c) e := by
  unfold hostShift Cert.Spec.shiftK
  rw [mean_eq m ρ c h9, scale_eq m ρ c h9 h10, W4_arg7]

/-- THE KERNEL PROGRAM'S RESULT: at row r and feature e the result array holds the specification's kernel
    spelling of the layer, over the launch contents of the arguments. -/
theorem kernel_is_Kout_of (h8 : LeavesLayer (V3 m ρ) c) (h9 : LeavesSums (V3 m ρ) c) (h10 : LeavesSqs (V3 m ρ) c)
    (r : Fin 100000) (e : Fin 128) :
    W6 m ρ c (Proc.devRef .tc main_v81) (ix2 r e)
      = Cert.Spec.Kout (m ((c.tc : Thread nD τ).loc main_arg0))
          (Cert.ReferenceIdeal.Read.val_main_v26 (F := Ideal) (m ((c.tc : Thread nD τ).loc main_arg0))
            (m ((c.tc : Thread nD τ).loc main_arg2)) (m ((c.tc : Thread nD τ).loc main_arg3)))
          (Cert.ReferenceIdeal.Read.val_main_v46 (F := Ideal) (m ((c.tc : Thread nD τ).loc main_arg0))
            (m ((c.tc : Thread nD τ).loc main_arg2)) (m ((c.tc : Thread nD τ).loc main_arg3)))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg1)) r e := by
  rw [W6_main_v81]
  show max (arrH (V5 m ρ) c (ix2 r e) * arrScale (V5 m ρ) c (ix2 (0 : Fin 1) e)
        + arrShift (V5 m ρ) c (ix2 (0 : Fin 1) e)) 0 = _
  rw [arrH_V5, arrScale_V5, arrShift_V5, post_scale, post_shift]
  rw [show (dat0 (V3 m ρ) c).arrAt 8 cfg0.N (ix2 r e) = _ from W4_h m ρ c h8 r e, scale_eq m ρ c h9 h10, shift_eq m ρ c h9 h10]
  unfold Cert.Spec.Kout Cert.Spec.c0
  rw [Ideal.ofBits_zero_f32]

end Exit

/-! ## The run of the kernel program, with its result named -/

section Run

variable (m : (ℓ : Loc nD τ sig) → Buf (Elt Ideal) ℓ) (ρ : Dev nD → PrngReg)

/-- THE KERNEL PROGRAM'S RUN, for real inputs: every weakly fair execution terminates, nothing faulting; the
    result array ends holding the specification's reference spelling of the layer over the launch contents of
    the arguments, and the arguments end as launched. The precondition makes every float argument an array of
    reals, the chain of host operations keeps the two aggregated arrays real, and over reals the kernel's
    spelling and the reference's agree. -/
theorem kernel_run_of [hPre_finite_inputs : Cert.Pre_finite_inputs.Facts] (hpre : Cert.Pre_KernelIdeal m)
    (h8 : ∀ c, LeavesLayer (V3 m ρ) c) (h9 : ∀ c, LeavesSums (V3 m ρ) c) (h10 : ∀ c, LeavesSqs (V3 m ρ) c) :
    θ_run (defs (F := Ideal)) (onTc (τ := τ) (main (F := Ideal))) ⟨m, fun _ => 0, ρ⟩ (fun r => ∀ c : Dev nD,
      r.2.mem ((c.tc : Thread nD τ).loc main_v81)
        = (fun j => Cert.Spec.Rout (m ((c.tc : Thread nD τ).loc main_arg0))
            (Cert.ReferenceIdeal.Read.val_main_v26 (F := Ideal) (m ((c.tc : Thread nD τ).loc main_arg0))
              (m ((c.tc : Thread nD τ).loc main_arg2)) (m ((c.tc : Thread nD τ).loc main_arg3)))
            (Cert.ReferenceIdeal.Read.val_main_v46 (F := Ideal) (m ((c.tc : Thread nD τ).loc main_arg0))
              (m ((c.tc : Thread nD τ).loc main_arg2)) (m ((c.tc : Thread nD τ).loc main_arg3)))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun _ h c =>
    ⟨(h c _ (mem_uc main_v81 (by decide))).trans ?_,
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)
  funext j
  obtain ⟨p, q, rfl⟩ : ∃ (p : Fin 100000) (q : Fin 128), j = ix2 p q := ⟨j 0, j 1, eq_ix2 j⟩
  obtain ⟨f0, f1, f4, f5, f6, f7⟩ := Cert.FiniteChain.pre_finite _ _ _ _ _ _ _ _ (hpre c)
  exact (kernel_is_Kout_of m ρ c (h8 c) (h9 c) (h10 c) p q).trans
    (Cert.Algebra.Kout_eq_Rout _ _ _ _ _ _ _ _ f0 (Cert.FiniteChain.X1_finite _ _ _ f0)
      (Cert.FiniteChain.X2_finite _ _ _ f0) f4 f5 f6 f7 f1 p q)

end Run

/-! ## With what the first region leaves supplied -/

section Final

variable (m : (ℓ : Loc nD τ sig) → Buf (Elt Ideal) ℓ) (ρ : Dev nD → PrngReg)

/-- THE KERNEL PROGRAM'S RESULT: at row r and feature e the result array holds the specification's kernel
    spelling of the layer, over the launch contents of the arguments. -/
theorem kernel_is_Kout (c : Dev nD) (r : Fin 100000) (e : Fin 128) :
    W6 m ρ c (Proc.devRef .tc main_v81) (ix2 r e)
      = Cert.Spec.Kout (m ((c.tc : Thread nD τ).loc main_arg0))
          (Cert.ReferenceIdeal.Read.val_main_v26 (F := Ideal) (m ((c.tc : Thread nD τ).loc main_arg0))
            (m ((c.tc : Thread nD τ).loc main_arg2)) (m ((c.tc : Thread nD τ).loc main_arg3)))
          (Cert.ReferenceIdeal.Read.val_main_v46 (F := Ideal) (m ((c.tc : Thread nD τ).loc main_arg0))
            (m ((c.tc : Thread nD τ).loc main_arg2)) (m ((c.tc : Thread nD τ).loc main_arg3)))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg1)) r e :=
  kernel_is_Kout_of m ρ c (fun r e => final0_8 (V3 m ρ) c r e) (fun h e => final0_9 (V3 m ρ) c h e)
    (fun h e => final0_10 (V3 m ρ) c h e) r e

/-- THE KERNEL PROGRAM'S RUN, for real inputs: every weakly fair execution terminates, nothing faulting; the
    result array ends holding the specification's reference spelling of the layer over the launch contents of
    the arguments, and the arguments end as launched. -/
theorem kernel_run [hPre_finite_inputs : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v81)
        = (fun j => Cert.Spec.Rout (m ((c.tc : Thread nD τ).loc main_arg0))
            (Cert.ReferenceIdeal.Read.val_main_v26 (F := Ideal) (m ((c.tc : Thread nD τ).loc main_arg0))
              (m ((c.tc : Thread nD τ).loc main_arg2)) (m ((c.tc : Thread nD τ).loc main_arg3)))
            (Cert.ReferenceIdeal.Read.val_main_v46 (F := Ideal) (m ((c.tc : Thread nD τ).loc main_arg0))
              (m ((c.tc : Thread nD τ).loc main_arg2)) (m ((c.tc : Thread nD τ).loc main_arg3)))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  kernel_run_of m ρ hpre (fun c r e => final0_8 (V3 m ρ) c r e) (fun c h e => final0_9 (V3 m ρ) c h e)
    (fun c h e => final0_10 (V3 m ρ) c h e)

end Final

end Cert.KernelIdeal.Hand

end
-- ==== Proof.RefValue.lean ====
/-
  The reference side of the layer.

  The reference computes, from the features X0, the two Chebyshev terms X1 and X2, the weight W, the bias b, the
  row factors sn and the batch norm's scale g and offset be:  the three feature arrays joined along the columns; one
  384-term product of each joined row with each column of W, plus the bias, times the row's factor (h); per feature the
  mean of h over the 100000 rows and the mean of the squared deviations from it; ((h − mean) · rsqrt(var + ε)) · g + be;
  and the maximum with zero.  Read index by index at the extended reals this is, step for step, the specification's
  `Rout`: nothing is rearranged, so no algebraic law and no finiteness of the inputs is used here.  The only step that
  is not a pointwise reading is the joined array, whose column `k` belongs to the piece whose span of columns holds `k`.

  X1 and X2 are the values of the graph-aggregation stages of the program (scatter-adds and gathers along the edge
  lists); they enter only as arrays and are never opened.

  Stated here: the reference's result at an index is `Rout` there (`ref_is_Rout`); the reference terminates and leaves
  its arguments unchanged (`frame_ri`); and its run ends with the result array equal to `Rout` of the arguments, the
  arguments unchanged (`ref_run`).
-/
import proofs.«108745_j38998303048417_2_alg».proof.Defs
import proofs.«108745_j38998303048417_2_alg».proof.Proof.Gen.ReferenceIdeal.Run
import proofs.«108745_j38998303048417_2_alg».proof.Proof.Gen.ReferenceIdeal.Read
import proofs.«108745_j38998303048417_2_alg».proof.Proof.Gen.Pre_finite_inputs
import proofs.«108745_j38998303048417_2_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-! ## Indices

The stage lemmas read an operand at an index computed from the result's index; at a result index given by its two
coordinates each of those is again an index given by coordinates. -/

theorem lidx48 (r : Fin 100000) (e : Fin 128) (k : Fin 384) : lidx_main_v48 (ix2 r e) k = ix2 r k :=
  funext fun a => by match a with | ⟨0, _⟩ => rfl | ⟨1, _⟩ => rfl
theorem ridx48 (r : Fin 100000) (e : Fin 128) (k : Fin 384) : ridx_main_v48 (ix2 r e) k = ix2 k e :=
  funext fun a => by match a with | ⟨0, _⟩ => rfl | ⟨1, _⟩ => rfl
theorem idx49 (r : Fin 100000) (e : Fin 128) : idx_main_v49 (idx_main_v50 (ix2 r e)) = ix1 e :=
  funext fun a => by match a with | ⟨0, _⟩ => rfl
theorem idx52 (r : Fin 100000) (e : Fin 128) : idx_main_v52 (ix2 r e) = ix2 r (0 : Fin 1) :=
  funext fun a => by match a with | ⟨0, _⟩ => rfl | ⟨1, _⟩ => rfl
theorem idx54 (e : Fin 128) (k : Fin 100000) : idx_main_v54 (ix1 e) k = ix2 k e :=
  funext fun a => by match a with | ⟨0, _⟩ => rfl | ⟨1, _⟩ => rfl
theorem idx61 (e : Fin 128) (k : Fin 100000) : idx_main_v61 (ix1 e) k = ix2 k e :=
  funext fun a => by match a with | ⟨0, _⟩ => rfl | ⟨1, _⟩ => rfl
theorem idx57 (r : Fin 100000) (e : Fin 128) : idx_main_v57 (idx_main_v58 (ix2 r e)) = ix1 e :=
  funext fun a => by match a with | ⟨0, _⟩ => rfl
theorem idx64 (r : Fin 100000) (e : Fin 128) : idx_main_v64 (idx_main_v65 (ix2 r e)) = ix1 e :=
  funext fun a => by match a with | ⟨0, _⟩ => rfl
theorem idx70 (r : Fin 100000) (e : Fin 128) : idx_main_v70 (idx_main_v71 (ix2 r e)) = ix1 e :=
  funext fun a => by match a with | ⟨0, _⟩ => rfl
theorem idx73 (r : Fin 100000) (e : Fin 128) : idx_main_v73 (idx_main_v74 (ix2 r e)) = ix1 e :=
  funext fun a => by match a with | ⟨0, _⟩ => rfl
theorem idx76 (r : Fin 100000) (e : Fin 128) : idx_main_v76 (idx_main_v77 (ix2 r e)) = ix1 e :=
  funext fun a => by match a with | ⟨0, _⟩ => rfl

/-! ## The three arrays joined along the columns

Column `k` of the joined array is column `k` of the first array when `k < 128`, column `k - 128` of the second when
`128 ≤ k < 256`, and column `k - 256` of the third otherwise: the piece whose span of columns holds `k`. -/

theorem joined_apply (X0 X1 X2 : (⟨S100000x128, .f32⟩ : BufTy).Contents (Elt Ideal))
    (h : Shape.Concatenates [S100000x128, S100000x128, S100000x128] S100000x384 1) (r : Fin 100000) (k : Fin 384) :
    concatenate S100000x384 1 [⟨S100000x128, X0⟩, ⟨S100000x128, X1⟩, ⟨S100000x128, X2⟩] h (ix2 r k)
      = Cert.Spec.Xt X0 X1 X2 r k := by
  unfold Cert.Spec.Xt
  by_cases h1 : k.val < 128
  · rw [dif_pos h1]
    refine concatenate_apply_piece (t := S100000x384) 1 [⟨S100000x128, X0⟩, ⟨S100000x128, X1⟩, ⟨S100000x128, X2⟩] h (ix2 r k) 0 (Nat.lt_of_sub_eq_succ rfl) S100000x128 X0 rfl rfl 0 rfl
      (ix2 r (⟨k.val, h1⟩ : Fin 128)) (fun b hb => ?_) ?_
    · match b with
      | ⟨0, _⟩ => rfl
      | ⟨1, _⟩ => exact absurd rfl hb
    · show 0 + k.val = k.val
      omega
  · rw [dif_neg h1]
    by_cases h2 : k.val < 256
    · rw [dif_pos h2]
      refine concatenate_apply_piece (t := S100000x384) 1 [⟨S100000x128, X0⟩, ⟨S100000x128, X1⟩, ⟨S100000x128, X2⟩] h (ix2 r k) 1 (Nat.lt_of_sub_eq_succ rfl) S100000x128 X1 rfl rfl 128 rfl
        (ix2 r (⟨k.val - 128, by omega⟩ : Fin 128)) (fun b hb => ?_) ?_
      · match b with
        | ⟨0, _⟩ => rfl
        | ⟨1, _⟩ => exact absurd rfl hb
      · show 128 + (k.val - 128) = k.val
        omega
    · rw [dif_neg h2]
      refine concatenate_apply_piece (t := S100000x384) 1 [⟨S100000x128, X0⟩, ⟨S100000x128, X1⟩, ⟨S100000x128, X2⟩] h (ix2 r k) 2 (Nat.lt_of_sub_eq_succ rfl) S100000x128 X2 rfl rfl 256 rfl
        (ix2 r (⟨k.val - 256, by have := k.isLt; omega⟩ : Fin 128)) (fun b hb => ?_) ?_
      · match b with
        | ⟨0, _⟩ => rfl
        | ⟨1, _⟩ => exact absurd rfl hb
      · show 256 + (k.val - 256) = k.val
        omega

/-! ## The reference's stages are the specification's

`X1` and `X2` stand for the two Chebyshev terms; what they are as functions of the features and the edge lists is
never opened. -/

section Stages

variable (x0 : (⟨S100000x128, .f32⟩ : BufTy).Contents (Elt Ideal)) (x1 : (⟨S100000x1, .f32⟩ : BufTy).Contents (Elt Ideal))
  (x2 x3 : (⟨S1600000, .i32⟩ : BufTy).Contents (Elt Ideal)) (x4 : (⟨S384x128, .f32⟩ : BufTy).Contents (Elt Ideal))
  (x5 x6 x7 : (⟨S128, .f32⟩ : BufTy).Contents (Elt Ideal))

/-- The linear layer with the graph norm: the 384-term product of the joined row with the weight's column, plus the
    bias, times the row's factor. -/
theorem layer_apply (r : Fin 100000) (e : Fin 128) :
    val_main_v53 (F := Ideal) x0 x1 x2 x3 x4 x5 (ix2 r e)
      = Cert.Spec.hR x0 (val_main_v26 (F := Ideal) x0 x2 x3) (val_main_v46 (F := Ideal) x0 x2 x3) x4 x5 x1 r e := by
  rw [val_main_v53_apply, val_main_v51_apply, val_main_v48_apply, val_main_v50_apply, val_main_v49_apply,
    val_main_v52_apply, idx49, idx52]
  unfold Cert.Spec.hR
  simp only [Ideal.mulf_def, Ideal.addf_def, lidx48, ridx48]
  unfold val_main_v47
  refine congrArg (fun s => (s + x5 (ix1 e)) * x1 (ix2 r (0 : Fin 1))) (Finset.sum_congr rfl fun k _ => ?_)
  exact congrArg (· * x4 (ix2 k e)) (joined_apply _ _ _ _ r k)

/-- The mean of a feature over all rows. -/
theorem mean_apply (e : Fin 128) :
    val_main_v56 (F := Ideal) x0 x1 x2 x3 x4 x5 (ix1 e)
      = Cert.Spec.meanR x0 (val_main_v26 (F := Ideal) x0 x2 x3) (val_main_v46 (F := Ideal) x0 x2 x3) x4 x5 x1 e := by
  rw [val_main_v56_apply, val_main_v54_apply, val_main_v55_apply, val_main_cst_13_apply, val_main_cst_12_apply]
  unfold Cert.Spec.meanR Cert.Spec.c0 Cert.Spec.cN
  simp only [Ideal.hostDivf_def, Ideal.ofBits_def, idx54, layer_apply]

/-- The mean of the squared deviations of a feature over all rows. -/
theorem var_apply (e : Fin 128) :
    val_main_v63 (F := Ideal) x0 x1 x2 x3 x4 x5 (ix1 e)
      = Cert.Spec.varR x0 (val_main_v26 (F := Ideal) x0 x2 x3) (val_main_v46 (F := Ideal) x0 x2 x3) x4 x5 x1 e := by
  rw [val_main_v63_apply, val_main_v61_apply, val_main_v62_apply, val_main_cst_15_apply, val_main_cst_14_apply]
  unfold Cert.Spec.varR Cert.Spec.c0 Cert.Spec.cN
  simp only [Ideal.hostDivf_def, Ideal.ofBits_def, idx61, val_main_v60_apply, val_main_v59_apply, val_main_v58_apply,
    val_main_v57_apply, idx57, layer_apply, mean_apply, Ideal.mulf_def, Ideal.subf_def]

/-- **The reference's result, index by index, is the specification's `Rout`** of the features, the two Chebyshev
    terms, the weight, the bias, the batch norm's scale and offset, and the row factors. -/
theorem ref_is_Rout (r : Fin 100000) (e : Fin 128) :
    val_main_v79 (F := Ideal) x0 x1 x2 x3 x4 x5 x6 x7 (ix2 r e)
      = Cert.Spec.Rout x0 (val_main_v26 (F := Ideal) x0 x2 x3) (val_main_v46 (F := Ideal) x0 x2 x3) x4 x5 x6 x7 x1 r e := by
  rw [val_main_v79_apply, val_main_v78_apply, val_main_v75_apply, val_main_v72_apply, val_main_v66_apply,
    val_main_v65_apply, val_main_v64_apply, val_main_v71_apply, val_main_v70_apply, val_main_v69_apply,
    val_main_v68_apply, val_main_v67_apply, val_main_cst_16_apply, val_main_v74_apply, val_main_v73_apply,
    val_main_v77_apply, val_main_v76_apply, val_main_call1_v0_apply, val_main_call1_cst_apply,
    idx64, idx70, idx73, idx76, layer_apply, mean_apply, var_apply]
  unfold Cert.Spec.Rout Cert.Spec.c0 Cert.Spec.cEps
  simp only [Ideal.maximumf_def, Ideal.addf_def, Ideal.mulf_def, Ideal.subf_def, Ideal.hostUnary_rsqrt_def,
    Ideal.ofBits_def]

end Stages

/-! ## The claims about the reference -/

/-- The reference terminates without a fault and leaves its eight arguments as it found them: its run with the result
    dropped. -/
theorem frame_ri : Cert.frame_ReferenceIdeal := fun m ρ _ =>
  (θ_run Cert.ReferenceIdeal.defs _ _).mono (fun _ h c => (h c).2) (Cert.ReferenceIdeal.Value.run (F := Ideal) m ρ)

/-- Every weakly fair execution of the reference terminates with its result array holding, at row `r` and feature
    `e`, the specification's `Rout` of the argument arrays (the two Chebyshev terms as the stages that compute them),
    and with the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v79)
        = (fun j => Cert.Spec.Rout (m' ((c.tc : Thread nD τ).loc main_arg0))
            (val_main_v26 (F := Ideal) (m' ((c.tc : Thread nD τ).loc main_arg0)) (m' ((c.tc : Thread nD τ).loc main_arg2))
              (m' ((c.tc : Thread nD τ).loc main_arg3)))
            (val_main_v46 (F := Ideal) (m' ((c.tc : Thread nD τ).loc main_arg0)) (m' ((c.tc : Thread nD τ).loc main_arg2))
              (m' ((c.tc : Thread nD τ).loc main_arg3)))
            (m' ((c.tc : Thread nD τ).loc main_arg4)) (m' ((c.tc : Thread nD τ).loc main_arg5))
            (m' ((c.tc : Thread nD τ).loc main_arg6)) (m' ((c.tc : Thread nD τ).loc main_arg7))
            (m' ((c.tc : Thread nD τ).loc main_arg1)) (j 0) (j 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) := by
  refine (θ_run defs _ _).mono (fun _ h c => ⟨(h c).1.trans ?_, (h c).2⟩) (Cert.ReferenceIdeal.Value.run (F := Ideal) m' ρ')
  rw [val_main_v79_eq]
  funext j
  obtain ⟨p, q, rfl⟩ : ∃ (p : Fin 100000) (q : Fin 128), j = ix2 p q := ⟨j 0, j 1, eq_ix2 j⟩
  exact ref_is_Rout _ _ _ _ _ _ _ _ p q

end Cert.ReferenceIdeal.RefValue

end
-- ==== Proof.lean ====
/-
  A Chebyshev graph-convolution layer with graph norm, batch norm and ReLU, computed two ways.

  The inputs are node features X0 (100000 rows, 128 columns), one graph-norm factor per row, an edge list (the sources
  and destinations of 1600000 edges), a 384 × 128 weight, a bias, and the batch norm's scale γ and offset β (128 entries
  each). Both programs first build the two further Chebyshev terms X1 and X2 from X0 and the edge list by the same chain
  of operations (the in-degrees, their inverse square roots after a clip at 1, two rounds of gathering rows and
  accumulating them along the edges); X1 and X2 enter everything below only as arrays. Then, per column and over the rows,

      h   = ([X0 | X1 | X2] · W + bias) · snorm,
      out = max (((h − mean h) · rsqrt (var h + ε)) · γ + β, 0).

  THE REFERENCE computes this as written: the three arrays joined along the columns, one 384-term product, the mean as
  the column sum divided by 100000, the variance as the mean of the squared deviations from the mean.

  THE KERNEL computes it in two regions with a little arithmetic between them.
  * The first region walks 2 halves of 25 blocks of 2000 rows. At a block it forms
    y = (((x0 · w0 + x1 · w1) + x2 · w2) + bias) · snorm with the three 128 × 128 slabs of W, stores y as that block of
    h, and adds the column sums of y and of y · y to two accumulators that are carried from block to block. A block is in
    one of three cases: the first block of a half sets both accumulators to zero before it adds; a middle block only
    adds; the last block of a half, after adding, copies the accumulators into that half's row of the two statistics
    arrays. So a half's statistics are the sums over its 25 blocks, that is, over its 50000 rows.
  * Between the regions the two halves are added; the sums divided by 100000 are the mean and the mean square;
    var = max (mean square − mean², 0), scale = γ · rsqrt (var + ε), shift = β − mean · scale.
  * The second region walks 50 blocks of 2000 rows: out = max (h · scale + shift, 0).

  WHAT JOINS THE TWO, on the extended reals (where a change of float format is the identity, so the kernel's narrowed
  operands are the operands themselves):
  * a 384-term sum is the sum of its three 128-term slabs, and the 2 · 25 · 2000 rows of the blocks are the 100000 rows,
    each once: associativity and commutativity of addition, true of all extended reals;
  * the variance identity: for real numbers h₁ … h_N with mean μ, (1/N) Σ (hᵢ − μ)² = (1/N) Σ hᵢ² − μ², and this number is
    not negative, so the kernel's clamp at zero changes nothing and the two variances are one real number v ≥ 0;
  * the distributive law: with ρ = rsqrt (v + ε), a real number because v + ε > 0,
    h · (γ · ρ) + (β − μ · (γ · ρ)) = ((h − μ) · ρ) · γ + β.

  WHERE FINITENESS IS USED. The precondition says that every entry of every float argument is a real number (neither an
  infinity nor the junk bottom element). The graph aggregation keeps real entries real (sums, products, maxima, a real
  power, entries moved by a gather, finitely many entries accumulated by a scatter), so X1 and X2 are arrays of reals,
  and then so is every entry of h. The variance identity and the distributive law are laws of the real numbers; on the
  extended reals they fail at the infinities (∞ − ∞), and they are the only reason for the precondition. The regrouping
  of the sums, the three frames and the reading of each program's result need none of it.

  THE CLAIMS. Each of the three programs (the kernel on float words, the kernel on extended reals, the reference on
  extended reals) terminates without a fault and leaves its eight arguments unchanged; the kernel on extended reals is
  the kernel's own text, no operation rewritten; and the kernel and the reference on extended reals, started from
  memories that agree on the arguments, end with the same result array.
-/
import proofs.«108745_j38998303048417_2_alg».proof.Defs
import proofs.«108745_j38998303048417_2_alg».proof.Proof.Gen.Kernel
import proofs.«108745_j38998303048417_2_alg».proof.Proof.Gen.Kernel.Skeleton
import proofs.«108745_j38998303048417_2_alg».proof.Proof.Gen.Kernel.Launch
import proofs.«108745_j38998303048417_2_alg».proof.Proof.Gen.Kernel.Regions
import proofs.«108745_j38998303048417_2_alg».proof.Proof.Gen.Kernel.Points
import proofs.«108745_j38998303048417_2_alg».proof.Proof.Gen.KernelIdeal
import proofs.«108745_j38998303048417_2_alg».proof.Proof.Gen.KernelIdeal.Skeleton
import proofs.«108745_j38998303048417_2_alg».proof.Proof.Gen.KernelIdeal.Launch
import proofs.«108745_j38998303048417_2_alg».proof.Proof.Gen.KernelIdeal.Regions
import proofs.«108745_j38998303048417_2_alg».proof.Proof.Gen.KernelIdeal.Points
import proofs.«108745_j38998303048417_2_alg».proof.Proof.Gen.ReferenceIdeal
import proofs.«108745_j38998303048417_2_alg».proof.Proof.Gen.ReferenceIdeal.Run
import proofs.«108745_j38998303048417_2_alg».proof.Proof.Gen.ReferenceIdeal.Read
import proofs.«108745_j38998303048417_2_alg».proof.Proof.Gen.Pre_finite_inputs
import proofs.«108745_j38998303048417_2_alg».proof.Proof.KB.Main
import proofs.«108745_j38998303048417_2_alg».proof.Proof.KI.Main
import proofs.«108745_j38998303048417_2_alg».proof.Proof.KI.KernelValue
import proofs.«108745_j38998303048417_2_alg».proof.Proof.RefValue
import Idealize.ShloMosaic.Adequacy
import Idealize.ShloMosaic.Init

noncomputable section

namespace Cert.Proof

open Idealize.ShloMosaic Idealize.SL.Sem

/-- The word-level kernel terminates without a fault and leaves its eight arguments as it found them. -/
theorem frame_p : Cert.frame_Kernel := fun m ρ _ => Cert.Kernel.Hand.frame (F := Bits) m ρ

/-- So does the kernel read over the extended reals. -/
theorem frame_pi : Cert.frame_KernelIdeal := fun m ρ _ => Cert.KernelIdeal.Hand.frame (F := Ideal) m ρ

/-- So does the reference. -/
theorem frame_ri : Cert.frame_ReferenceIdeal := Cert.ReferenceIdeal.RefValue.frame_ri

/-- The idealization rewrote no operation of the kernel: there is nothing to restate. -/
theorem preserves : Cert.preserves_Kernel_KernelIdeal := trivial

/-- Over the extended reals, from memories that agree on the eight arguments, the kernel's result array and the
    reference's end as the same array: the specification's `Rout` of the arguments, entry by entry. The kernel's run
    is stated with that array already (its own spelling `Kout` rewritten to `Rout` under the precondition); the
    reference's run is stated with `Rout` of ITS arguments, which are the kernel's. -/
theorem algebraic : Cert.algebraic_KernelIdeal_ReferenceIdeal := by
  intro m ρ m' ρ' hpre hagree
  refine ⟨_, Cert.KernelIdeal.Hand.kernel_run m ρ hpre, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7⟩ := hagree c
  rw [h0, h1, h2, h3, h4, h5, h6, h7] <;> rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
